-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v154_0)) (v1 : (c : Dev Cert.KernelIdeal.nD) → Buf (Elt Ideal) ((c.tc : Thread Cert.KernelIdeal.nD Cert.KernelIdeal.τ).loc Cert.KernelIdeal.main_v154_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154_0) = v0 c
          ∧ r.2.mem ((c.tc : Thread Cert.KernelIdeal.nD Cert.KernelIdeal.τ).loc Cert.KernelIdeal.main_v154_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x6 : Shape := ⟨2, ![50000, 6]⟩
abbrev S2x800000 : Shape := ⟨2, ![2, 800000]⟩
abbrev S800000 : Shape := ⟨1, ![800000]⟩
abbrev S5x6x128 : Shape := ⟨3, ![5, 6, 128]⟩
abbrev S128 : Shape := ⟨1, ![128]⟩
abbrev S5x128x6 : Shape := ⟨3, ![5, 128, 6]⟩
abbrev S6 : Shape := ⟨1, ![6]⟩
abbrev S_ : Shape := ⟨0, ![]⟩

class Facts : Prop where
  bcast_S_S50000x6 : S_.BroadcastsInDim S50000x6 (![] : Fin 0 → Fin S50000x6.rank)
  reducesTo_S50000x6_S_d0_1 : S50000x6.ReducesTo [0, 1] S_
  h_S_ : 0 < S_.numel
  bcast_S_S800000 : S_.BroadcastsInDim S800000 (![] : Fin 0 → Fin S800000.rank)
  reducesTo_S800000_S_d0 : S800000.ReducesTo [0] S_
  bcast_S_S5x6x128 : S_.BroadcastsInDim S5x6x128 (![] : Fin 0 → Fin S5x6x128.rank)
  reducesTo_S5x6x128_S_d0_1_2 : S5x6x128.ReducesTo [0, 1, 2] S_
  bcast_S_S128 : S_.BroadcastsInDim S128 (![] : Fin 0 → Fin S128.rank)
  reducesTo_S128_S_d0 : S128.ReducesTo [0] S_
  bcast_S_S5x128x6 : S_.BroadcastsInDim S5x128x6 (![] : Fin 0 → Fin S5x128x6.rank)
  reducesTo_S5x128x6_S_d0_1_2 : S5x128x6.ReducesTo [0, 1, 2] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S5x128x6 .f32) (main_arg6 : FVec F S6 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S5x128x6 .f32 := Host.absf main_arg5
  let main_cst_6 : FVec F S_ .f32 := constant S_ .f32 0x7F800000#32
  let main_v20 : FVec F S5x128x6 .f32 := broadcastInDim S5x128x6 ![] bcast_S_S5x128x6 main_cst_6
  let main_v21 : IVec S5x128x6 1 := cmpf .olt main_v19 main_v20
  let main_c_7 : IVec S_ 1 := constantI S_ 1 1#1
  let main_v22 : IVec S_ 1 := (fun x v => Host.reduce IntOp.andi x v reducesTo_S5x128x6_S_d0_1_2 h_S_) main_v21 main_c_7
  let main_v23 : IVec S_ 1 := andi main_v18 main_v22
  let main_v24 : FVec F S6 .f32 := Host.absf main_arg6
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  main_v28

def fn {F : FTy → Type} [FloatOps F] (main_arg0 : FVec F S50000x6 .f32) (main_arg1 : IVec S2x800000 32) (main_arg2 : FVec F S800000 .f32) (main_arg3 : FVec F S5x6x128 .f32) (main_arg4 : FVec F S128 .f32) (main_arg5 : FVec F S5x128x6 .f32) (main_arg6 : FVec F S6 .f32) : IVec S_ 1 :=
  let main_v0 : FVec F S50000x6 .f32 := Host.absf main_arg0
  let main_cst : FVec F S_ .f32 := constant S_ .f32 0x7F800000#32
  let main_v1 : FVec F S50000x6 .f32 := broadcastInDim S50000x6 ![] bcast_S_S50000x6 main_cst
  let main_v2 : IVec S50000x6 1 := cmpf .olt main_v0 main_v1
  let main_c : IVec S_ 1 := constantI S_ 1 1#1
  let main_v3 : IVec S_ 1 := (fun x v => Host.reduce IntOp.andi x v reducesTo_S50000x6_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S5x6x128 .f32 := Host.absf main_arg3
  let main_cst_2 : FVec F S_ .f32 := constant S_ .f32 0x7F800000#32
  let main_v10 : FVec F S5x6x128 .f32 := broadcastInDim S5x6x128 ![] bcast_S_S5x6x128 main_cst_2
  let main_v11 : IVec S5x6x128 1 := cmpf .olt main_v9 main_v10
  let main_c_3 : IVec S_ 1 := constantI S_ 1 1#1
  let main_v12 : IVec S_ 1 := (fun x v => Host.reduce IntOp.andi x v reducesTo_S5x6x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x6 : Shape := ⟨2, ![50000, 6]⟩
abbrev S2x800000 : Shape := ⟨2, ![2, 800000]⟩
abbrev S800000 : Shape := ⟨1, ![800000]⟩
abbrev S5x6x128 : Shape := ⟨3, ![5, 6, 128]⟩
abbrev S128 : Shape := ⟨1, ![128]⟩
abbrev S5x128x6 : Shape := ⟨3, ![5, 128, 6]⟩
abbrev S6 : Shape := ⟨1, ![6]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x6 : Shape := ⟨2, ![800000, 6]⟩
abbrev S1x50000x6 : Shape := ⟨3, ![1, 50000, 6]⟩
abbrev S5x50000x6 : Shape := ⟨3, ![5, 50000, 6]⟩
abbrev S1x128 : Shape := ⟨2, ![1, 128]⟩
abbrev S50000x128 : Shape := ⟨2, ![50000, 128]⟩
abbrev S5x2000x6 : Shape := ⟨3, ![5, 2000, 6]⟩
abbrev S2000x128 : Shape := ⟨2, ![2000, 128]⟩
abbrev S1x2000x6 : Shape := ⟨3, ![1, 2000, 6]⟩
abbrev S2000x6 : Shape := ⟨2, ![2000, 6]⟩
abbrev S1x6x128 : Shape := ⟨3, ![1, 6, 128]⟩
abbrev S6x128 : Shape := ⟨2, ![6, 128]⟩
abbrev S800000x128 : Shape := ⟨2, ![800000, 128]⟩
abbrev S1x50000x128 : Shape := ⟨3, ![1, 50000, 128]⟩
abbrev S5x50000x128 : Shape := ⟨3, ![5, 50000, 128]⟩
abbrev S1x6 : Shape := ⟨2, ![1, 6]⟩
abbrev S50000x3 : Shape := ⟨2, ![50000, 3]⟩
abbrev S5x2000x128 : Shape := ⟨3, ![5, 2000, 128]⟩
abbrev S2000x3 : Shape := ⟨2, ![2000, 3]⟩
abbrev S1x2000x128 : Shape := ⟨3, ![1, 2000, 128]⟩
abbrev S1x128x6 : Shape := ⟨3, ![1, 128, 6]⟩
abbrev S128x6 : Shape := ⟨2, ![128, 6]⟩

abbrev nBuf : Space → Nat
  | .hbm => 196
  | .vmem => 14
  | .smem => 0
  | _ => 0

abbrev hbmTy0_0 (i : Nat) : BufTy := match i % 128 with
  | 0 => ⟨S50000x6, .f32⟩
  | 1 => ⟨S2x800000, .i32⟩
  | 2 => ⟨S800000, .f32⟩
  | 3 => ⟨S5x6x128, .f32⟩
  | 4 => ⟨S128, .f32⟩
  | 5 => ⟨S5x128x6, .f32⟩
  | 6 => ⟨S6, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S1x800000, .i32⟩
  | 44 => ⟨S800000, .i32⟩
  | 45 => ⟨S1x800000, .i32⟩
  | 46 => ⟨S800000, .i32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x6, .f32⟩
  | 56 => ⟨S800000x1, .f32⟩
  | 57 => ⟨S800000x6, .f32⟩
  | 58 => ⟨S800000x6, .f32⟩
  | 59 => ⟨S_, .f32⟩
  | 60 => ⟨S50000x6, .f32⟩
  | 61 => ⟨S800000x1, .i32⟩
  | 62 => ⟨S50000x6, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x6, .f32⟩
  | 72 => ⟨S800000x1, .f32⟩
  | 73 => ⟨S800000x6, .f32⟩
  | 74 => ⟨S800000x6, .f32⟩
  | 75 => ⟨S_, .f32⟩
  | 76 => ⟨S50000x6, .f32⟩
  | 77 => ⟨S800000x1, .i32⟩
  | 78 => ⟨S50000x6, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x6, .f32⟩
  | 88 => ⟨S800000x1, .f32⟩
  | 89 => ⟨S800000x6, .f32⟩
  | 90 => ⟨S800000x6, .f32⟩
  | 91 => ⟨S_, .f32⟩
  | 92 => ⟨S50000x6, .f32⟩
  | 93 => ⟨S800000x1, .i32⟩
  | 94 => ⟨S50000x6, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x6, .f32⟩
  | 104 => ⟨S800000x1, .f32⟩
  | 105 => ⟨S800000x6, .f32⟩
  | 106 => ⟨S800000x6, .f32⟩
  | 107 => ⟨S_, .f32⟩
  | 108 => ⟨S50000x6, .f32⟩
  | 109 => ⟨S800000x1, .i32⟩
  | 110 => ⟨S50000x6, .f32⟩
  | 111 => ⟨S1x50000x6, .f32⟩
  | 112 => ⟨S1x50000x6, .f32⟩
  | 113 => ⟨S1x50000x6, .f32⟩
  | 114 => ⟨S1x50000x6, .f32⟩
  | 115 => ⟨S1x50000x6, .f32⟩
  | 116 => ⟨S5x50000x6, .f32⟩
  | 117 => ⟨S1x128, .f32⟩
  | 118 => ⟨S50000x128, .f32⟩
  | 119 => ⟨S1x800000, .i32⟩
  | 120 => ⟨S800000, .i32⟩
  | 121 => ⟨S1x800000, .i32⟩
  | 122 => ⟨S800000, .i32⟩
  | 123 => ⟨S_, .i32⟩
  | 124 => ⟨S800000, .i32⟩
  | 125 => ⟨S800000, .i1⟩
  | 126 => ⟨S_, .i32⟩
  | 127 => ⟨S800000, .i32⟩
  | _ => ⟨S50000x6, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S800000x1, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x1, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S800000x1, .f32⟩
  | 53 => ⟨S800000x128, .f32⟩
  | 54 => ⟨S800000x128, .f32⟩
  | 55 => ⟨S_, .f32⟩
  | 56 => ⟨S50000x128, .f32⟩
  | 57 => ⟨S800000x1, .i32⟩
  | 58 => ⟨S50000x128, .f32⟩
  | 59 => ⟨S1x50000x128, .f32⟩
  | 60 => ⟨S1x50000x128, .f32⟩
  | 61 => ⟨S1x50000x128, .f32⟩
  | 62 => ⟨S1x50000x128, .f32⟩
  | 63 => ⟨S1x50000x128, .f32⟩
  | 64 => ⟨S5x50000x128, .f32⟩
  | 65 => ⟨S1x6, .f32⟩
  | 66 => ⟨S50000x3, .f32⟩
  | 67 => ⟨S50000x3, .f32⟩
  | _ => ⟨S50000x6, .f32⟩

abbrev hbmTy (i : Nat) : BufTy := match i / 128 with
  | 0 => hbmTy0_0 i
  | 1 => hbmTy0_1 i
  | _ => ⟨S50000x6, .f32⟩

abbrev bufTy : (tb : Table) → Fin (tcTables nBuf tb) → BufTy
  | .hbm, ⟨i, _⟩ => hbmTy i
  | .local _ .vmem, ⟨0, _⟩ => ⟨S5x2000x6, .f32⟩
  | .local _ .vmem, ⟨1, _⟩ => ⟨S5x2000x6, .f32⟩
  | .local _ .vmem, ⟨2, _⟩ => ⟨S5x6x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S5x2000x128, .f32⟩
  | .local _ .vmem, ⟨7, _⟩ => ⟨S5x2000x128, .f32⟩
  | .local _ .vmem, ⟨8, _⟩ => ⟨S5x128x6, .f32⟩
  | .local _ .vmem, ⟨9, _⟩ => ⟨S1x6, .f32⟩
  | .local _ .vmem, ⟨10, _⟩ => ⟨S2000x3, .f32⟩
  | .local _ .vmem, ⟨11, _⟩ => ⟨S2000x3, .f32⟩
  | .local _ .vmem, ⟨12, _⟩ => ⟨S2000x3, .f32⟩
  | .local _ .vmem, ⟨13, _⟩ => ⟨S2000x3, .f32⟩
  | _, _ => ⟨S50000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_17 : Ref sig .tc := ⟨.hbm, 123, rfl⟩
abbrev main_v95 : Ref sig .tc := ⟨.hbm, 124, rfl⟩
abbrev main_v96 : Ref sig .tc := ⟨.hbm, 125, rfl⟩
abbrev main_c_18 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_20 : Ref sig .tc := ⟨.hbm, 139, rfl⟩
abbrev main_v108 : Ref sig .tc := ⟨.hbm, 140, rfl⟩
abbrev main_v109 : Ref sig .tc := ⟨.hbm, 141, rfl⟩
abbrev main_c_21 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_22 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_c_23 : Ref sig .tc := ⟨.hbm, 155, rfl⟩
abbrev main_v121 : Ref sig .tc := ⟨.hbm, 156, rfl⟩
abbrev main_v122 : Ref sig .tc := ⟨.hbm, 157, rfl⟩
abbrev main_c_24 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_25 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_c_26 : Ref sig .tc := ⟨.hbm, 171, rfl⟩
abbrev main_v134 : Ref sig .tc := ⟨.hbm, 172, rfl⟩
abbrev main_v135 : Ref sig .tc := ⟨.hbm, 173, rfl⟩
abbrev main_c_27 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_28 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154_0 : Ref sig .tc := ⟨.hbm, 194, rfl⟩
abbrev main_v154_1 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5x2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x128x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x6_0_1 : S800000x1.BroadcastsInDim S800000x6 (![0, 1] : Fin 2 → Fin S800000x6.rank)
  bcast_S_S50000x6 : S_.BroadcastsInDim S50000x6 (![] : Fin 0 → Fin S50000x6.rank)
  bcast_S50000x6_S1x50000x6_1_2 : S50000x6.BroadcastsInDim S1x50000x6 (![1, 2] : Fin 2 → Fin S1x50000x6.rank)
  concatenates_S1x50000x6_S1x50000x6_S1x50000x6_S1x50000x6_S1x50000x6_S5x50000x6_d0 : Shape.Concatenates [S1x50000x6, S1x50000x6, S1x50000x6, S1x50000x6, S1x50000x6] S5x50000x6 0
  shapeCasts_S128_S1x128 : S128.ShapeCasts S1x128
  inb_S5x2000x6_S1x2000x6_0_0_0 : ∀ a, (![0, 0, 0] : Fin 3 → Nat) a + S1x2000x6.size a ≤ S5x2000x6.size a
  h_S1x2000x6 : 0 < S1x2000x6.numel
  shapeCasts_S1x2000x6_S2000x6 : S1x2000x6.ShapeCasts S2000x6
  bitsLt_bf16_f32 : FTy.bits .bf16 < FTy.bits .f32
  inb_S5x6x128_S1x6x128_0_0_0 : ∀ a, (![0, 0, 0] : Fin 3 → Nat) a + S1x6x128.size a ≤ S5x6x128.size a
  h_S1x6x128 : 0 < S1x6x128.numel
  shapeCasts_S1x6x128_S6x128 : S1x6x128.ShapeCasts S6x128
  inb_S5x2000x6_S1x2000x6_1_0_0 : ∀ a, (![1, 0, 0] : Fin 3 → Nat) a + S1x2000x6.size a ≤ S5x2000x6.size a
  inb_S5x6x128_S1x6x128_1_0_0 : ∀ a, (![1, 0, 0] : Fin 3 → Nat) a + S1x6x128.size a ≤ S5x6x128.size a
  inb_S5x2000x6_S1x2000x6_2_0_0 : ∀ a, (![2, 0, 0] : Fin 3 → Nat) a + S1x2000x6.size a ≤ S5x2000x6.size a
  inb_S5x6x128_S1x6x128_2_0_0 : ∀ a, (![2, 0, 0] : Fin 3 → Nat) a + S1x6x128.size a ≤ S5x6x128.size a
  inb_S5x2000x6_S1x2000x6_3_0_0 : ∀ a, (![3, 0, 0] : Fin 3 → Nat) a + S1x2000x6.size a ≤ S5x2000x6.size a
  inb_S5x6x128_S1x6x128_3_0_0 : ∀ a, (![3, 0, 0] : Fin 3 → Nat) a + S1x6x128.size a ≤ S5x6x128.size a
  inb_S5x2000x6_S1x2000x6_4_0_0 : ∀ a, (![4, 0, 0] : Fin 3 → Nat) a + S1x2000x6.size a ≤ S5x2000x6.size a
  inb_S5x6x128_S1x6x128_4_0_0 : ∀ a, (![4, 0, 0] : Fin 3 → Nat) a + S1x6x128.size a ≤ S5x6x128.size a
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S5x50000x128_d0 : Shape.Concatenates [S1x50000x128, S1x50000x128, S1x50000x128, S1x50000x128, S1x50000x128] S5x50000x128 0
  shapeCasts_S6_S1x6 : S6.ShapeCasts S1x6
  inb_S5x2000x128_S1x2000x128_0_0_0 : ∀ a, (![0, 0, 0] : Fin 3 → Nat) a + S1x2000x128.size a ≤ S5x2000x128.size a
  h_S1x2000x128 : 0 < S1x2000x128.numel
  shapeCasts_S1x2000x128_S2000x128 : S1x2000x128.ShapeCasts S2000x128
  inb_S5x128x6_S1x128x6_0_0_0 : ∀ a, (![0, 0, 0] : Fin 3 → Nat) a + S1x128x6.size a ≤ S5x128x6.size a
  h_S1x128x6 : 0 < S1x128x6.numel
  shapeCasts_S1x128x6_S128x6 : S1x128x6.ShapeCasts S128x6
  inb_S5x2000x128_S1x2000x128_1_0_0 : ∀ a, (![1, 0, 0] : Fin 3 → Nat) a + S1x2000x128.size a ≤ S5x2000x128.size a
  inb_S5x128x6_S1x128x6_1_0_0 : ∀ a, (![1, 0, 0] : Fin 3 → Nat) a + S1x128x6.size a ≤ S5x128x6.size a
  inb_S5x2000x128_S1x2000x128_2_0_0 : ∀ a, (![2, 0, 0] : Fin 3 → Nat) a + S1x2000x128.size a ≤ S5x2000x128.size a
  inb_S5x128x6_S1x128x6_2_0_0 : ∀ a, (![2, 0, 0] : Fin 3 → Nat) a + S1x128x6.size a ≤ S5x128x6.size a
  inb_S5x2000x128_S1x2000x128_3_0_0 : ∀ a, (![3, 0, 0] : Fin 3 → Nat) a + S1x2000x128.size a ≤ S5x2000x128.size a
  inb_S5x128x6_S1x128x6_3_0_0 : ∀ a, (![3, 0, 0] : Fin 3 → Nat) a + S1x128x6.size a ≤ S5x128x6.size a
  inb_S5x2000x128_S1x2000x128_4_0_0 : ∀ a, (![4, 0, 0] : Fin 3 → Nat) a + S1x2000x128.size a ≤ S5x2000x128.size a
  inb_S5x128x6_S1x128x6_4_0_0 : ∀ a, (![4, 0, 0] : Fin 3 → Nat) a + S1x128x6.size a ≤ S5x128x6.size a
  inb_S1x6_S1x6_0_0 : ∀ a, (![0, 0] : Fin 2 → Nat) a + S1x6.size a ≤ S1x6.size a
  h_S1x6 : 0 < S1x6.numel
  shapeCasts_S1x6_S6 : S1x6.ShapeCasts S6
  broadcasts_S1x6_S2000x6 : S1x6.Broadcasts S2000x6
  slices_S2000x6_o0_0_S2000x3 : S2000x6.Slices ![0, 0] S2000x3
  slices_S2000x6_o0_3_S2000x3 : S2000x6.Slices ![0, 3] S2000x3
  inb_S2000x3_S2000x3_0_0 : ∀ a, (![0, 0] : Fin 2 → Nat) a + S2000x3.size a ≤ S2000x3.size a
  h_S2000x3 : 0 < S2000x3.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x6_S800000x1_S800000x6_1_0_n_n_0_1_16_wf : GatherDims.WF S50000x6 S800000x1 S800000x6 [1] [0] [] [0] [] 1 ![1, 6]
  scatter_S50000x6_S800000x1_S800000x6_1_0_0_1_wf : ScatterDims.WF S50000x6 S800000x1 S800000x6 [1] [0] [0] 1
  dot_S2000x6_S6x128_S2000x128_1_0_0_1_n_n_wf : DotDims.WF S2000x6 S6x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x6_S2000x6_1_0_0_1_n_n_wf : DotDims.WF S2000x128 S128x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x2000x6.size a ≤ S5x50000x6.size a
  hwx0_0 : ∀ i : grid0.Coords, EltTy.bits .f32 = 32 ∨ (Rect.block (s := S5x50000x6) S5x2000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x6x128.size a ≤ S5x6x128.size a
  hwx0_1 : ∀ i : grid0.Coords, EltTy.bits .f32 = 32 ∨ (Rect.block (s := S5x6x128) S5x6x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5x2000x128.size a ≤ S5x50000x128.size a
  hwx1_0 : ∀ i : grid1.Coords, EltTy.bits .f32 = 32 ∨ (Rect.block (s := S5x50000x128) S5x2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x128x6.size a ≤ S5x128x6.size a
  hwx1_1 : ∀ i : grid1.Coords, EltTy.bits .f32 = 32 ∨ (Rect.block (s := S5x128x6) S5x128x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x6.size a ≤ S1x6.size a
  hwx1_2 : ∀ i : grid1.Coords, EltTy.bits .f32 = 32 ∨ (Rect.block (s := S1x6) S1x6.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x3.size a ≤ S50000x3.size a
  hwx1_4 : ∀ i : grid1.Coords, EltTy.bits .f32 = 32 ∨ (Rect.block (s := S50000x3) S2000x3.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x6_S800000x1_S800000x6_1_0_n_n_0_1_16 : GatherDims S50000x6 S800000x1 S800000x6 where
  offsetDims := [1]
  collapsedSliceDims := [0]
  operandBatchingDims := []
  startIndicesBatchingDims := []
  startIndexMap := [0]
  indexVectorDim := 1
  sliceSizes := ![1, 6]
  wf := gather_S50000x6_S800000x1_S800000x6_1_0_n_n_0_1_16_wf
def scatter_S50000x6_S800000x1_S800000x6_1_0_0_1 : ScatterDims S50000x6 S800000x1 S800000x6 where
  updateWindowDims := [1]
  insertedWindowDims := [0]
  scatterDimsToOperandDims := [0]
  indexVectorDim := 1
  wf := scatter_S50000x6_S800000x1_S800000x6_1_0_0_1_wf
def dot_S2000x6_S6x128_S2000x128_1_0_0_1_n_n : DotDims S2000x6 S6x128 S2000x128 where
  lhsContracting := [1]
  rhsContracting := [0]
  lhsNonContracting := [0]
  rhsNonContracting := [1]
  lhsBatch := []
  rhsBatch := []
  wf := dot_S2000x6_S6x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x6_S2000x6_1_0_0_1_n_n : DotDims S2000x128 S128x6 S2000x6 where
  lhsContracting := [1]
  rhsContracting := [0]
  lhsNonContracting := [0]
  rhsNonContracting := [1]
  lhsBatch := []
  rhsBatch := []
  wf := dot_S2000x128_S128x6_S2000x6_1_0_0_1_n_n_wf

abbrev win0_0 : Pipeline.Window sig grid0 :=
  Pipeline.Window.ofSpec (Memref.whole main_v88) S5x2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v89) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v152) S5x2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S5x128x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v153) S1x6.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v154_0) S2000x3.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v154_1) S2000x3.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x6 : Shape := ⟨2, ![50000, 6]⟩
abbrev S2x800000 : Shape := ⟨2, ![2, 800000]⟩
abbrev S800000 : Shape := ⟨1, ![800000]⟩
abbrev S5x6x128 : Shape := ⟨3, ![5, 6, 128]⟩
abbrev S128 : Shape := ⟨1, ![128]⟩
abbrev S5x128x6 : Shape := ⟨3, ![5, 128, 6]⟩
abbrev S6 : Shape := ⟨1, ![6]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x6x128 : Shape := ⟨3, ![1, 6, 128]⟩
abbrev S6x128 : Shape := ⟨2, ![6, 128]⟩
abbrev S50000x128 : Shape := ⟨2, ![50000, 128]⟩
abbrev S800000x6 : Shape := ⟨2, ![800000, 6]⟩
abbrev S1x128 : Shape := ⟨2, ![1, 128]⟩
abbrev S1x128x6 : Shape := ⟨3, ![1, 128, 6]⟩
abbrev S128x6 : Shape := ⟨2, ![128, 6]⟩
abbrev S800000x128 : Shape := ⟨2, ![800000, 128]⟩
abbrev S1x6 : Shape := ⟨2, ![1, 6]⟩
abbrev S50000x3 : Shape := ⟨2, ![50000, 3]⟩

abbrev nBuf : Space → Nat
  | .hbm => 234
  | .vmem => 0
  | .smem => 0
  | _ => 0

abbrev hbmTy0_0 (i : Nat) : BufTy := match i % 128 with
  | 0 => ⟨S50000x6, .f32⟩
  | 1 => ⟨S2x800000, .i32⟩
  | 2 => ⟨S800000, .f32⟩
  | 3 => ⟨S5x6x128, .f32⟩
  | 4 => ⟨S128, .f32⟩
  | 5 => ⟨S5x128x6, .f32⟩
  | 6 => ⟨S6, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S50000, .f32⟩
  | 13 => ⟨S800000x1, .i32⟩
  | 14 => ⟨S50000, .f32⟩
  | 15 => ⟨S_, .f32⟩
  | 16 => ⟨S50000, .f32⟩
  | 17 => ⟨S50000, .i1⟩
  | 18 => ⟨S50000, .f32⟩
  | 19 => ⟨S_, .f32⟩
  | 20 => ⟨S_, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S1x800000, .i32⟩
  | 44 => ⟨S800000, .i32⟩
  | 45 => ⟨S1x800000, .i32⟩
  | 46 => ⟨S800000, .i32⟩
  | 47 => ⟨S1x6x128, .f32⟩
  | 48 => ⟨S6x128, .f32⟩
  | 49 => ⟨S50000x128, .f32⟩
  | 50 => ⟨S800000x1, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x6, .f32⟩
  | 60 => ⟨S800000x6, .f32⟩
  | 61 => ⟨S800000x6, .f32⟩
  | 62 => ⟨S_, .f32⟩
  | 63 => ⟨S50000x6, .f32⟩
  | 64 => ⟨S800000x1, .i32⟩
  | 65 => ⟨S50000x6, .f32⟩
  | 66 => ⟨S1x6x128, .f32⟩
  | 67 => ⟨S6x128, .f32⟩
  | 68 => ⟨S50000x128, .f32⟩
  | 69 => ⟨S50000x128, .f32⟩
  | 70 => ⟨S800000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x6, .f32⟩
  | 80 => ⟨S800000x6, .f32⟩
  | 81 => ⟨S800000x6, .f32⟩
  | 82 => ⟨S_, .f32⟩
  | 83 => ⟨S50000x6, .f32⟩
  | 84 => ⟨S800000x1, .i32⟩
  | 85 => ⟨S50000x6, .f32⟩
  | 86 => ⟨S1x6x128, .f32⟩
  | 87 => ⟨S6x128, .f32⟩
  | 88 => ⟨S50000x128, .f32⟩
  | 89 => ⟨S50000x128, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x6, .f32⟩
  | 100 => ⟨S800000x6, .f32⟩
  | 101 => ⟨S800000x6, .f32⟩
  | 102 => ⟨S_, .f32⟩
  | 103 => ⟨S50000x6, .f32⟩
  | 104 => ⟨S800000x1, .i32⟩
  | 105 => ⟨S50000x6, .f32⟩
  | 106 => ⟨S1x6x128, .f32⟩
  | 107 => ⟨S6x128, .f32⟩
  | 108 => ⟨S50000x128, .f32⟩
  | 109 => ⟨S50000x128, .f32⟩
  | 110 => ⟨S800000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x6, .f32⟩
  | 120 => ⟨S800000x6, .f32⟩
  | 121 => ⟨S800000x6, .f32⟩
  | 122 => ⟨S_, .f32⟩
  | 123 => ⟨S50000x6, .f32⟩
  | 124 => ⟨S800000x1, .i32⟩
  | 125 => ⟨S50000x6, .f32⟩
  | 126 => ⟨S1x6x128, .f32⟩
  | 127 => ⟨S6x128, .f32⟩
  | _ => ⟨S50000x6, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x800000, .i32⟩
  | 9 => ⟨S800000, .i32⟩
  | 10 => ⟨S1x800000, .i32⟩
  | 11 => ⟨S800000, .i32⟩
  | 12 => ⟨S1x128x6, .f32⟩
  | 13 => ⟨S128x6, .f32⟩
  | 14 => ⟨S50000x6, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1x128x6, .f32⟩
  | 32 => ⟨S128x6, .f32⟩
  | 33 => ⟨S50000x6, .f32⟩
  | 34 => ⟨S50000x6, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1x128x6, .f32⟩
  | 52 => ⟨S128x6, .f32⟩
  | 53 => ⟨S50000x6, .f32⟩
  | 54 => ⟨S50000x6, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128x6, .f32⟩
  | 72 => ⟨S128x6, .f32⟩
  | 73 => ⟨S50000x6, .f32⟩
  | 74 => ⟨S50000x6, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128x6, .f32⟩
  | 92 => ⟨S128x6, .f32⟩
  | 93 => ⟨S50000x6, .f32⟩
  | 94 => ⟨S50000x6, .f32⟩
  | 95 => ⟨S1x6, .f32⟩
  | 96 => ⟨S50000x6, .f32⟩
  | 97 => ⟨S50000x6, .f32⟩
  | 98 => ⟨S50000x3, .f32⟩
  | 99 => ⟨S50000x3, .f32⟩
  | 100 => ⟨S50000x3, .f32⟩
  | 101 => ⟨S50000x3, .f32⟩
  | 102 => ⟨S_, .f32⟩
  | 103 => ⟨S50000x3, .f32⟩
  | 104 => ⟨S50000x3, .f32⟩
  | 105 => ⟨S50000x3, .f32⟩
  | _ => ⟨S50000x6, .f32⟩

abbrev hbmTy (i : Nat) : BufTy := match i / 128 with
  | 0 => hbmTy0_0 i
  | 1 => hbmTy0_1 i
  | _ => ⟨S50000x6, .f32⟩

abbrev bufTy : (tb : Table) → Fin (tcTables nBuf tb) → BufTy
  | .hbm, ⟨i, _⟩ => hbmTy i
  | _, _ => ⟨S50000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_v69 : Ref sig .tc := ⟨.hbm, 92, rfl⟩
abbrev main_v70 : Ref sig .tc := ⟨.hbm, 93, rfl⟩
abbrev main_c_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_14 : Ref sig .tc := ⟨.hbm, 111, rfl⟩
abbrev main_v86 : Ref sig .tc := ⟨.hbm, 112, rfl⟩
abbrev main_v87 : Ref sig .tc := ⟨.hbm, 113, rfl⟩
abbrev main_c_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_16 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_call1_cst : Ref sig .tc := ⟨.hbm, 133, rfl⟩
abbrev main_call1_v0 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_17 : Ref sig .tc := ⟨.hbm, 144, rfl⟩
abbrev main_v114 : Ref sig .tc := ⟨.hbm, 145, rfl⟩
abbrev main_v115 : Ref sig .tc := ⟨.hbm, 146, rfl⟩
abbrev main_c_18 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_19 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_20 : Ref sig .tc := ⟨.hbm, 164, rfl⟩
abbrev main_v131 : Ref sig .tc := ⟨.hbm, 165, rfl⟩
abbrev main_v132 : Ref sig .tc := ⟨.hbm, 166, rfl⟩
abbrev main_c_21 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_22 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_c_23 : Ref sig .tc := ⟨.hbm, 184, rfl⟩
abbrev main_v148 : Ref sig .tc := ⟨.hbm, 185, rfl⟩
abbrev main_v149 : Ref sig .tc := ⟨.hbm, 186, rfl⟩
abbrev main_c_24 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_25 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_c_26 : Ref sig .tc := ⟨.hbm, 204, rfl⟩
abbrev main_v165 : Ref sig .tc := ⟨.hbm, 205, rfl⟩
abbrev main_v166 : Ref sig .tc := ⟨.hbm, 206, rfl⟩
abbrev main_c_27 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_cst_28 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_cst_29 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S5x6x128_S1x6x128_0_0_0 : S5x6x128.Slices ![0, 0, 0] S1x6x128
  shapeCasts_S1x6x128_S6x128 : S1x6x128.ShapeCasts S6x128
  bcast_S800000x1_S800000x6_0_1 : S800000x1.BroadcastsInDim S800000x6 (![0, 1] : Fin 2 → Fin S800000x6.rank)
  bcast_S_S50000x6 : S_.BroadcastsInDim S50000x6 (![] : Fin 0 → Fin S50000x6.rank)
  slices_S5x6x128_S1x6x128_1_0_0 : S5x6x128.Slices ![1, 0, 0] S1x6x128
  slices_S5x6x128_S1x6x128_2_0_0 : S5x6x128.Slices ![2, 0, 0] S1x6x128
  slices_S5x6x128_S1x6x128_3_0_0 : S5x6x128.Slices ![3, 0, 0] S1x6x128
  slices_S5x6x128_S1x6x128_4_0_0 : S5x6x128.Slices ![4, 0, 0] S1x6x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S5x128x6_S1x128x6_0_0_0 : S5x128x6.Slices ![0, 0, 0] S1x128x6
  shapeCasts_S1x128x6_S128x6 : S1x128x6.ShapeCasts S128x6
  bcast_S800000x1_S800000x128_0_1 : S800000x1.BroadcastsInDim S800000x128 (![0, 1] : Fin 2 → Fin S800000x128.rank)
  slices_S5x128x6_S1x128x6_1_0_0 : S5x128x6.Slices ![1, 0, 0] S1x128x6
  slices_S5x128x6_S1x128x6_2_0_0 : S5x128x6.Slices ![2, 0, 0] S1x128x6
  slices_S5x128x6_S1x128x6_3_0_0 : S5x128x6.Slices ![3, 0, 0] S1x128x6
  slices_S5x128x6_S1x128x6_4_0_0 : S5x128x6.Slices ![4, 0, 0] S1x128x6
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  slices_S50000x6_S50000x3_0_0 : S50000x6.Slices ![0, 0] S50000x3
  slices_S50000x6_S50000x3_0_3 : S50000x6.Slices ![0, 3] S50000x3
  bcast_S_S50000x3 : S_.BroadcastsInDim S50000x3 (![] : Fin 0 → Fin S50000x3.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x6_S6x128_S50000x128_1_0_0_1_n_n_wf : DotDims.WF S50000x6 S6x128 S50000x128 [1] [0] [0] [1] [] []
  gather_S50000x6_S800000x1_S800000x6_1_0_n_n_0_1_16_wf : GatherDims.WF S50000x6 S800000x1 S800000x6 [1] [0] [] [0] [] 1 ![1, 6]
  scatter_S50000x6_S800000x1_S800000x6_1_0_0_1_wf : ScatterDims.WF S50000x6 S800000x1 S800000x6 [1] [0] [0] 1
  dot_S50000x128_S128x6_S50000x6_1_0_0_1_n_n_wf : DotDims.WF S50000x128 S128x6 S50000x6 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x6_S6x128_S50000x128_1_0_0_1_n_n : DotDims S50000x6 S6x128 S50000x128 where
  lhsContracting := [1]
  rhsContracting := [0]
  lhsNonContracting := [0]
  rhsNonContracting := [1]
  lhsBatch := []
  rhsBatch := []
  wf := dot_S50000x6_S6x128_S50000x128_1_0_0_1_n_n_wf
def gather_S50000x6_S800000x1_S800000x6_1_0_n_n_0_1_16 : GatherDims S50000x6 S800000x1 S800000x6 where
  offsetDims := [1]
  collapsedSliceDims := [0]
  operandBatchingDims := []
  startIndicesBatchingDims := []
  startIndexMap := [0]
  indexVectorDim := 1
  sliceSizes := ![1, 6]
  wf := gather_S50000x6_S800000x1_S800000x6_1_0_n_n_0_1_16_wf
def scatter_S50000x6_S800000x1_S800000x6_1_0_0_1 : ScatterDims S50000x6 S800000x1 S800000x6 where
  updateWindowDims := [1]
  insertedWindowDims := [0]
  scatterDimsToOperandDims := [0]
  indexVectorDim := 1
  wf := scatter_S50000x6_S800000x1_S800000x6_1_0_0_1_wf
def dot_S50000x128_S128x6_S50000x6_1_0_0_1_n_n : DotDims S50000x128 S128x6 S50000x6 where
  lhsContracting := [1]
  rhsContracting := [0]
  lhsNonContracting := [0]
  rhsNonContracting := [1]
  lhsBatch := []
  rhsBatch := []
  wf := dot_S50000x128_S128x6_S50000x6_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Kernel.Stores.lean ====
/-
  What one grid point's body stores, as pure functions of the three blocks it reads: the block `x` of the
  stacked propagation depths (five slabs of 2000 rows), the weights `w` (five matrices) and the bias row `b`.
  Layer 1 stores relu(Σ_k x_k · w_k + b) over a 2000 × 128 block; layer 2 computes the 2000 × 6 block
  Σ_k x_k · w_k + b and stores tanh of its first three columns and exp(2 · tanh) of its last three.
-/
import proofs.«100254_j64845416235556_1_alg».proof.Proof.Gen.Kernel.Skeleton
import Idealize.ShloMosaic.Lib.Pipeline.FrameBody

noncomputable section

namespace Cert.Kernel.Hand

open Idealize.ShloMosaic Idealize.ShloMosaic.TcCoe Idealize.SL.Sem Cert.Kernel Cert.Kernel.Gen

variable {F : FTy → Type} [FloatOps F]

/-! ## Layer 1: the rectangles the body reads and writes -/

/-- Slab `k` of the stacked block: rows of propagation depth `k`. -/
abbrev rx0 : Rect S5x2000x6 := Rect.unit (s := S5x2000x6) ![0, 0, 0] S1x2000x6.size inb_S5x2000x6_S1x2000x6_0_0_0
abbrev rx1 : Rect S5x2000x6 := Rect.unit (s := S5x2000x6) ![1, 0, 0] S1x2000x6.size inb_S5x2000x6_S1x2000x6_1_0_0
abbrev rx2 : Rect S5x2000x6 := Rect.unit (s := S5x2000x6) ![2, 0, 0] S1x2000x6.size inb_S5x2000x6_S1x2000x6_2_0_0
abbrev rx3 : Rect S5x2000x6 := Rect.unit (s := S5x2000x6) ![3, 0, 0] S1x2000x6.size inb_S5x2000x6_S1x2000x6_3_0_0
abbrev rx4 : Rect S5x2000x6 := Rect.unit (s := S5x2000x6) ![4, 0, 0] S1x2000x6.size inb_S5x2000x6_S1x2000x6_4_0_0
/-- Weight matrix `k`. -/
abbrev rw0 : Rect S5x6x128 := Rect.unit (s := S5x6x128) ![0, 0, 0] S1x6x128.size inb_S5x6x128_S1x6x128_0_0_0
abbrev rw1 : Rect S5x6x128 := Rect.unit (s := S5x6x128) ![1, 0, 0] S1x6x128.size inb_S5x6x128_S1x6x128_1_0_0
abbrev rw2 : Rect S5x6x128 := Rect.unit (s := S5x6x128) ![2, 0, 0] S1x6x128.size inb_S5x6x128_S1x6x128_2_0_0
abbrev rw3 : Rect S5x6x128 := Rect.unit (s := S5x6x128) ![3, 0, 0] S1x6x128.size inb_S5x6x128_S1x6x128_3_0_0
abbrev rw4 : Rect S5x6x128 := Rect.unit (s := S5x6x128) ![4, 0, 0] S1x6x128.size inb_S5x6x128_S1x6x128_4_0_0
/-- The bias row, whole. -/
abbrev rb : Rect S1x128 := Rect.unit (s := S1x128) ![0, 0] S1x128.size inb_S1x128_S1x128_0_0
/-- The output block, whole. -/
abbrev ro : Rect S2000x128 := Rect.unit (s := S2000x128) ![0, 0] S2000x128.size inb_S2000x128_S2000x128_0_0

/-- The value layer 1's body stores: relu of the five accumulated products plus the bias. -/
def pay0 (x : Vec F S5x2000x6 .f32) (w : Vec F S5x6x128 .f32) (b : Vec F S1x128 .f32) : Vec F S2000x128 .f32 :=
  k0_pay1 (k0_pay2 (View.ld x rx0) (View.ld w rw0) (View.ld x rx1) (View.ld w rw1) (View.ld x rx2) (View.ld w rw2))
    (k0_pay3 (View.ld x rx3)) (k0_pay4 (View.ld w rw3)) (View.ld x rx4) (View.ld w rw4) (View.ld b rb)

/-- The output block after the body: its one store, which covers the block. -/
def blockOut0 (x : Vec F S5x2000x6 .f32) (w : Vec F S5x6x128 .f32) (b : Vec F S1x128 .f32) : Vec F S2000x128 .f32 :=
  View.canon [⟨ro, pay0 x w b⟩]

/-! ## Layer 2 -/

abbrev sx0 : Rect S5x2000x128 := Rect.unit (s := S5x2000x128) ![0, 0, 0] S1x2000x128.size inb_S5x2000x128_S1x2000x128_0_0_0
abbrev sx1 : Rect S5x2000x128 := Rect.unit (s := S5x2000x128) ![1, 0, 0] S1x2000x128.size inb_S5x2000x128_S1x2000x128_1_0_0
abbrev sx2 : Rect S5x2000x128 := Rect.unit (s := S5x2000x128) ![2, 0, 0] S1x2000x128.size inb_S5x2000x128_S1x2000x128_2_0_0
abbrev sx3 : Rect S5x2000x128 := Rect.unit (s := S5x2000x128) ![3, 0, 0] S1x2000x128.size inb_S5x2000x128_S1x2000x128_3_0_0
abbrev sx4 : Rect S5x2000x128 := Rect.unit (s := S5x2000x128) ![4, 0, 0] S1x2000x128.size inb_S5x2000x128_S1x2000x128_4_0_0
abbrev sw0 : Rect S5x128x6 := Rect.unit (s := S5x128x6) ![0, 0, 0] S1x128x6.size inb_S5x128x6_S1x128x6_0_0_0
abbrev sw1 : Rect S5x128x6 := Rect.unit (s := S5x128x6) ![1, 0, 0] S1x128x6.size inb_S5x128x6_S1x128x6_1_0_0
abbrev sw2 : Rect S5x128x6 := Rect.unit (s := S5x128x6) ![2, 0, 0] S1x128x6.size inb_S5x128x6_S1x128x6_2_0_0
abbrev sw3 : Rect S5x128x6 := Rect.unit (s := S5x128x6) ![3, 0, 0] S1x128x6.size inb_S5x128x6_S1x128x6_3_0_0
abbrev sw4 : Rect S5x128x6 := Rect.unit (s := S5x128x6) ![4, 0, 0] S1x128x6.size inb_S5x128x6_S1x128x6_4_0_0
abbrev sb : Rect S1x6 := Rect.unit (s := S1x6) ![0, 0] S1x6.size inb_S1x6_S1x6_0_0
abbrev so : Rect S2000x3 := Rect.unit (s := S2000x3) ![0, 0] S2000x3.size inb_S2000x3_S2000x3_0_0

/-- tanh of the first three columns of the accumulated 2000 × 6 block. -/
def payMu (x : Vec F S5x2000x128 .f32) (w : Vec F S5x128x6 .f32) (b : Vec F S1x6 .f32) : Vec F S2000x3 .f32 :=
  k1_pay2 (k1_pay4 (View.ld x sx0) (View.ld w sw0) (View.ld x sx1) (View.ld w sw1) (View.ld x sx2) (View.ld w sw2))
    (k1_pay5 (View.ld x sx3)) (k1_pay6 (View.ld w sw3)) (View.ld x sx4) (View.ld w sw4) (View.ld b sb)

/-- exp(2 · tanh) of its last three columns. -/
def paySig (x : Vec F S5x2000x128 .f32) (w : Vec F S5x128x6 .f32) (b : Vec F S1x6 .f32) : Vec F S2000x3 .f32 :=
  k1_pay3 (k1_pay4 (View.ld x sx0) (View.ld w sw0) (View.ld x sx1) (View.ld w sw1) (View.ld x sx2) (View.ld w sw2))
    (k1_pay5 (View.ld x sx3)) (k1_pay6 (View.ld w sw3)) (View.ld x sx4) (View.ld w sw4) (View.ld b sb)

def blockMu (x : Vec F S5x2000x128 .f32) (w : Vec F S5x128x6 .f32) (b : Vec F S1x6 .f32) : Vec F S2000x3 .f32 :=
  View.canon [⟨so, payMu x w b⟩]

def blockSig (x : Vec F S5x2000x128 .f32) (w : Vec F S5x128x6 .f32) (b : Vec F S1x6 .f32) : Vec F S2000x3 .f32 :=
  View.canon [⟨so, paySig x w b⟩]

end Cert.Kernel.Hand

end
-- ==== Proof.Kernel.Region0.lean ====
/-
  Layer 1's launch, at any contents `V` of the TensorCore's buffers on entry. A grid point `t` reads block `t` of the
  stacked propagation depths (all five slabs, rows 2000·t … 2000·t + 1999), the five weight matrices and the bias row
  — the last two the same block at every point, so fetched once and found in place afterwards — and overwrites block
  `t` of the output with `blockOut0` of what it read. Nothing is carried from one point to the next.
-/
import proofs.«100254_j64845416235556_1_alg».proof.Proof.Kernel.Stores
import proofs.«100254_j64845416235556_1_alg».proof.Proof.Gen.Kernel.Launch
import proofs.«100254_j64845416235556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the launch finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds the point's block whether the point fetched it or not: unfetched, the block index has
    not moved since the point that did. -/
theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store covers the output block. -/
theorem covers0 (p : Vec F S2000x128 .f32) (y : S2000x128.Idx) :
    ∃ pc ∈ ([⟨ro, p⟩] : List (View.Piece (Elt F) S2000x128 .f32)), y ∈ pc.1.set :=
  View.cover_of_tiled [⟨ro, p⟩] S2000x128.size (by rfl) y

set_option maxHeartbeats 4000000 in
/-- The body on whole staging buffers: the three inputs come back as they were, the output holds `blockOut0` of them,
    whatever it held before (the body reads the old contents only to overwrite all of them). -/
theorem runs0 (c : Dev nD) (E : Set ℕ) (i : grid0.Coords)
    (arg1 : Memref sig .tc .vmem S5x2000x6 .f32) (harg1 : arg1.IsWhole) (arg2 : Memref sig .tc .vmem S5x6x128 .f32) (harg2 : arg2.IsWhole)
    (arg3 : Memref sig .tc .vmem S1x128 .f32) (harg3 : arg3.IsWhole) (arg4 : Memref sig .tc .vmem S2000x128 .f32) (harg4 : arg4.IsWhole)
    (x : Vec F S5x2000x6 .f32) (w : Vec F S5x6x128 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (blockOut0 x w b)) -∗ K ⟨⟩))
      ⊢ wp frame (wpE (defs₀ (F := F)) Variants.none c none) E (cc0__combine_relu_kernel i arg1 harg1 arg2 harg2 arg3 harg3 arg4 harg4) K := by
  simp only [cc0__combine_relu_kernel_eq_skeleton]; unfold cc0__combine_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers0 _)

/-- The launch's proof data on core `c`: arrays as found; after point `t` each input's buffer at its block, the output's at
    `blockOut0` of the three input blocks; nothing else kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => blockOut0 (iblk0 V c 0 t) (iblk0 V c 1 t) (iblk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = blockOut0 (iblk0 V c 0 t) (iblk0 V c 1 t) (iblk0 V c 2 t) := by dsimp only [dat0]

theorem before0_0 (c : Dev nD) (t : Fin cfg0.N) (d) : (dat0 V c).before 0 t d = iblk0 V c 0 t :=
  found0_0 V (dat0 V c) (dat0_A V c 0) (after0_0 V c) t d
theorem before0_1 (c : Dev nD) (t : Fin cfg0.N) (d) : (dat0 V c).before 1 t d = iblk0 V c 1 t :=
  found0_1 V (dat0 V c) (dat0_A V c 1) (after0_1 V c) t d
theorem before0_2 (c : Dev nD) (t : Fin cfg0.N) (d) : (dat0 V c).before 2 t d = iblk0 V c 2 t :=
  found0_2 V (dat0 V c) (dat0_A V c 2) (after0_2 V c) t d

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must get back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (runs0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation0 (c : Dev nD) : BodyObligation (dat0 (F := F) V c) (defs₀ (F := F)) Variants.none () Set.univ := fun t => by
  rw [bigSep_W0, bigSep_W0]
  exact point0 V c t

end Cert.Kernel.Hand

end
-- ==== Proof.Kernel.Region1.lean ====
/-
  Layer 2's launch, at any contents `V` of the TensorCore's buffers on entry. A grid point `t` reads block `t` of the
  stacked propagation depths of the hidden layer (five slabs of 2000 rows, 128 columns), the five weight matrices and
  the bias row (the same block at every point: fetched once, found in place afterwards) and overwrites block `t` of the
  two outputs, with `blockMu` and `blockSig` of what it read.
-/
import proofs.«100254_j64845416235556_1_alg».proof.Proof.Kernel.Stores
import proofs.«100254_j64845416235556_1_alg».proof.Proof.Gen.Kernel.Launch
import proofs.«100254_j64845416235556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the launch finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One store covers an output block. -/
theorem covers1 (p : Vec F S2000x3 .f32) (y : S2000x3.Idx) :
    ∃ pc ∈ ([⟨so, p⟩] : List (View.Piece (Elt F) S2000x3 .f32)), y ∈ pc.1.set :=
  View.cover_of_tiled [⟨so, p⟩] S2000x3.size (by rfl) y

set_option maxHeartbeats 4000000 in
/-- The body on whole staging buffers: the three inputs come back as they were, the two outputs hold `blockMu` and
    `blockSig` of them, whatever they held before. -/
theorem runs1 (c : Dev nD) (E : Set ℕ) (i : grid1.Coords)
    (arg1 : Memref sig .tc .vmem S5x2000x128 .f32) (harg1 : arg1.IsWhole) (arg2 : Memref sig .tc .vmem S5x128x6 .f32) (harg2 : arg2.IsWhole)
    (arg3 : Memref sig .tc .vmem S1x6 .f32) (harg3 : arg3.IsWhole) (arg4 : Memref sig .tc .vmem S2000x3 .f32) (harg4 : arg4.IsWhole)
    (arg5 : Memref sig .tc .vmem S2000x3 .f32) (harg5 : arg5.IsWhole)
    (x : Vec F S5x2000x128 .f32) (w : Vec F S5x128x6 .f32) (b : Vec F S1x6 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (blockMu x w b) ∗ owns (c : Thread nD τ) arg5 fullShare (blockSig x w b)) -∗ K ⟨⟩))
      ⊢ wp frame (wpE (defs₀ (F := F)) Variants.none c none) E
          (cc1__combine_head_kernel i arg1 harg1 arg2 harg2 arg3 harg3 arg4 harg4 arg5 harg5) K := by
  simp only [cc1__combine_head_kernel_eq_skeleton]; unfold cc1__combine_head_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covers1 _)
  iexists _; isplitr
  swap; · iexact H5
  ipureintro
  exact View.read_writes_eq_canon _ _ _ (covers1 _)

/-- The launch's proof data on core `c`: arrays as found; after point `t` each input's buffer at its block, the outputs' at
    `blockMu` and `blockSig` of the three input blocks; nothing else kept, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => blockMu (iblk1 V c 0 t) (iblk1 V c 1 t) (iblk1 V c 2 t)
    | ⟨4, _⟩ => blockSig (iblk1 V c 0 t) (iblk1 V c 1 t) (iblk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = blockMu (iblk1 V c 0 t) (iblk1 V c 1 t) (iblk1 V c 2 t) := by dsimp only [dat1]
theorem after1_4 (c : Dev nD) (t : Fin cfg1.N) :
    (dat1 V c).after 4 t = blockSig (iblk1 V c 0 t) (iblk1 V c 1 t) (iblk1 V c 2 t) := by dsimp only [dat1]

theorem before1_0 (c : Dev nD) (t : Fin cfg1.N) (d) : (dat1 V c).before 0 t d = iblk1 V c 0 t :=
  found1_0 V (dat1 V c) (dat1_A V c 0) (after1_0 V c) t d
theorem before1_1 (c : Dev nD) (t : Fin cfg1.N) (d) : (dat1 V c).before 1 t d = iblk1 V c 1 t :=
  found1_1 V (dat1 V c) (dat1_A V c 1) (after1_1 V c) t d
theorem before1_2 (c : Dev nD) (t : Fin cfg1.N) (d) : (dat1 V c).before 2 t d = iblk1 V c 2 t :=
  found1_2 V (dat1 V c) (dat1_A V c 2) (after1_2 V c) t d

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it must get back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (runs1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem obligation1 (c : Dev nD) : BodyObligation (dat1 (F := F) V c) (defs₀ (F := F)) Variants.none () Set.univ := fun t => by
  rw [bigSep_W1, bigSep_W1]
  exact point1 V c t

end Cert.Kernel.Hand

end
-- ==== Proof.Kernel.Run.lean ====
/-
  The whole run of @main: three stretches of host operations (the normalised edge weights and four propagation steps
  of the input, stacked), layer 1's launch, a stretch of host operations (four propagation steps of the hidden
  layer, stacked), layer 2's launch. The buffers' contents at each of the six boundaries are a fold from the launch
  memory: a stretch applies its operations, a launch replaces its arrays by what its write-backs leave. No host
  operation and no launch writes an argument of @main, so each argument reads back through the fold to its launch
  contents; the two results are layer 2's output arrays at the last boundary.
-/
import proofs.«100254_j64845416235556_1_alg».proof.Proof.Kernel.Stores
import proofs.«100254_j64845416235556_1_alg».proof.Proof.Gen.Kernel.Launch
import proofs.«100254_j64845416235556_1_alg».proof.Proof.Gen.Kernel.Points
import proofs.«100254_j64845416235556_1_alg».proof.Proof.Kernel.Region0
import proofs.«100254_j64845416235556_1_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first stretch (the target degrees and their inverse square roots). -/
abbrev W1 : Dev nD → Valuation τ sig (Elt F) := fun c => StableHlo.after hostOps0 (W0 m ρ c)
/-- After the select that zeroes the inverse square root where the degree is not positive. -/
abbrev W2 : Dev nD → Valuation τ sig (Elt F) := fun c => StableHlo.after hostOps0_1 (W1 m ρ c)
/-- After the edge weights are normalised and the input propagated four times and stacked: layer 1's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At layer 1's exit: its arrays at what the launch leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem left0 (c : Dev nD) (w : Fin cfg0.W) : (dat0 (V3 m ρ) c).arrAt w cfg0.N = V4 m ρ c (Pipeline.arrRef spec0 w) :=
  (W4_arr m ρ c w).symm
theorem rest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the hidden layer is propagated four times and stacked: layer 2's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At layer 2's exit: the end of @main. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem left1 (c : Dev nD) (w : Fin cfg1.W) : (dat1 (V5 m ρ) c).arrAt w cfg1.N = V6 m ρ c (Pipeline.arrRef spec1 w) :=
  (W6_arr m ρ c w).symm
theorem rest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments read back to the launch memory -/

/-- No operation of `hostOps0` writes an argument of @main. -/
theorem keeps0 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps0 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of `hostOps0_1` writes an argument of @main. -/
theorem keeps0_1 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps0_1 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of `hostOps0_2` writes an argument of @main. -/
theorem keeps0_2 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps0_2 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of `hostOps1` writes an argument of @main. -/
theorem keeps1 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps1 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keeps1 _ main_arg0 (Or.inl rfl)
    _ = W3 m ρ c (Proc.devRef .tc main_arg0) := W4_of_ne m ρ c main_arg0 (by decide)
    _ = W2 m ρ c (Proc.devRef .tc main_arg0) := keeps0_2 _ main_arg0 (Or.inl rfl)
    _ = W1 m ρ c (Proc.devRef .tc main_arg0) := keeps0_1 _ main_arg0 (Or.inl rfl)
    _ = W0 m ρ c (Proc.devRef .tc main_arg0) := keeps0 _ main_arg0 (Or.inl rfl)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := keeps1 _ main_arg1 (Or.inr (Or.inl rfl))
    _ = W3 m ρ c (Proc.devRef .tc main_arg1) := W4_of_ne m ρ c main_arg1 (by decide)
    _ = W2 m ρ c (Proc.devRef .tc main_arg1) := keeps0_2 _ main_arg1 (Or.inr (Or.inl rfl))
    _ = W1 m ρ c (Proc.devRef .tc main_arg1) := keeps0_1 _ main_arg1 (Or.inr (Or.inl rfl))
    _ = W0 m ρ c (Proc.devRef .tc main_arg1) := keeps0 _ main_arg1 (Or.inr (Or.inl rfl))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keeps1 _ main_arg2 (Or.inr (Or.inr (Or.inl rfl)))
    _ = W3 m ρ c (Proc.devRef .tc main_arg2) := W4_of_ne m ρ c main_arg2 (by decide)
    _ = W2 m ρ c (Proc.devRef .tc main_arg2) := keeps0_2 _ main_arg2 (Or.inr (Or.inr (Or.inl rfl)))
    _ = W1 m ρ c (Proc.devRef .tc main_arg2) := keeps0_1 _ main_arg2 (Or.inr (Or.inr (Or.inl rfl)))
    _ = W0 m ρ c (Proc.devRef .tc main_arg2) := keeps0 _ main_arg2 (Or.inr (Or.inr (Or.inl rfl)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keeps1 _ main_arg3 (Or.inr (Or.inr (Or.inr (Or.inl rfl))))
    _ = W3 m ρ c (Proc.devRef .tc main_arg3) := (W4_arr m ρ c 1).trans (((dat0 (V3 m ρ) c).arrAt_in 1 rfl _).trans (dat0_A (V3 m ρ) c 1))
    _ = W2 m ρ c (Proc.devRef .tc main_arg3) := keeps0_2 _ main_arg3 (Or.inr (Or.inr (Or.inr (Or.inl rfl))))
    _ = W1 m ρ c (Proc.devRef .tc main_arg3) := keeps0_1 _ main_arg3 (Or.inr (Or.inr (Or.inr (Or.inl rfl))))
    _ = W0 m ρ c (Proc.devRef .tc main_arg3) := keeps0 _ main_arg3 (Or.inr (Or.inr (Or.inr (Or.inl rfl))))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keeps1 _ main_arg4 (Or.inr (Or.inr (Or.inr (Or.inr (Or.inl rfl)))))
    _ = W3 m ρ c (Proc.devRef .tc main_arg4) := W4_of_ne m ρ c main_arg4 (by decide)
    _ = W2 m ρ c (Proc.devRef .tc main_arg4) := keeps0_2 _ main_arg4 (Or.inr (Or.inr (Or.inr (Or.inr (Or.inl rfl)))))
    _ = W1 m ρ c (Proc.devRef .tc main_arg4) := keeps0_1 _ main_arg4 (Or.inr (Or.inr (Or.inr (Or.inr (Or.inl rfl)))))
    _ = W0 m ρ c (Proc.devRef .tc main_arg4) := keeps0 _ main_arg4 (Or.inr (Or.inr (Or.inr (Or.inr (Or.inl rfl)))))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 1).trans (((dat1 (V5 m ρ) c).arrAt_in 1 rfl _).trans (dat1_A (V5 m ρ) c 1))
    _ = W4 m ρ c (Proc.devRef .tc main_arg5) := keeps1 _ main_arg5 (Or.inr (Or.inr (Or.inr (Or.inr (Or.inr (Or.inl rfl))))))
    _ = W3 m ρ c (Proc.devRef .tc main_arg5) := W4_of_ne m ρ c main_arg5 (by decide)
    _ = W2 m ρ c (Proc.devRef .tc main_arg5) := keeps0_2 _ main_arg5 (Or.inr (Or.inr (Or.inr (Or.inr (Or.inr (Or.inl rfl))))))
    _ = W1 m ρ c (Proc.devRef .tc main_arg5) := keeps0_1 _ main_arg5 (Or.inr (Or.inr (Or.inr (Or.inr (Or.inr (Or.inl rfl))))))
    _ = W0 m ρ c (Proc.devRef .tc main_arg5) := keeps0 _ main_arg5 (Or.inr (Or.inr (Or.inr (Or.inr (Or.inr (Or.inl rfl))))))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keeps1 _ main_arg6 (Or.inr (Or.inr (Or.inr (Or.inr (Or.inr (Or.inr (rfl)))))))
    _ = W3 m ρ c (Proc.devRef .tc main_arg6) := W4_of_ne m ρ c main_arg6 (by decide)
    _ = W2 m ρ c (Proc.devRef .tc main_arg6) := keeps0_2 _ main_arg6 (Or.inr (Or.inr (Or.inr (Or.inr (Or.inr (Or.inr (rfl)))))))
    _ = W1 m ρ c (Proc.devRef .tc main_arg6) := keeps0_1 _ main_arg6 (Or.inr (Or.inr (Or.inr (Or.inr (Or.inr (Or.inr (rfl)))))))
    _ = W0 m ρ c (Proc.devRef .tc main_arg6) := keeps0 _ main_arg6 (Or.inr (Or.inr (Or.inr (Or.inr (Or.inr (Or.inr (rfl)))))))
    _ = m ((c : Thread nD τ).loc main_arg6) := rfl

/-! ## The proof data of both launches, and what rides along -/

/-- No launch reads a prefetched table. -/
abbrev adm : (p : Fin 2) → (pcfgs (F := F) p).Adm := fun p => (cfgs p).toPCfg_adm
/-- Each launch's proof data at its own entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers, through every segment: the core's generator register at some state and its (empty) debts. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those carried from segment to segment. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every unscoped buffer at `W6`, the generator register at some state. -/
abbrev Tₙ (c : Dev nD) : sProp 𝕄 := iprop(StableHlo.held (c : Thread nD τ) (Pipeline.ucRefs τ sig) (W6 m ρ c) ∗ ∃ r, prngReg c r)

/-! ## The two launches as segments -/

set_option backward.isDefEq.respectTransparency.types false in
/-- Layer 1's launch as a segment of the run: entered with every unscoped buffer at `W3`, left with them at the
    next boundary's contents. On entry the launch's arrays are split out of the unscoped buffers and on exit put back at what
    the write-backs left; the generator register goes into the launch's invariant and comes back; nothing is owed and the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's launch as a segment of the run: entered with every unscoped buffer at `W5`, left with them at the
    next boundary's contents. On entry the launch's arrays are split out of the unscoped buffers and on exit put back at what
    the write-backs left; the generator register goes into the launch's invariant and comes back; nothing is owed and the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- @main is the run of these segments. -/
theorem main_run (c : Dev nD) : main (F := F) c = Pipeline.Seg.run (segs m ρ) := (main_chain c).trans (by chain_rfl)

set_option backward.isDefEq.respectTransparency.types false in
/-- Every weakly fair execution of @main terminates without a fault, the two results at layer 2's output arrays as the
    last boundary has them and every argument array as launched. -/
theorem run_all : θ_run defs (onTc (τ := τ) (main (F := F))) ⟨m, fun _ => 0, ρ⟩ (fun r => ∀ c : Dev nD,
      r.2.mem ((c.tc : Thread nD τ).loc main_v154_0) = W6 m ρ c (Proc.devRef .tc main_v154_0)
      ∧ r.2.mem ((c.tc : Thread nD τ).loc main_v154_1) = W6 m ρ c (Proc.devRef .tc main_v154_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v154_0 (by decide)), h c _ (mem_uc main_v154_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-- The frame: @main runs to the end without a fault and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2.2) (run_all m ρ)

end Cert.Kernel.Hand

end
-- ==== Proof.KernelIdeal.Stores.lean ====
/-
  What one grid point's body stores, as pure functions of the three blocks it reads: the block `x` of the
  stacked propagation depths (five slabs of 2000 rows), the weights `w` (five matrices) and the bias row `b`.
  Layer 1 stores relu(Σ_k x_k · w_k + b) over a 2000 × 128 block; layer 2 computes the 2000 × 6 block
  Σ_k x_k · w_k + b and stores tanh of its first three columns and exp(2 · tanh) of its last three.
-/
import proofs.«100254_j64845416235556_1_alg».proof.Proof.Gen.KernelIdeal.Skeleton
import Idealize.ShloMosaic.Lib.Pipeline.FrameBody

noncomputable section

namespace Cert.KernelIdeal.Hand

open Idealize.ShloMosaic Idealize.ShloMosaic.TcCoe Idealize.SL.Sem Cert.KernelIdeal Cert.KernelIdeal.Gen

variable {F : FTy → Type} [FloatOps F]

/-! ## Layer 1: the rectangles the body reads and writes -/

/-- Slab `k` of the stacked block: rows of propagation depth `k`. -/
abbrev rx0 : Rect S5x2000x6 := Rect.unit (s := S5x2000x6) ![0, 0, 0] S1x2000x6.size inb_S5x2000x6_S1x2000x6_0_0_0
abbrev rx1 : Rect S5x2000x6 := Rect.unit (s := S5x2000x6) ![1, 0, 0] S1x2000x6.size inb_S5x2000x6_S1x2000x6_1_0_0
abbrev rx2 : Rect S5x2000x6 := Rect.unit (s := S5x2000x6) ![2, 0, 0] S1x2000x6.size inb_S5x2000x6_S1x2000x6_2_0_0
abbrev rx3 : Rect S5x2000x6 := Rect.unit (s := S5x2000x6) ![3, 0, 0] S1x2000x6.size inb_S5x2000x6_S1x2000x6_3_0_0
abbrev rx4 : Rect S5x2000x6 := Rect.unit (s := S5x2000x6) ![4, 0, 0] S1x2000x6.size inb_S5x2000x6_S1x2000x6_4_0_0
/-- Weight matrix `k`. -/
abbrev rw0 : Rect S5x6x128 := Rect.unit (s := S5x6x128) ![0, 0, 0] S1x6x128.size inb_S5x6x128_S1x6x128_0_0_0
abbrev rw1 : Rect S5x6x128 := Rect.unit (s := S5x6x128) ![1, 0, 0] S1x6x128.size inb_S5x6x128_S1x6x128_1_0_0
abbrev rw2 : Rect S5x6x128 := Rect.unit (s := S5x6x128) ![2, 0, 0] S1x6x128.size inb_S5x6x128_S1x6x128_2_0_0
abbrev rw3 : Rect S5x6x128 := Rect.unit (s := S5x6x128) ![3, 0, 0] S1x6x128.size inb_S5x6x128_S1x6x128_3_0_0
abbrev rw4 : Rect S5x6x128 := Rect.unit (s := S5x6x128) ![4, 0, 0] S1x6x128.size inb_S5x6x128_S1x6x128_4_0_0
/-- The bias row, whole. -/
abbrev rb : Rect S1x128 := Rect.unit (s := S1x128) ![0, 0] S1x128.size inb_S1x128_S1x128_0_0
/-- The output block, whole. -/
abbrev ro : Rect S2000x128 := Rect.unit (s := S2000x128) ![0, 0] S2000x128.size inb_S2000x128_S2000x128_0_0

/-- The value layer 1's body stores: relu of the five accumulated products plus the bias. -/
def pay0 (x : Vec F S5x2000x6 .f32) (w : Vec F S5x6x128 .f32) (b : Vec F S1x128 .f32) : Vec F S2000x128 .f32 :=
  k0_pay1 (k0_pay2 (View.ld x rx0) (View.ld w rw0) (View.ld x rx1) (View.ld w rw1) (View.ld x rx2) (View.ld w rw2))
    (k0_pay3 (View.ld x rx3)) (k0_pay4 (View.ld w rw3)) (View.ld x rx4) (View.ld w rw4) (View.ld b rb)

/-- The output block after the body: its one store, which covers the block. -/
def blockOut0 (x : Vec F S5x2000x6 .f32) (w : Vec F S5x6x128 .f32) (b : Vec F S1x128 .f32) : Vec F S2000x128 .f32 :=
  View.canon [⟨ro, pay0 x w b⟩]

/-! ## Layer 2 -/

abbrev sx0 : Rect S5x2000x128 := Rect.unit (s := S5x2000x128) ![0, 0, 0] S1x2000x128.size inb_S5x2000x128_S1x2000x128_0_0_0
abbrev sx1 : Rect S5x2000x128 := Rect.unit (s := S5x2000x128) ![1, 0, 0] S1x2000x128.size inb_S5x2000x128_S1x2000x128_1_0_0
abbrev sx2 : Rect S5x2000x128 := Rect.unit (s := S5x2000x128) ![2, 0, 0] S1x2000x128.size inb_S5x2000x128_S1x2000x128_2_0_0
abbrev sx3 : Rect S5x2000x128 := Rect.unit (s := S5x2000x128) ![3, 0, 0] S1x2000x128.size inb_S5x2000x128_S1x2000x128_3_0_0
abbrev sx4 : Rect S5x2000x128 := Rect.unit (s := S5x2000x128) ![4, 0, 0] S1x2000x128.size inb_S5x2000x128_S1x2000x128_4_0_0
abbrev sw0 : Rect S5x128x6 := Rect.unit (s := S5x128x6) ![0, 0, 0] S1x128x6.size inb_S5x128x6_S1x128x6_0_0_0
abbrev sw1 : Rect S5x128x6 := Rect.unit (s := S5x128x6) ![1, 0, 0] S1x128x6.size inb_S5x128x6_S1x128x6_1_0_0
abbrev sw2 : Rect S5x128x6 := Rect.unit (s := S5x128x6) ![2, 0, 0] S1x128x6.size inb_S5x128x6_S1x128x6_2_0_0
abbrev sw3 : Rect S5x128x6 := Rect.unit (s := S5x128x6) ![3, 0, 0] S1x128x6.size inb_S5x128x6_S1x128x6_3_0_0
abbrev sw4 : Rect S5x128x6 := Rect.unit (s := S5x128x6) ![4, 0, 0] S1x128x6.size inb_S5x128x6_S1x128x6_4_0_0
abbrev sb : Rect S1x6 := Rect.unit (s := S1x6) ![0, 0] S1x6.size inb_S1x6_S1x6_0_0
abbrev so : Rect S2000x3 := Rect.unit (s := S2000x3) ![0, 0] S2000x3.size inb_S2000x3_S2000x3_0_0

/-- tanh of the first three columns of the accumulated 2000 × 6 block. -/
def payMu (x : Vec F S5x2000x128 .f32) (w : Vec F S5x128x6 .f32) (b : Vec F S1x6 .f32) : Vec F S2000x3 .f32 :=
  k1_pay2 (k1_pay4 (View.ld x sx0) (View.ld w sw0) (View.ld x sx1) (View.ld w sw1) (View.ld x sx2) (View.ld w sw2))
    (k1_pay5 (View.ld x sx3)) (k1_pay6 (View.ld w sw3)) (View.ld x sx4) (View.ld w sw4) (View.ld b sb)

/-- exp(2 · tanh) of its last three columns. -/
def paySig (x : Vec F S5x2000x128 .f32) (w : Vec F S5x128x6 .f32) (b : Vec F S1x6 .f32) : Vec F S2000x3 .f32 :=
  k1_pay3 (k1_pay4 (View.ld x sx0) (View.ld w sw0) (View.ld x sx1) (View.ld w sw1) (View.ld x sx2) (View.ld w sw2))
    (k1_pay5 (View.ld x sx3)) (k1_pay6 (View.ld w sw3)) (View.ld x sx4) (View.ld w sw4) (View.ld b sb)

def blockMu (x : Vec F S5x2000x128 .f32) (w : Vec F S5x128x6 .f32) (b : Vec F S1x6 .f32) : Vec F S2000x3 .f32 :=
  View.canon [⟨so, payMu x w b⟩]

def blockSig (x : Vec F S5x2000x128 .f32) (w : Vec F S5x128x6 .f32) (b : Vec F S1x6 .f32) : Vec F S2000x3 .f32 :=
  View.canon [⟨so, paySig x w b⟩]

end Cert.KernelIdeal.Hand

end
-- ==== Proof.KernelIdeal.Region0.lean ====
/-
  Layer 1's launch, at any contents `V` of the TensorCore's buffers on entry. A grid point `t` reads block `t` of the
  stacked propagation depths (all five slabs, rows 2000·t … 2000·t + 1999), the five weight matrices and the bias row
  — the last two the same block at every point, so fetched once and found in place afterwards — and overwrites block
  `t` of the output with `blockOut0` of what it read. Nothing is carried from one point to the next.
-/
import proofs.«100254_j64845416235556_1_alg».proof.Proof.KernelIdeal.Stores
import proofs.«100254_j64845416235556_1_alg».proof.Proof.Gen.KernelIdeal.Launch
import proofs.«100254_j64845416235556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the launch finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's staging buffer holds the point's block whether the point fetched it or not: unfetched, the block index has
    not moved since the point that did. -/
theorem found0_0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store covers the output block. -/
theorem covers0 (p : Vec F S2000x128 .f32) (y : S2000x128.Idx) :
    ∃ pc ∈ ([⟨ro, p⟩] : List (View.Piece (Elt F) S2000x128 .f32)), y ∈ pc.1.set :=
  View.cover_of_tiled [⟨ro, p⟩] S2000x128.size (by rfl) y

set_option maxHeartbeats 4000000 in
/-- The body on whole staging buffers: the three inputs come back as they were, the output holds `blockOut0` of them,
    whatever it held before (the body reads the old contents only to overwrite all of them). -/
theorem runs0 (c : Dev nD) (E : Set ℕ) (i : grid0.Coords)
    (arg1 : Memref sig .tc .vmem S5x2000x6 .f32) (harg1 : arg1.IsWhole) (arg2 : Memref sig .tc .vmem S5x6x128 .f32) (harg2 : arg2.IsWhole)
    (arg3 : Memref sig .tc .vmem S1x128 .f32) (harg3 : arg3.IsWhole) (arg4 : Memref sig .tc .vmem S2000x128 .f32) (harg4 : arg4.IsWhole)
    (x : Vec F S5x2000x6 .f32) (w : Vec F S5x6x128 .f32) (b : Vec F S1x128 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (blockOut0 x w b)) -∗ K ⟨⟩))
      ⊢ wp frame (wpE (defs₀ (F := F)) Variants.none c none) E (cc0__combine_relu_kernel i arg1 harg1 arg2 harg2 arg3 harg3 arg4 harg4) K := by
  simp only [cc0__combine_relu_kernel_eq_skeleton]; unfold cc0__combine_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers0 _)

/-- The launch's proof data on core `c`: arrays as found; after point `t` each input's buffer at its block, the output's at
    `blockOut0` of the three input blocks; nothing else kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => blockOut0 (iblk0 V c 0 t) (iblk0 V c 1 t) (iblk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = blockOut0 (iblk0 V c 0 t) (iblk0 V c 1 t) (iblk0 V c 2 t) := by dsimp only [dat0]

theorem before0_0 (c : Dev nD) (t : Fin cfg0.N) (d) : (dat0 V c).before 0 t d = iblk0 V c 0 t :=
  found0_0 V (dat0 V c) (dat0_A V c 0) (after0_0 V c) t d
theorem before0_1 (c : Dev nD) (t : Fin cfg0.N) (d) : (dat0 V c).before 1 t d = iblk0 V c 1 t :=
  found0_1 V (dat0 V c) (dat0_A V c 1) (after0_1 V c) t d
theorem before0_2 (c : Dev nD) (t : Fin cfg0.N) (d) : (dat0 V c).before 2 t d = iblk0 V c 2 t :=
  found0_2 V (dat0 V c) (dat0_A V c 2) (after0_2 V c) t d

/-- What the pipeline hands the body at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must get back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem point0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (runs0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation0 (c : Dev nD) : BodyObligation (dat0 (F := F) V c) (defs₀ (F := F)) Variants.none () Set.univ := fun t => by
  rw [bigSep_W0, bigSep_W0]
  exact point0 V c t

end Cert.KernelIdeal.Hand

end
-- ==== Proof.KernelIdeal.Region1.lean ====
/-
  Layer 2's launch, at any contents `V` of the TensorCore's buffers on entry. A grid point `t` reads block `t` of the
  stacked propagation depths of the hidden layer (five slabs of 2000 rows, 128 columns), the five weight matrices and
  the bias row (the same block at every point: fetched once, found in place afterwards) and overwrites block `t` of the
  two outputs, with `blockMu` and `blockSig` of what it read.
-/
import proofs.«100254_j64845416235556_1_alg».proof.Proof.KernelIdeal.Stores
import proofs.«100254_j64845416235556_1_alg».proof.Proof.Gen.KernelIdeal.Launch
import proofs.«100254_j64845416235556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`'s array, as the launch finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found1_0 {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One store covers an output block. -/
theorem covers1 (p : Vec F S2000x3 .f32) (y : S2000x3.Idx) :
    ∃ pc ∈ ([⟨so, p⟩] : List (View.Piece (Elt F) S2000x3 .f32)), y ∈ pc.1.set :=
  View.cover_of_tiled [⟨so, p⟩] S2000x3.size (by rfl) y

set_option maxHeartbeats 4000000 in
/-- The body on whole staging buffers: the three inputs come back as they were, the two outputs hold `blockMu` and
    `blockSig` of them, whatever they held before. -/
theorem runs1 (c : Dev nD) (E : Set ℕ) (i : grid1.Coords)
    (arg1 : Memref sig .tc .vmem S5x2000x128 .f32) (harg1 : arg1.IsWhole) (arg2 : Memref sig .tc .vmem S5x128x6 .f32) (harg2 : arg2.IsWhole)
    (arg3 : Memref sig .tc .vmem S1x6 .f32) (harg3 : arg3.IsWhole) (arg4 : Memref sig .tc .vmem S2000x3 .f32) (harg4 : arg4.IsWhole)
    (arg5 : Memref sig .tc .vmem S2000x3 .f32) (harg5 : arg5.IsWhole)
    (x : Vec F S5x2000x128 .f32) (w : Vec F S5x128x6 .f32) (b : Vec F S1x6 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare (blockMu x w b) ∗ owns (c : Thread nD τ) arg5 fullShare (blockSig x w b)) -∗ K ⟨⟩))
      ⊢ wp frame (wpE (defs₀ (F := F)) Variants.none c none) E
          (cc1__combine_head_kernel i arg1 harg1 arg2 harg2 arg3 harg3 arg4 harg4 arg5 harg5) K := by
  simp only [cc1__combine_head_kernel_eq_skeleton]; unfold cc1__combine_head_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covers1 _)
  iexists _; isplitr
  swap; · iexact H5
  ipureintro
  exact View.read_writes_eq_canon _ _ _ (covers1 _)

/-- The launch's proof data on core `c`: arrays as found; after point `t` each input's buffer at its block, the outputs' at
    `blockMu` and `blockSig` of the three input blocks; nothing else kept, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => blockMu (iblk1 V c 0 t) (iblk1 V c 1 t) (iblk1 V c 2 t)
    | ⟨4, _⟩ => blockSig (iblk1 V c 0 t) (iblk1 V c 1 t) (iblk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = blockMu (iblk1 V c 0 t) (iblk1 V c 1 t) (iblk1 V c 2 t) := by dsimp only [dat1]
theorem after1_4 (c : Dev nD) (t : Fin cfg1.N) :
    (dat1 V c).after 4 t = blockSig (iblk1 V c 0 t) (iblk1 V c 1 t) (iblk1 V c 2 t) := by dsimp only [dat1]

theorem before1_0 (c : Dev nD) (t : Fin cfg1.N) (d) : (dat1 V c).before 0 t d = iblk1 V c 0 t :=
  found1_0 V (dat1 V c) (dat1_A V c 0) (after1_0 V c) t d
theorem before1_1 (c : Dev nD) (t : Fin cfg1.N) (d) : (dat1 V c).before 1 t d = iblk1 V c 1 t :=
  found1_1 V (dat1 V c) (dat1_A V c 1) (after1_1 V c) t d
theorem before1_2 (c : Dev nD) (t : Fin cfg1.N) (d) : (dat1 V c).before 2 t d = iblk1 V c 2 t :=
  found1_2 V (dat1 V c) (dat1_A V c 2) (after1_2 V c) t d

/-- What the pipeline hands the body at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it must get back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem point1 (c : Dev nD) (t : Fin cfg1.N) :
    handed1 V c t ⊢ wp frame (wpE (defs₀ (F := F)) Variants.none c none) Set.univ (bodyAt1 t) (fun _ => returned1 V c t) := by
  unfold handed1 returned1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (runs1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem obligation1 (c : Dev nD) : BodyObligation (dat1 (F := F) V c) (defs₀ (F := F)) Variants.none () Set.univ := fun t => by
  rw [bigSep_W1, bigSep_W1]
  exact point1 V c t

end Cert.KernelIdeal.Hand

end
-- ==== Proof.KernelIdeal.Run.lean ====
/-
  The whole run of @main: three stretches of host operations (the normalised edge weights and four propagation steps
  of the input, stacked), layer 1's launch, a stretch of host operations (four propagation steps of the hidden
  layer, stacked), layer 2's launch. The buffers' contents at each of the six boundaries are a fold from the launch
  memory: a stretch applies its operations, a launch replaces its arrays by what its write-backs leave. No host
  operation and no launch writes an argument of @main, so each argument reads back through the fold to its launch
  contents; the two results are layer 2's output arrays at the last boundary.
-/
import proofs.«100254_j64845416235556_1_alg».proof.Proof.KernelIdeal.Stores
import proofs.«100254_j64845416235556_1_alg».proof.Proof.Gen.KernelIdeal.Launch
import proofs.«100254_j64845416235556_1_alg».proof.Proof.Gen.KernelIdeal.Points
import proofs.«100254_j64845416235556_1_alg».proof.Proof.KernelIdeal.Region0
import proofs.«100254_j64845416235556_1_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the first stretch (the target degrees and their inverse square roots). -/
abbrev W1 : Dev nD → Valuation τ sig (Elt F) := fun c => StableHlo.after hostOps0 (W0 m ρ c)
/-- After the select that zeroes the inverse square root where the degree is not positive. -/
abbrev W2 : Dev nD → Valuation τ sig (Elt F) := fun c => StableHlo.after hostOps0_1 (W1 m ρ c)
/-- After the edge weights are normalised and the input propagated four times and stacked: layer 1's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At layer 1's exit: its arrays at what the launch leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem left0 (c : Dev nD) (w : Fin cfg0.W) : (dat0 (V3 m ρ) c).arrAt w cfg0.N = V4 m ρ c (Pipeline.arrRef spec0 w) :=
  (W4_arr m ρ c w).symm
theorem rest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the hidden layer is propagated four times and stacked: layer 2's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At layer 2's exit: the end of @main. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem left1 (c : Dev nD) (w : Fin cfg1.W) : (dat1 (V5 m ρ) c).arrAt w cfg1.N = V6 m ρ c (Pipeline.arrRef spec1 w) :=
  (W6_arr m ρ c w).symm
theorem rest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ## The arguments read back to the launch memory -/

/-- No operation of `hostOps0` writes an argument of @main. -/
theorem keeps0 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps0 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of `hostOps0_1` writes an argument of @main. -/
theorem keeps0_1 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps0_1 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of `hostOps0_2` writes an argument of @main. -/
theorem keeps0_2 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps0_2 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- No operation of `hostOps1` writes an argument of @main. -/
theorem keeps1 (W : Valuation τ sig (Elt F)) (b : Ref sig .tc)
    (hb : b = main_arg0 ∨ b = main_arg1 ∨ b = main_arg2 ∨ b = main_arg3 ∨ b = main_arg4 ∨ b = main_arg5 ∨ b = main_arg6) :
    StableHlo.after (hostOps1 : List (HloOp τ sig (Elt F))) W (Proc.devRef .tc b) = W (Proc.devRef .tc b) := by
  refine StableHlo.after_of_forall_not_mem (b := Proc.devRef .tc b) _ _ (List.forall_iff_forall_mem.mp ?_)
  rcases hb with rfl | rfl | rfl | rfl | rfl | rfl | rfl <;>
  · simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keeps1 _ main_arg0 (Or.inl rfl)
    _ = W3 m ρ c (Proc.devRef .tc main_arg0) := W4_of_ne m ρ c main_arg0 (by decide)
    _ = W2 m ρ c (Proc.devRef .tc main_arg0) := keeps0_2 _ main_arg0 (Or.inl rfl)
    _ = W1 m ρ c (Proc.devRef .tc main_arg0) := keeps0_1 _ main_arg0 (Or.inl rfl)
    _ = W0 m ρ c (Proc.devRef .tc main_arg0) := keeps0 _ main_arg0 (Or.inl rfl)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := keeps1 _ main_arg1 (Or.inr (Or.inl rfl))
    _ = W3 m ρ c (Proc.devRef .tc main_arg1) := W4_of_ne m ρ c main_arg1 (by decide)
    _ = W2 m ρ c (Proc.devRef .tc main_arg1) := keeps0_2 _ main_arg1 (Or.inr (Or.inl rfl))
    _ = W1 m ρ c (Proc.devRef .tc main_arg1) := keeps0_1 _ main_arg1 (Or.inr (Or.inl rfl))
    _ = W0 m ρ c (Proc.devRef .tc main_arg1) := keeps0 _ main_arg1 (Or.inr (Or.inl rfl))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keeps1 _ main_arg2 (Or.inr (Or.inr (Or.inl rfl)))
    _ = W3 m ρ c (Proc.devRef .tc main_arg2) := W4_of_ne m ρ c main_arg2 (by decide)
    _ = W2 m ρ c (Proc.devRef .tc main_arg2) := keeps0_2 _ main_arg2 (Or.inr (Or.inr (Or.inl rfl)))
    _ = W1 m ρ c (Proc.devRef .tc main_arg2) := keeps0_1 _ main_arg2 (Or.inr (Or.inr (Or.inl rfl)))
    _ = W0 m ρ c (Proc.devRef .tc main_arg2) := keeps0 _ main_arg2 (Or.inr (Or.inr (Or.inl rfl)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keeps1 _ main_arg3 (Or.inr (Or.inr (Or.inr (Or.inl rfl))))
    _ = W3 m ρ c (Proc.devRef .tc main_arg3) := (W4_arr m ρ c 1).trans (((dat0 (V3 m ρ) c).arrAt_in 1 rfl _).trans (dat0_A (V3 m ρ) c 1))
    _ = W2 m ρ c (Proc.devRef .tc main_arg3) := keeps0_2 _ main_arg3 (Or.inr (Or.inr (Or.inr (Or.inl rfl))))
    _ = W1 m ρ c (Proc.devRef .tc main_arg3) := keeps0_1 _ main_arg3 (Or.inr (Or.inr (Or.inr (Or.inl rfl))))
    _ = W0 m ρ c (Proc.devRef .tc main_arg3) := keeps0 _ main_arg3 (Or.inr (Or.inr (Or.inr (Or.inl rfl))))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keeps1 _ main_arg4 (Or.inr (Or.inr (Or.inr (Or.inr (Or.inl rfl)))))
    _ = W3 m ρ c (Proc.devRef .tc main_arg4) := W4_of_ne m ρ c main_arg4 (by decide)
    _ = W2 m ρ c (Proc.devRef .tc main_arg4) := keeps0_2 _ main_arg4 (Or.inr (Or.inr (Or.inr (Or.inr (Or.inl rfl)))))
    _ = W1 m ρ c (Proc.devRef .tc main_arg4) := keeps0_1 _ main_arg4 (Or.inr (Or.inr (Or.inr (Or.inr (Or.inl rfl)))))
    _ = W0 m ρ c (Proc.devRef .tc main_arg4) := keeps0 _ main_arg4 (Or.inr (Or.inr (Or.inr (Or.inr (Or.inl rfl)))))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 1).trans (((dat1 (V5 m ρ) c).arrAt_in 1 rfl _).trans (dat1_A (V5 m ρ) c 1))
    _ = W4 m ρ c (Proc.devRef .tc main_arg5) := keeps1 _ main_arg5 (Or.inr (Or.inr (Or.inr (Or.inr (Or.inr (Or.inl rfl))))))
    _ = W3 m ρ c (Proc.devRef .tc main_arg5) := W4_of_ne m ρ c main_arg5 (by decide)
    _ = W2 m ρ c (Proc.devRef .tc main_arg5) := keeps0_2 _ main_arg5 (Or.inr (Or.inr (Or.inr (Or.inr (Or.inr (Or.inl rfl))))))
    _ = W1 m ρ c (Proc.devRef .tc main_arg5) := keeps0_1 _ main_arg5 (Or.inr (Or.inr (Or.inr (Or.inr (Or.inr (Or.inl rfl))))))
    _ = W0 m ρ c (Proc.devRef .tc main_arg5) := keeps0 _ main_arg5 (Or.inr (Or.inr (Or.inr (Or.inr (Or.inr (Or.inl rfl))))))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keeps1 _ main_arg6 (Or.inr (Or.inr (Or.inr (Or.inr (Or.inr (Or.inr (rfl)))))))
    _ = W3 m ρ c (Proc.devRef .tc main_arg6) := W4_of_ne m ρ c main_arg6 (by decide)
    _ = W2 m ρ c (Proc.devRef .tc main_arg6) := keeps0_2 _ main_arg6 (Or.inr (Or.inr (Or.inr (Or.inr (Or.inr (Or.inr (rfl)))))))
    _ = W1 m ρ c (Proc.devRef .tc main_arg6) := keeps0_1 _ main_arg6 (Or.inr (Or.inr (Or.inr (Or.inr (Or.inr (Or.inr (rfl)))))))
    _ = W0 m ρ c (Proc.devRef .tc main_arg6) := keeps0 _ main_arg6 (Or.inr (Or.inr (Or.inr (Or.inr (Or.inr (Or.inr (rfl)))))))
    _ = m ((c : Thread nD τ).loc main_arg6) := rfl

/-! ## The proof data of both launches, and what rides along -/

/-- No launch reads a prefetched table. -/
abbrev adm : (p : Fin 2) → (pcfgs (F := F) p).Adm := fun p => (cfgs p).toPCfg_adm
/-- Each launch's proof data at its own entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core waits on another: no level is assigned. -/
abbrev L : GSem nD τ sig → Finset Unit := fun _ => ∅
abbrev lv : GSem nD τ sig → Unit → ℕ := fun _ _ => 0
/-- Beside the buffers, through every segment: the core's generator register at some state and its (empty) debts. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those carried from segment to segment. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- At the end: every unscoped buffer at `W6`, the generator register at some state. -/
abbrev Tₙ (c : Dev nD) : sProp 𝕄 := iprop(StableHlo.held (c : Thread nD τ) (Pipeline.ucRefs τ sig) (W6 m ρ c) ∗ ∃ r, prngReg c r)

/-! ## The two launches as segments -/

set_option backward.isDefEq.respectTransparency.types false in
/-- Layer 1's launch as a segment of the run: entered with every unscoped buffer at `W3`, left with them at the
    next boundary's contents. On entry the launch's arrays are split out of the unscoped buffers and on exit put back at what
    the write-backs left; the generator register goes into the launch's invariant and comes back; nothing is owed and the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's launch as a segment of the run: entered with every unscoped buffer at `W5`, left with them at the
    next boundary's contents. On entry the launch's arrays are split out of the unscoped buffers and on exit put back at what
    the write-backs left; the generator register goes into the launch's invariant and comes back; nothing is owed and the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (left1 m ρ c) (rest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its six segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- @main is the run of these segments. -/
theorem main_run (c : Dev nD) : main (F := F) c = Pipeline.Seg.run (segs m ρ) := (main_chain c).trans (by chain_rfl)

set_option backward.isDefEq.respectTransparency.types false in
/-- Every weakly fair execution of @main terminates without a fault, the two results at layer 2's output arrays as the
    last boundary has them and every argument array as launched. -/
theorem run_all : θ_run defs (onTc (τ := τ) (main (F := F))) ⟨m, fun _ => 0, ρ⟩ (fun r => ∀ c : Dev nD,
      r.2.mem ((c.tc : Thread nD τ).loc main_v154_0) = W6 m ρ c (Proc.devRef .tc main_v154_0)
      ∧ r.2.mem ((c.tc : Thread nD τ).loc main_v154_1) = W6 m ρ c (Proc.devRef .tc main_v154_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v154_0 (by decide)), h c _ (mem_uc main_v154_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-- The frame: @main runs to the end without a fault and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2.2) (run_all m ρ)

end Cert.KernelIdeal.Hand

end
-- ==== Proof.KernelIdeal.Lookups.lean ====
/-
  The buffers the two launches read, followed back through the boundaries of the run: an argument of @main is never written,
  so it holds its launch contents at every boundary; the normalised edge weights are computed before the first launch and
  untouched by it.
-/
import proofs.«100254_j64845416235556_1_alg».proof.Proof.KernelIdeal.Run

noncomputable section

namespace Cert.KernelIdeal.Results

open Idealize.ShloMosaic Idealize.ShloMosaic.TcCoe Idealize.SL.Sem
open Cert.KernelIdeal Cert.KernelIdeal.Gen Cert.KernelIdeal.Hand

variable {F : FTy → Type} [FloatOps F]
variable (m : (ℓ : Loc nD τ sig) → Buf (Elt F) ℓ) (ρ : Dev nD → PrngReg) (c : Dev nD)

/-- An argument at the first launch's entry. -/
theorem W3_arg (b : Ref sig .tc)
    (hb : b = main_arg0 ∨ b = main_arg1 ∨ b = main_arg2 ∨ b = main_arg3 ∨ b = main_arg4 ∨ b = main_arg5 ∨ b = main_arg6) :
    W3 m ρ c (Proc.devRef .tc b) = m ((c : Thread nD τ).loc b) :=
  (keeps0_2 _ b hb).trans ((keeps0_1 _ b hb).trans ((keeps0 _ b hb).trans rfl))

/-- An argument that is no array of the first launch, at its exit. -/
theorem W4_arg (b : Ref sig .tc)
    (hb : b = main_arg0 ∨ b = main_arg1 ∨ b = main_arg2 ∨ b = main_arg3 ∨ b = main_arg4 ∨ b = main_arg5 ∨ b = main_arg6)
    (hne : ∀ w, Pipeline.arrRef spec0 w ≠ b) :
    W4 m ρ c (Proc.devRef .tc b) = m ((c : Thread nD τ).loc b) :=
  (W4_of_ne m ρ c b hne).trans (W3_arg m ρ c b hb)

/-- The same at the second launch's entry. -/
theorem W5_arg (b : Ref sig .tc)
    (hb : b = main_arg0 ∨ b = main_arg1 ∨ b = main_arg2 ∨ b = main_arg3 ∨ b = main_arg4 ∨ b = main_arg5 ∨ b = main_arg6)
    (hne : ∀ w, Pipeline.arrRef spec0 w ≠ b) :
    W5 m ρ c (Proc.devRef .tc b) = m ((c : Thread nD τ).loc b) :=
  (keeps1 _ b hb).trans (W4_arg m ρ c b hb hne)

/-- The normalised edge weights pass the first launch untouched. -/
theorem W4_norm : W4 m ρ c (Proc.devRef .tc main_v26) = W3 m ρ c (Proc.devRef .tc main_v26) :=
  W4_of_ne m ρ c main_v26 (by decide)

/-- The hidden layer is the first launch's output array. -/
theorem W4_hidden : W4 m ρ c (Proc.devRef .tc main_v90) = (dat0 (V3 m ρ) c).arrAt 3 cfg0.N :=
  W4_arr m ρ c 3

/-- The two results are the second launch's output arrays. -/
theorem W6_mu : W6 m ρ c (Proc.devRef .tc main_v154_0) = (dat1 (V5 m ρ) c).arrAt 3 cfg1.N :=
  W6_arr m ρ c 3
theorem W6_sigma : W6 m ρ c (Proc.devRef .tc main_v154_1) = (dat1 (V5 m ρ) c).arrAt 4 cfg1.N :=
  W6_arr m ρ c 4

end Cert.KernelIdeal.Results

end
-- ==== Proof.Spec.lean ====
/-
  The arithmetic both programs compute at one entry of a layer, stated over plain extended reals:
  five inner products (one per propagation depth k = 0, …, 4) added up in the order of k, then the bias.
  The kernel starts its accumulator at zero; the reference starts at the first product. On the extended
  reals `0 + a = a` for every `a` (also at ±∞), so the two agree with no finiteness assumption.
-/
import Idealize.ShloMosaic.PureOps.Ideal

noncomputable section

namespace Cert.Spec

open BigOperators

/-- One entry of `Σ_{k<5} H_k · W_k + b`: the inner products over `j`, accumulated from zero in the
    order k = 0, 1, 2, 3, 4, then the bias added. -/
def comb {K : ℕ} (h w : Fin 5 → Fin K → EReal) (b : EReal) : EReal :=
  (((((0 + ∑ j, h 0 j * w 0 j) + ∑ j, h 1 j * w 1 j) + ∑ j, h 2 j * w 2 j) + ∑ j, h 3 j * w 3 j)
    + ∑ j, h 4 j * w 4 j) + b

/-- The same sum without the leading zero (the order the reference adds in). -/
theorem comb_eq {K : ℕ} (h w : Fin 5 → Fin K → EReal) (b : EReal) :
    ((((∑ j, h 0 j * w 0 j) + ∑ j, h 1 j * w 1 j) + ∑ j, h 2 j * w 2 j) + ∑ j, h 3 j * w 3 j)
      + (∑ j, h 4 j * w 4 j) + b = comb h w b := by
  unfold comb; rw [zero_add]

/-- The stack `x, P x, P² x, P³ x, P⁴ x` of a propagation step `P`. -/
def hops {X : Type} (P : X → X) (x : X) : Fin 5 → X :=
  ![x, P x, P (P x), P (P (P x)), P (P (P (P x)))]

end Cert.Spec

end
-- ==== Proof.KernelIdeal.BodyValue.lean ====
/-
  The arithmetic of the two kernel bodies, read at one entry, on the extended reals.

  Layer 1. The body reads a block `x` of five slabs of 2000 rows (one slab per propagation depth), the five
  6 × 128 weight matrices `w` and the bias row `b`, and stores, at row `r` and feature `f`,
      max (Σ_{k<5} Σ_{j<6} x[k, r, j] · w[k, j, f] + b[0, f]) 0,
  the five inner products accumulated from zero in the order k = 0, …, 4 and the bias added last: this is
  `Cert.Spec.comb`. Each product of a slab with a weight matrix into a zero accumulator is, at an entry, the sum
  over the contracted coordinate; narrowing the operands to a shorter float format is the identity on the
  extended reals; dropping the slab's leading unit axis reads entry (0, r, j); the bias row repeated over the
  rows reads its entry f; the zero word is the real 0.

  Layer 2. The same accumulated block with 128 contracted coordinates and 6 columns; the first output is tanh of
  columns 0, 1, 2, the second is exp of the literal two times tanh of columns 3, 4, 5. The literal is kept as
  its 32-bit word.

  Each output block after the body is the value of the one store that covers it.
-/
import proofs.«100254_j64845416235556_1_alg».proof.Proof.KernelIdeal.Stores
import proofs.«100254_j64845416235556_1_alg».proof.Proof.Spec
import Idealize.ShloMosaic.Lib.ValueLayout
import Idealize.ShloMosaic.PureOps.Ideal.Laws

noncomputable section

namespace Cert.KernelIdeal.BodyValue

open Idealize.ShloMosaic Idealize.ShloMosaic.TcCoe Idealize.SL.Sem Cert.KernelIdeal Cert.KernelIdeal.Gen
open Idealize.ShloMosaic.ValueIdx Cert.KernelIdeal.Hand
open BigOperators

/-- Two sums of products agree when their factors do. -/
theorem sum_mul_congr {K : ℕ} {A A' B B' : Fin K → EReal} (hA : ∀ j, A j = A' j) (hB : ∀ j, B j = B' j) :
    ∑ j, A j * B j = ∑ j, A' j * B' j :=
  Finset.sum_congr rfl fun j _ => by rw [hA j, hB j]
/-! ## Layer 1: one matrix product read at an entry -/

theorem lhs1_0 (i : S2000x128.Idx) (q : dot_S2000x6_S6x128_S2000x128_1_0_0_1_n_n.contr.Idx) : (dot_S2000x6_S6x128_S2000x128_1_0_0_1_n_n.lhsIdx i q 0).val = (i 0).val := by
  unfold DotDims.lhsIdx
  rw [dif_neg (show ¬(0 : Fin S2000x6.rank) ∈ dot_S2000x6_S6x128_S2000x128_1_0_0_1_n_n.lhsBatch by decide), dif_pos (show (0 : Fin S2000x6.rank) ∈ dot_S2000x6_S6x128_S2000x128_1_0_0_1_n_n.lhsNonContracting by decide)]
  rfl
theorem lhs1_1 (i : S2000x128.Idx) (q : dot_S2000x6_S6x128_S2000x128_1_0_0_1_n_n.contr.Idx) : (dot_S2000x6_S6x128_S2000x128_1_0_0_1_n_n.lhsIdx i q 1).val = (q ⟨0, by decide⟩).val :=
  dot_S2000x6_S6x128_S2000x128_1_0_0_1_n_n.lhsIdx_val_of_single rfl i q
theorem rhs1_0 (i : S2000x128.Idx) (q : dot_S2000x6_S6x128_S2000x128_1_0_0_1_n_n.contr.Idx) : (dot_S2000x6_S6x128_S2000x128_1_0_0_1_n_n.rhsIdx i q 0).val = (q ⟨0, by decide⟩).val :=
  dot_S2000x6_S6x128_S2000x128_1_0_0_1_n_n.rhsIdx_val_of_single rfl i q
theorem rhs1_1 (i : S2000x128.Idx) (q : dot_S2000x6_S6x128_S2000x128_1_0_0_1_n_n.contr.Idx) : (dot_S2000x6_S6x128_S2000x128_1_0_0_1_n_n.rhsIdx i q 1).val = (i 1).val := by
  unfold DotDims.rhsIdx
  rw [dif_neg (show ¬(1 : Fin S6x128.rank) ∈ dot_S2000x6_S6x128_S2000x128_1_0_0_1_n_n.rhsBatch by decide), dif_pos (show (1 : Fin S6x128.rank) ∈ dot_S2000x6_S6x128_S2000x128_1_0_0_1_n_n.rhsNonContracting by decide)]
  rfl

/-- The product's left operand index at output entry `(r, f)` and contraction coordinate `k` is `(r, k)`. -/
theorem lhsIdx1 (r : Fin 2000) (f : Fin 128) (k : Fin 6) :
    dot_S2000x6_S6x128_S2000x128_1_0_0_1_n_n.lhsIdx (ix2 r f) ((contrEquiv1 dot_S2000x6_S6x128_S2000x128_1_0_0_1_n_n 6 rfl rfl).symm k) = ix2 r k := by
  have hk := contrEquiv1_symm_val dot_S2000x6_S6x128_S2000x128_1_0_0_1_n_n 6 rfl rfl k
  refine funext fun a => Fin.ext ?_
  match a with
  | ⟨0, _⟩ => exact lhs1_0 _ _
  | ⟨1, _⟩ => exact (lhs1_1 _ _).trans hk

/-- … and the right operand index is `(k, f)`. -/
theorem rhsIdx1 (r : Fin 2000) (f : Fin 128) (k : Fin 6) :
    dot_S2000x6_S6x128_S2000x128_1_0_0_1_n_n.rhsIdx (ix2 r f) ((contrEquiv1 dot_S2000x6_S6x128_S2000x128_1_0_0_1_n_n 6 rfl rfl).symm k) = ix2 k f := by
  have hk := contrEquiv1_symm_val dot_S2000x6_S6x128_S2000x128_1_0_0_1_n_n 6 rfl rfl k
  refine funext fun a => Fin.ext ?_
  match a with
  | ⟨0, _⟩ => exact (rhs1_0 _ _).trans hk
  | ⟨1, _⟩ => exact rhs1_1 _ _

/-- A 2000 × 6 by 6 × 128 product into the zero accumulator, at entry `(r, f)`: the inner product of row `r` and column `f`. -/
theorem mm1 (A : FVec Ideal S2000x6 .bf16) (B : FVec Ideal S6x128 .bf16) (r : Fin 2000) (f : Fin 128) :
    matmul dot_S2000x6_S6x128_S2000x128_1_0_0_1_n_n none A B (constant (F := Ideal) S2000x128 .f32 0x00000000#32) (ix2 r f)
      = ∑ j : Fin 6, A (ix2 r j) * B (ix2 j f) := by
  simp only [matmul]
  rw [Ideal.matmul_constant_zero_apply, ← Equiv.sum_comp (contrEquiv1 dot_S2000x6_S6x128_S2000x128_1_0_0_1_n_n 6 rfl rfl).symm]
  refine Finset.sum_congr rfl fun k _ => ?_
  rw [lhsIdx1, rhsIdx1]

/-- A slab with a leading unit axis, flattened and narrowed (the narrowing is the identity on extended reals):
    entry `(r, j)` is the slab's `(0, r, j)`. -/
theorem lhsCast1 (a : Vec Ideal S1x2000x6 .f32) (r : Fin 2000) (j : Fin 6) :
    (truncf .bf16 (shapeCast S2000x6 a shapeCasts_S1x2000x6_S2000x6) bitsLt_bf16_f32 : FVec Ideal S2000x6 .bf16) (ix2 r j)
      = a (ix3 (0 : Fin 1) r j) :=
  shapeCast_1ab_ab_apply a shapeCasts_S1x2000x6_S2000x6 r j

theorem rhsCast1 (w : Vec Ideal S1x6x128 .f32) (j : Fin 6) (f : Fin 128) :
    (truncf .bf16 (shapeCast S6x128 w shapeCasts_S1x6x128_S6x128) bitsLt_bf16_f32 : FVec Ideal S6x128 .bf16) (ix2 j f)
      = w (ix3 (0 : Fin 1) j f) :=
  shapeCast_1ab_ab_apply w shapeCasts_S1x6x128_S6x128 j f

/-- One term of the layer: slab times weight matrix, at entry `(r, f)`. -/
theorem term1 (a : Vec Ideal S1x2000x6 .f32) (w : Vec Ideal S1x6x128 .f32) (r : Fin 2000) (f : Fin 128) :
    matmul dot_S2000x6_S6x128_S2000x128_1_0_0_1_n_n none
        (truncf .bf16 (shapeCast S2000x6 a shapeCasts_S1x2000x6_S2000x6) bitsLt_bf16_f32)
        (truncf .bf16 (shapeCast S6x128 w shapeCasts_S1x6x128_S6x128) bitsLt_bf16_f32)
        (constant (F := Ideal) S2000x128 .f32 0x00000000#32) (ix2 r f)
      = ∑ j : Fin 6, a (ix3 (0 : Fin 1) r j) * w (ix3 (0 : Fin 1) j f) := by
  refine (mm1 _ _ r f).trans (Finset.sum_congr rfl fun j _ => ?_)
  rw [lhsCast1, rhsCast1]

/-- The bias row, flattened, unflattened and repeated over the 2000 rows: entry `(r, f)` is the row's entry `f`. -/
theorem bias1 (b : Vec Ideal S1x128 .f32) (r : Fin 2000) (f : Fin 128) :
    broadcastTo S2000x128 (shapeCast S1x128 (shapeCast S128 b shapeCasts_S1x128_S128) shapeCasts_S128_S1x128)
        broadcasts_S1x128_S2000x128 (ix2 r f) = b (ix2 (0 : Fin 1) f) := by
  rw [broadcastTo_1b_ab_apply, shapeCast_a_1a_apply, shapeCast_1a_a_apply]

/-! ## Layer 1: the payloads at an entry -/

/-- The first three terms, accumulated from zero. -/
theorem k0_pay2_apply (v1 : Vec Ideal S1x2000x6 .f32) (v4 : Vec Ideal S1x6x128 .f32) (v9 : Vec Ideal S1x2000x6 .f32)
    (v12 : Vec Ideal S1x6x128 .f32) (v17 : Vec Ideal S1x2000x6 .f32) (v20 : Vec Ideal S1x6x128 .f32) (r : Fin 2000) (f : Fin 128) :
    k0_pay2 (F := Ideal) v1 v4 v9 v12 v17 v20 (ix2 r f)
      = ((0 + ∑ j : Fin 6, v1 (ix3 (0 : Fin 1) r j) * v4 (ix3 (0 : Fin 1) j f))
          + ∑ j : Fin 6, v9 (ix3 (0 : Fin 1) r j) * v12 (ix3 (0 : Fin 1) j f))
          + ∑ j : Fin 6, v17 (ix3 (0 : Fin 1) r j) * v20 (ix3 (0 : Fin 1) j f) := by
  unfold k0_pay2
  simp only [addf_apply, broadcast_apply, term1, Ideal.ofBits_def, Ideal.ofBits_zero_f32]

theorem k0_pay3_apply (v25 : Vec Ideal S1x2000x6 .f32) (r : Fin 2000) (j : Fin 6) :
    k0_pay3 (F := Ideal) v25 (ix2 r j) = v25 (ix3 (0 : Fin 1) r j) := lhsCast1 v25 r j

theorem k0_pay4_apply (v28 : Vec Ideal S1x6x128 .f32) (j : Fin 6) (f : Fin 128) :
    k0_pay4 (F := Ideal) v28 (ix2 j f) = v28 (ix3 (0 : Fin 1) j f) := rhsCast1 v28 j f

/-- The stored value: the five terms and the bias, then the maximum with zero. -/
theorem k0_pay1_apply (v24 : FVec Ideal S2000x128 .f32) (v27 : FVec Ideal S2000x6 .bf16) (v30 : FVec Ideal S6x128 .bf16)
    (v33 : Vec Ideal S1x2000x6 .f32) (v36 : Vec Ideal S1x6x128 .f32) (v41 : Vec Ideal S1x128 .f32) (r : Fin 2000) (f : Fin 128) :
    k0_pay1 (F := Ideal) v24 v27 v30 v33 v36 v41 (ix2 r f)
      = max (((v24 (ix2 r f) + ∑ j : Fin 6, v27 (ix2 r j) * v30 (ix2 j f))
          + ∑ j : Fin 6, v33 (ix3 (0 : Fin 1) r j) * v36 (ix3 (0 : Fin 1) j f)) + v41 (ix2 (0 : Fin 1) f)) 0 := by
  unfold k0_pay1
  simp only [maximumf_apply, addf_apply, broadcast_apply, mm1, lhsCast1, rhsCast1, Ideal.ofBits_def, Ideal.ofBits_zero_f32]
  rw [bias1]

/-! ## Layer 1: the blocks' slabs, and the stored value at an entry -/

/-- Slab `k` loaded out of the stacked block: its entry `(0, a, c)` is the block's `(k, a, c)`. -/
theorem ld_rx0 (x : Vec Ideal S5x2000x6 .f32) (a : Fin 2000) (c : Fin 6) :
    View.ld x rx0 (ix3 (0 : Fin 1) a c) = x (ix3 (0 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rx1 (x : Vec Ideal S5x2000x6 .f32) (a : Fin 2000) (c : Fin 6) :
    View.ld x rx1 (ix3 (0 : Fin 1) a c) = x (ix3 (1 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rx2 (x : Vec Ideal S5x2000x6 .f32) (a : Fin 2000) (c : Fin 6) :
    View.ld x rx2 (ix3 (0 : Fin 1) a c) = x (ix3 (2 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rx3 (x : Vec Ideal S5x2000x6 .f32) (a : Fin 2000) (c : Fin 6) :
    View.ld x rx3 (ix3 (0 : Fin 1) a c) = x (ix3 (3 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rx4 (x : Vec Ideal S5x2000x6 .f32) (a : Fin 2000) (c : Fin 6) :
    View.ld x rx4 (ix3 (0 : Fin 1) a c) = x (ix3 (4 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rw0 (x : Vec Ideal S5x6x128 .f32) (a : Fin 6) (c : Fin 128) :
    View.ld x rw0 (ix3 (0 : Fin 1) a c) = x (ix3 (0 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rw1 (x : Vec Ideal S5x6x128 .f32) (a : Fin 6) (c : Fin 128) :
    View.ld x rw1 (ix3 (0 : Fin 1) a c) = x (ix3 (1 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rw2 (x : Vec Ideal S5x6x128 .f32) (a : Fin 6) (c : Fin 128) :
    View.ld x rw2 (ix3 (0 : Fin 1) a c) = x (ix3 (2 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rw3 (x : Vec Ideal S5x6x128 .f32) (a : Fin 6) (c : Fin 128) :
    View.ld x rw3 (ix3 (0 : Fin 1) a c) = x (ix3 (3 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rw4 (x : Vec Ideal S5x6x128 .f32) (a : Fin 6) (c : Fin 128) :
    View.ld x rw4 (ix3 (0 : Fin 1) a c) = x (ix3 (4 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_rb (b : Vec Ideal S1x128 .f32) (u : Fin 1) (c : Fin 128) : View.ld b rb (ix2 u c) = b (ix2 u c) :=
  congrFun (View.ld_unit_zero (by funext d; match d with | ⟨0, _⟩ => rfl | ⟨1, _⟩ => rfl) inb_S1x128_S1x128_0_0 b) (ix2 u c)

/-- Layer 1's stored value at row `r`, feature `f` of the block. -/
theorem pay0_apply (x : Vec Ideal S5x2000x6 .f32) (w : Vec Ideal S5x6x128 .f32) (b : Vec Ideal S1x128 .f32)
    (r : Fin 2000) (f : Fin 128) :
    pay0 (F := Ideal) x w b (ix2 r f)
      = max (Cert.Spec.comb (fun k j => x (ix3 k r j)) (fun k j => w (ix3 k j f)) (b (ix2 (0 : Fin 1) f))) 0 := by
  unfold pay0 Cert.Spec.comb
  rw [k0_pay1_apply, k0_pay2_apply]
  refine congrArg (max · 0) (congrArg₂ (· + ·) (congrArg₂ (· + ·) (congrArg₂ (· + ·) (congrArg₂ (· + ·)
    (congrArg₂ (· + ·) (congrArg (0 + ·) ?_) ?_) ?_) ?_) ?_) (ld_rb b 0 f))
  · exact sum_mul_congr (ld_rx0 x r) (fun j => ld_rw0 w j f)
  · exact sum_mul_congr (ld_rx1 x r) (fun j => ld_rw1 w j f)
  · exact sum_mul_congr (ld_rx2 x r) (fun j => ld_rw2 w j f)
  · exact sum_mul_congr (fun j => (k0_pay3_apply _ r j).trans (ld_rx3 x r j)) (fun j => (k0_pay4_apply _ j f).trans (ld_rw3 w j f))
  · exact sum_mul_congr (ld_rx4 x r) (fun j => ld_rw4 w j f)

/-- The output block after the body: its one store covers the block, so the block is the stored value. -/
theorem blockOut0_apply (x : Vec Ideal S5x2000x6 .f32) (w : Vec Ideal S5x6x128 .f32) (b : Vec Ideal S1x128 .f32)
    (r : Fin 2000) (f : Fin 128) :
    blockOut0 (F := Ideal) x w b (ix2 r f)
      = max (Cert.Spec.comb (fun k j => x (ix3 k r j)) (fun k j => w (ix3 k j f)) (b (ix2 (0 : Fin 1) f))) 0 := by
  have hz : (![0, 0] : Fin S2000x128.rank → Nat) = fun _ => 0 := funext fun a => by fin_cases a <;> rfl
  unfold blockOut0
  rw [View.canon_unit_zero hz]
  exact pay0_apply x w b r f

/-! ## Layer 2: one matrix product read at an entry -/

theorem lhs2_0 (i : S2000x6.Idx) (q : dot_S2000x128_S128x6_S2000x6_1_0_0_1_n_n.contr.Idx) : (dot_S2000x128_S128x6_S2000x6_1_0_0_1_n_n.lhsIdx i q 0).val = (i 0).val := by
  unfold DotDims.lhsIdx
  rw [dif_neg (show ¬(0 : Fin S2000x128.rank) ∈ dot_S2000x128_S128x6_S2000x6_1_0_0_1_n_n.lhsBatch by decide), dif_pos (show (0 : Fin S2000x128.rank) ∈ dot_S2000x128_S128x6_S2000x6_1_0_0_1_n_n.lhsNonContracting by decide)]
  rfl
theorem lhs2_1 (i : S2000x6.Idx) (q : dot_S2000x128_S128x6_S2000x6_1_0_0_1_n_n.contr.Idx) : (dot_S2000x128_S128x6_S2000x6_1_0_0_1_n_n.lhsIdx i q 1).val = (q ⟨0, by decide⟩).val :=
  dot_S2000x128_S128x6_S2000x6_1_0_0_1_n_n.lhsIdx_val_of_single rfl i q
theorem rhs2_0 (i : S2000x6.Idx) (q : dot_S2000x128_S128x6_S2000x6_1_0_0_1_n_n.contr.Idx) : (dot_S2000x128_S128x6_S2000x6_1_0_0_1_n_n.rhsIdx i q 0).val = (q ⟨0, by decide⟩).val :=
  dot_S2000x128_S128x6_S2000x6_1_0_0_1_n_n.rhsIdx_val_of_single rfl i q
theorem rhs2_1 (i : S2000x6.Idx) (q : dot_S2000x128_S128x6_S2000x6_1_0_0_1_n_n.contr.Idx) : (dot_S2000x128_S128x6_S2000x6_1_0_0_1_n_n.rhsIdx i q 1).val = (i 1).val := by
  unfold DotDims.rhsIdx
  rw [dif_neg (show ¬(1 : Fin S128x6.rank) ∈ dot_S2000x128_S128x6_S2000x6_1_0_0_1_n_n.rhsBatch by decide), dif_pos (show (1 : Fin S128x6.rank) ∈ dot_S2000x128_S128x6_S2000x6_1_0_0_1_n_n.rhsNonContracting by decide)]
  rfl

/-- The product's left operand index at output entry `(r, f)` and contraction coordinate `k` is `(r, k)`. -/
theorem lhsIdx2 (r : Fin 2000) (f : Fin 6) (k : Fin 128) :
    dot_S2000x128_S128x6_S2000x6_1_0_0_1_n_n.lhsIdx (ix2 r f) ((contrEquiv1 dot_S2000x128_S128x6_S2000x6_1_0_0_1_n_n 128 rfl rfl).symm k) = ix2 r k := by
  have hk := contrEquiv1_symm_val dot_S2000x128_S128x6_S2000x6_1_0_0_1_n_n 128 rfl rfl k
  refine funext fun a => Fin.ext ?_
  match a with
  | ⟨0, _⟩ => exact lhs2_0 _ _
  | ⟨1, _⟩ => exact (lhs2_1 _ _).trans hk

/-- … and the right operand index is `(k, f)`. -/
theorem rhsIdx2 (r : Fin 2000) (f : Fin 6) (k : Fin 128) :
    dot_S2000x128_S128x6_S2000x6_1_0_0_1_n_n.rhsIdx (ix2 r f) ((contrEquiv1 dot_S2000x128_S128x6_S2000x6_1_0_0_1_n_n 128 rfl rfl).symm k) = ix2 k f := by
  have hk := contrEquiv1_symm_val dot_S2000x128_S128x6_S2000x6_1_0_0_1_n_n 128 rfl rfl k
  refine funext fun a => Fin.ext ?_
  match a with
  | ⟨0, _⟩ => exact (rhs2_0 _ _).trans hk
  | ⟨1, _⟩ => exact rhs2_1 _ _

/-- A 2000 × 128 by 128 × 6 product into the zero accumulator, at entry `(r, f)`: the inner product of row `r` and column `f`. -/
theorem mm2 (A : FVec Ideal S2000x128 .bf16) (B : FVec Ideal S128x6 .bf16) (r : Fin 2000) (f : Fin 6) :
    matmul dot_S2000x128_S128x6_S2000x6_1_0_0_1_n_n none A B (constant (F := Ideal) S2000x6 .f32 0x00000000#32) (ix2 r f)
      = ∑ j : Fin 128, A (ix2 r j) * B (ix2 j f) := by
  simp only [matmul]
  rw [Ideal.matmul_constant_zero_apply, ← Equiv.sum_comp (contrEquiv1 dot_S2000x128_S128x6_S2000x6_1_0_0_1_n_n 128 rfl rfl).symm]
  refine Finset.sum_congr rfl fun k _ => ?_
  rw [lhsIdx2, rhsIdx2]

/-- A slab with a leading unit axis, flattened and narrowed (the narrowing is the identity on extended reals):
    entry `(r, j)` is the slab's `(0, r, j)`. -/
theorem lhsCast2 (a : Vec Ideal S1x2000x128 .f32) (r : Fin 2000) (j : Fin 128) :
    (truncf .bf16 (shapeCast S2000x128 a shapeCasts_S1x2000x128_S2000x128) bitsLt_bf16_f32 : FVec Ideal S2000x128 .bf16) (ix2 r j)
      = a (ix3 (0 : Fin 1) r j) :=
  shapeCast_1ab_ab_apply a shapeCasts_S1x2000x128_S2000x128 r j

theorem rhsCast2 (w : Vec Ideal S1x128x6 .f32) (j : Fin 128) (f : Fin 6) :
    (truncf .bf16 (shapeCast S128x6 w shapeCasts_S1x128x6_S128x6) bitsLt_bf16_f32 : FVec Ideal S128x6 .bf16) (ix2 j f)
      = w (ix3 (0 : Fin 1) j f) :=
  shapeCast_1ab_ab_apply w shapeCasts_S1x128x6_S128x6 j f

/-- One term of the layer: slab times weight matrix, at entry `(r, f)`. -/
theorem term2 (a : Vec Ideal S1x2000x128 .f32) (w : Vec Ideal S1x128x6 .f32) (r : Fin 2000) (f : Fin 6) :
    matmul dot_S2000x128_S128x6_S2000x6_1_0_0_1_n_n none
        (truncf .bf16 (shapeCast S2000x128 a shapeCasts_S1x2000x128_S2000x128) bitsLt_bf16_f32)
        (truncf .bf16 (shapeCast S128x6 w shapeCasts_S1x128x6_S128x6) bitsLt_bf16_f32)
        (constant (F := Ideal) S2000x6 .f32 0x00000000#32) (ix2 r f)
      = ∑ j : Fin 128, a (ix3 (0 : Fin 1) r j) * w (ix3 (0 : Fin 1) j f) := by
  refine (mm2 _ _ r f).trans (Finset.sum_congr rfl fun j _ => ?_)
  rw [lhsCast2, rhsCast2]

/-- The bias row, flattened, unflattened and repeated over the 2000 rows: entry `(r, f)` is the row's entry `f`. -/
theorem bias2 (b : Vec Ideal S1x6 .f32) (r : Fin 2000) (f : Fin 6) :
    broadcastTo S2000x6 (shapeCast S1x6 (shapeCast S6 b shapeCasts_S1x6_S6) shapeCasts_S6_S1x6)
        broadcasts_S1x6_S2000x6 (ix2 r f) = b (ix2 (0 : Fin 1) f) := by
  rw [broadcastTo_1b_ab_apply, shapeCast_a_1a_apply, shapeCast_1a_a_apply]

/-! ## Layer 2: the payloads at an entry -/

/-- The first three terms, accumulated from zero. -/
theorem k1_pay4_apply (v1 : Vec Ideal S1x2000x128 .f32) (v4 : Vec Ideal S1x128x6 .f32) (v9 : Vec Ideal S1x2000x128 .f32)
    (v12 : Vec Ideal S1x128x6 .f32) (v17 : Vec Ideal S1x2000x128 .f32) (v20 : Vec Ideal S1x128x6 .f32) (r : Fin 2000) (f : Fin 6) :
    k1_pay4 (F := Ideal) v1 v4 v9 v12 v17 v20 (ix2 r f)
      = ((0 + ∑ j : Fin 128, v1 (ix3 (0 : Fin 1) r j) * v4 (ix3 (0 : Fin 1) j f))
          + ∑ j : Fin 128, v9 (ix3 (0 : Fin 1) r j) * v12 (ix3 (0 : Fin 1) j f))
          + ∑ j : Fin 128, v17 (ix3 (0 : Fin 1) r j) * v20 (ix3 (0 : Fin 1) j f) := by
  unfold k1_pay4
  simp only [addf_apply, broadcast_apply, term2, Ideal.ofBits_def, Ideal.ofBits_zero_f32]

theorem k1_pay5_apply (v25 : Vec Ideal S1x2000x128 .f32) (r : Fin 2000) (j : Fin 128) :
    k1_pay5 (F := Ideal) v25 (ix2 r j) = v25 (ix3 (0 : Fin 1) r j) := lhsCast2 v25 r j

theorem k1_pay6_apply (v28 : Vec Ideal S1x128x6 .f32) (j : Fin 128) (f : Fin 6) :
    k1_pay6 (F := Ideal) v28 (ix2 j f) = v28 (ix3 (0 : Fin 1) j f) := rhsCast2 v28 j f

/-- The 2000 × 6 block before the two heads: the five terms and the bias. -/
theorem k1_pay1_apply (v24 : FVec Ideal S2000x6 .f32) (v27 : FVec Ideal S2000x128 .bf16) (v30 : FVec Ideal S128x6 .bf16)
    (v33 : Vec Ideal S1x2000x128 .f32) (v36 : Vec Ideal S1x128x6 .f32) (v41 : Vec Ideal S1x6 .f32) (r : Fin 2000) (f : Fin 6) :
    k1_pay1 (F := Ideal) v24 v27 v30 v33 v36 v41 (ix2 r f)
      = ((v24 (ix2 r f) + ∑ j : Fin 128, v27 (ix2 r j) * v30 (ix2 j f))
          + ∑ j : Fin 128, v33 (ix3 (0 : Fin 1) r j) * v36 (ix3 (0 : Fin 1) j f)) + v41 (ix2 (0 : Fin 1) f) := by
  unfold k1_pay1
  simp only [addf_apply, mm2, lhsCast2, rhsCast2]
  rw [bias2]

/-- The first head: tanh of columns 0, 1, 2. -/
theorem k1_pay2_apply (v24 : FVec Ideal S2000x6 .f32) (v27 : FVec Ideal S2000x128 .bf16) (v30 : FVec Ideal S128x6 .bf16)
    (v33 : Vec Ideal S1x2000x128 .f32) (v36 : Vec Ideal S1x128x6 .f32) (v41 : Vec Ideal S1x6 .f32) (r : Fin 2000) (a : Fin 3) :
    k1_pay2 (F := Ideal) v24 v27 v30 v33 v36 v41 (ix2 r a)
      = Ideal.tanh (k1_pay1 (F := Ideal) v24 v27 v30 v33 v36 v41 (ix2 r (⟨a.val, by omega⟩ : Fin 6))) := by
  unfold k1_pay2
  show Ideal.tanh (extractStridedSlice S2000x3 ![0, 0] (k1_pay1 (F := Ideal) v24 v27 v30 v33 v36 v41) slices_S2000x6_o0_0_S2000x3 (ix2 r a)) = _
  refine congrArg Ideal.tanh ?_
  exact slice2_axis1_apply 0 _ slices_S2000x6_o0_0_S2000x3 r a ⟨a.val, by omega⟩ (by show a.val = 0 + a.val; omega)

/-- The second head: exp of twice the tanh of columns 3, 4, 5. -/
theorem k1_pay3_apply (v24 : FVec Ideal S2000x6 .f32) (v27 : FVec Ideal S2000x128 .bf16) (v30 : FVec Ideal S128x6 .bf16)
    (v33 : Vec Ideal S1x2000x128 .f32) (v36 : Vec Ideal S1x128x6 .f32) (v41 : Vec Ideal S1x6 .f32) (r : Fin 2000) (a : Fin 3) :
    k1_pay3 (F := Ideal) v24 v27 v30 v33 v36 v41 (ix2 r a)
      = Ideal.exp (Ideal.ofBits .f32 0x40000000#32
          * Ideal.tanh (k1_pay1 (F := Ideal) v24 v27 v30 v33 v36 v41 (ix2 r (⟨a.val + 3, by omega⟩ : Fin 6)))) := by
  unfold k1_pay3
  show Ideal.exp (Ideal.ofBits .f32 0x40000000#32 * Ideal.tanh (extractStridedSlice S2000x3 ![0, 3] (k1_pay1 (F := Ideal) v24 v27 v30 v33 v36 v41) slices_S2000x6_o0_3_S2000x3 (ix2 r a))) = _
  refine congrArg (fun t => Ideal.exp (Ideal.ofBits .f32 0x40000000#32 * Ideal.tanh t)) ?_
  exact slice2_axis1_apply 3 _ slices_S2000x6_o0_3_S2000x3 r a ⟨a.val + 3, by omega⟩ (by show a.val + 3 = 3 + a.val; omega)

/-! ## Layer 2: the blocks' slabs, and the stored values at an entry -/

theorem ld_sx0 (x : Vec Ideal S5x2000x128 .f32) (a : Fin 2000) (c : Fin 128) :
    View.ld x sx0 (ix3 (0 : Fin 1) a c) = x (ix3 (0 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sx1 (x : Vec Ideal S5x2000x128 .f32) (a : Fin 2000) (c : Fin 128) :
    View.ld x sx1 (ix3 (0 : Fin 1) a c) = x (ix3 (1 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sx2 (x : Vec Ideal S5x2000x128 .f32) (a : Fin 2000) (c : Fin 128) :
    View.ld x sx2 (ix3 (0 : Fin 1) a c) = x (ix3 (2 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sx3 (x : Vec Ideal S5x2000x128 .f32) (a : Fin 2000) (c : Fin 128) :
    View.ld x sx3 (ix3 (0 : Fin 1) a c) = x (ix3 (3 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sx4 (x : Vec Ideal S5x2000x128 .f32) (a : Fin 2000) (c : Fin 128) :
    View.ld x sx4 (ix3 (0 : Fin 1) a c) = x (ix3 (4 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sw0 (x : Vec Ideal S5x128x6 .f32) (a : Fin 128) (c : Fin 6) :
    View.ld x sw0 (ix3 (0 : Fin 1) a c) = x (ix3 (0 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sw1 (x : Vec Ideal S5x128x6 .f32) (a : Fin 128) (c : Fin 6) :
    View.ld x sw1 (ix3 (0 : Fin 1) a c) = x (ix3 (1 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sw2 (x : Vec Ideal S5x128x6 .f32) (a : Fin 128) (c : Fin 6) :
    View.ld x sw2 (ix3 (0 : Fin 1) a c) = x (ix3 (2 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sw3 (x : Vec Ideal S5x128x6 .f32) (a : Fin 128) (c : Fin 6) :
    View.ld x sw3 (ix3 (0 : Fin 1) a c) = x (ix3 (3 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sw4 (x : Vec Ideal S5x128x6 .f32) (a : Fin 128) (c : Fin 6) :
    View.ld x sw4 (ix3 (0 : Fin 1) a c) = x (ix3 (4 : Fin 5) a c) :=
  congrArg x (funext fun d => Fin.ext (by
    match d with
    | ⟨0, _⟩ => rfl
    | ⟨1, _⟩ => show 0 + 1 * a.val = a.val; omega
    | ⟨2, _⟩ => show 0 + 1 * c.val = c.val; omega))
theorem ld_sb (b : Vec Ideal S1x6 .f32) (u : Fin 1) (c : Fin 6) : View.ld b sb (ix2 u c) = b (ix2 u c) :=
  congrFun (View.ld_unit_zero (by funext d; match d with | ⟨0, _⟩ => rfl | ⟨1, _⟩ => rfl) inb_S1x6_S1x6_0_0 b) (ix2 u c)

/-- The accumulated 2000 × 6 block of layer 2 at row `r`, column `c`, over the three blocks the body reads. -/
theorem acc2_apply (x : Vec Ideal S5x2000x128 .f32) (w : Vec Ideal S5x128x6 .f32) (b : Vec Ideal S1x6 .f32)
    (r : Fin 2000) (c : Fin 6) :
    k1_pay1 (F := Ideal) (k1_pay4 (View.ld x sx0) (View.ld w sw0) (View.ld x sx1) (View.ld w sw1) (View.ld x sx2) (View.ld w sw2))
        (k1_pay5 (View.ld x sx3)) (k1_pay6 (View.ld w sw3)) (View.ld x sx4) (View.ld w sw4) (View.ld b sb) (ix2 r c)
      = Cert.Spec.comb (fun k j => x (ix3 k r j)) (fun k j => w (ix3 k j c)) (b (ix2 (0 : Fin 1) c)) := by
  unfold Cert.Spec.comb
  rw [k1_pay1_apply, k1_pay4_apply]
  refine congrArg₂ (· + ·) (congrArg₂ (· + ·) (congrArg₂ (· + ·) (congrArg₂ (· + ·)
    (congrArg₂ (· + ·) (congrArg (0 + ·) ?_) ?_) ?_) ?_) ?_) (ld_sb b 0 c)
  · exact sum_mul_congr (ld_sx0 x r) (fun j => ld_sw0 w j c)
  · exact sum_mul_congr (ld_sx1 x r) (fun j => ld_sw1 w j c)
  · exact sum_mul_congr (ld_sx2 x r) (fun j => ld_sw2 w j c)
  · exact sum_mul_congr (fun j => (k1_pay5_apply _ r j).trans (ld_sx3 x r j)) (fun j => (k1_pay6_apply _ j c).trans (ld_sw3 w j c))
  · exact sum_mul_congr (ld_sx4 x r) (fun j => ld_sw4 w j c)

/-- The first head's stored value at row `r`, column `a`: tanh of the accumulated block's column `a`. -/
theorem payMu_apply (x : Vec Ideal S5x2000x128 .f32) (w : Vec Ideal S5x128x6 .f32) (b : Vec Ideal S1x6 .f32)
    (r : Fin 2000) (a : Fin 3) :
    payMu (F := Ideal) x w b (ix2 r a)
      = Ideal.tanh (Cert.Spec.comb (fun k j => x (ix3 k r j)) (fun k j => w (ix3 k j (⟨a.val, by omega⟩ : Fin 6)))
          (b (ix2 (0 : Fin 1) (⟨a.val, by omega⟩ : Fin 6)))) := by
  unfold payMu
  rw [k1_pay2_apply, acc2_apply]

/-- The second head's stored value at row `r`, column `a`: exp of twice the tanh of the accumulated block's column `a + 3`. -/
theorem paySig_apply (x : Vec Ideal S5x2000x128 .f32) (w : Vec Ideal S5x128x6 .f32) (b : Vec Ideal S1x6 .f32)
    (r : Fin 2000) (a : Fin 3) :
    paySig (F := Ideal) x w b (ix2 r a)
      = Ideal.exp (Ideal.ofBits .f32 0x40000000#32
          * Ideal.tanh (Cert.Spec.comb (fun k j => x (ix3 k r j)) (fun k j => w (ix3 k j (⟨a.val + 3, by omega⟩ : Fin 6)))
              (b (ix2 (0 : Fin 1) (⟨a.val + 3, by omega⟩ : Fin 6))))) := by
  unfold paySig
  rw [k1_pay3_apply, acc2_apply]

/-- Each output block after the body is its one covering store's value. -/
theorem blockMu_apply (x : Vec Ideal S5x2000x128 .f32) (w : Vec Ideal S5x128x6 .f32) (b : Vec Ideal S1x6 .f32)
    (r : Fin 2000) (a : Fin 3) :
    blockMu (F := Ideal) x w b (ix2 r a)
      = Ideal.tanh (Cert.Spec.comb (fun k j => x (ix3 k r j)) (fun k j => w (ix3 k j (⟨a.val, by omega⟩ : Fin 6)))
          (b (ix2 (0 : Fin 1) (⟨a.val, by omega⟩ : Fin 6)))) := by
  have hz : (![0, 0] : Fin S2000x3.rank → Nat) = fun _ => 0 := funext fun d => by fin_cases d <;> rfl
  unfold blockMu
  rw [View.canon_unit_zero hz]
  exact payMu_apply x w b r a

theorem blockSig_apply (x : Vec Ideal S5x2000x128 .f32) (w : Vec Ideal S5x128x6 .f32) (b : Vec Ideal S1x6 .f32)
    (r : Fin 2000) (a : Fin 3) :
    blockSig (F := Ideal) x w b (ix2 r a)
      = Ideal.exp (Ideal.ofBits .f32 0x40000000#32
          * Ideal.tanh (Cert.Spec.comb (fun k j => x (ix3 k r j)) (fun k j => w (ix3 k j (⟨a.val + 3, by omega⟩ : Fin 6)))
              (b (ix2 (0 : Fin 1) (⟨a.val + 3, by omega⟩ : Fin 6))))) := by
  have hz : (![0, 0] : Fin S2000x3.rank → Nat) = fun _ => 0 := funext fun d => by fin_cases d <;> rfl
  unfold blockSig
  rw [View.canon_unit_zero hz]
  exact paySig_apply x w b r a

end Cert.KernelIdeal.BodyValue
end
-- ==== Proof.KernelIdeal.ArrayValue.lean ====
/-
  From blocks to whole arrays. Each of the two launches walks 25 grid points; point `t` reads rows
  2000·t … 2000·t + 1999 of every slab of the stacked input (the weights and the bias whole) and overwrites rows
  2000·t … 2000·t + 1999 of each output with the body's block. Row `n` of an output therefore lies in the block of
  point `n / 2000`, the 25 blocks cover the 50000 rows, and the output array ends holding, at row `n`, the body's
  arithmetic of row `n` of the stacked input: the block-wise results are the restrictions of one function of the
  whole arrays.
-/
import proofs.«100254_j64845416235556_1_alg».proof.Proof.KernelIdeal.Region0
import proofs.«100254_j64845416235556_1_alg».proof.Proof.KernelIdeal.Region1
import proofs.«100254_j64845416235556_1_alg».proof.Proof.KernelIdeal.BodyValue
import Idealize.ShloMosaic.Lib.Pipeline.Value

noncomputable section

namespace Cert.KernelIdeal.ArrayValue

open Idealize.ShloMosaic Idealize.ShloMosaic.TcCoe Idealize.SL.Sem
open Idealize.ShloMosaic.Pipeline (Dat)
open Cert.KernelIdeal Cert.KernelIdeal.Gen Cert.KernelIdeal.Hand Cert.KernelIdeal.BodyValue
open Idealize.ShloMosaic.ValueIdx

variable (V : (c : Dev nD) → (b : Ref sig .tc) → Buf (Elt Ideal) ((c : Thread nD τ).loc b))

/-! ## Layer 1 -/

/-- Layer 1's output at row `n`, feature `f`, as a function of the whole stacked input, the weights and the bias row. -/
def out0 (h : S5x50000x6.Idx → EReal) (w : S5x6x128.Idx → EReal) (b : S1x128.Idx → EReal) (n : Fin 50000) (f : Fin 128) : EReal :=
  max (Cert.Spec.comb (fun k j => h (ix3 k n j)) (fun k j => w (ix3 k j f)) (b (ix2 (0 : Fin 1) f))) 0

/-- The same, as an array. -/
def G0 (h : S5x50000x6.Idx → EReal) (w : S5x6x128.Idx → EReal) (b : S1x128.Idx → EReal) : S50000x128.Idx → EReal :=
  fun i => out0 h w b (i 0) (i 1)

/-- The block index maps over the grid: the stacked input and the output move along the rows with the point, the
    weights and the bias stay. -/
theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(k, r, j)` of the stacked input's block at point `t` is the array's entry `(k, 2000·t + r, j)`. -/
theorem iblk0_0_apply (c : Dev nD) (t : Fin cfg0.N) (k : Fin 5) (r : Fin 2000) (j : Fin 6) (n : Fin 50000)
    (hn : n.val = t.val * 2000 + r.val) :
    (iblk0 V c 0 t : Vec Ideal S5x2000x6 .f32) (ix3 k r j) = (V c main_v88 : S5x50000x6.Idx → EReal) (ix3 k n j) := by
  obtain ⟨e0, e1, e2, -⟩ := idx_facts0 t
  unfold iblk0
  rw [View.read_apply]
  show V c main_v88 _ = V c main_v88 _
  refine congrArg (V c main_v88) (funext fun a => Fin.ext ?_)
  match a with
  | ⟨0, _⟩ => show win0_0.index t (0 : Fin 3) * 5 + 1 * k.val = k.val; rw [e0]; omega
  | ⟨1, _⟩ => show win0_0.index t (1 : Fin 3) * 2000 + 1 * r.val = n.val; rw [e1, hn]; omega
  | ⟨2, _⟩ => show win0_0.index t (2 : Fin 3) * 6 + 1 * j.val = j.val; rw [e2]; omega

/-- The weights' block is the whole array at every point. -/
theorem iblk0_1_apply (c : Dev nD) (t : Fin cfg0.N) (k : Fin 5) (j : Fin 6) (f : Fin 128) :
    (iblk0 V c 1 t : Vec Ideal S5x6x128 .f32) (ix3 k j f) = (V c main_arg3 : S5x6x128.Idx → EReal) (ix3 k j f) := by
  obtain ⟨-, -, -, e0, e1, e2, -⟩ := idx_facts0 t
  unfold iblk0
  rw [View.read_apply]
  show V c main_arg3 _ = V c main_arg3 _
  refine congrArg (V c main_arg3) (funext fun a => Fin.ext ?_)
  match a with
  | ⟨0, _⟩ => show win0_1.index t (0 : Fin 3) * 5 + 1 * k.val = k.val; rw [e0]; omega
  | ⟨1, _⟩ => show win0_1.index t (1 : Fin 3) * 6 + 1 * j.val = j.val; rw [e1]; omega
  | ⟨2, _⟩ => show win0_1.index t (2 : Fin 3) * 128 + 1 * f.val = f.val; rw [e2]; omega

/-- So is the bias row's. -/
theorem iblk0_2_apply (c : Dev nD) (t : Fin cfg0.N) (u : Fin 1) (f : Fin 128) :
    (iblk0 V c 2 t : Vec Ideal S1x128 .f32) (ix2 u f) = (V c main_v89 : S1x128.Idx → EReal) (ix2 u f) := by
  obtain ⟨-, -, -, -, -, -, e0, e1, -⟩ := idx_facts0 t
  unfold iblk0
  rw [View.read_apply]
  show V c main_v89 _ = V c main_v89 _
  refine congrArg (V c main_v89) (funext fun a => Fin.ext ?_)
  match a with
  | ⟨0, _⟩ => show win0_2.index t (0 : Fin 2) * 1 + 1 * u.val = u.val; rw [e0]; omega
  | ⟨1, _⟩ => show win0_2.index t (1 : Fin 2) * 128 + 1 * f.val = f.val; rw [e1]; omega

/-- Row `r` of point `t`'s output block is the whole-array function at row `2000·t + r`. -/
theorem point0_apply (c : Dev nD) (t : Fin cfg0.N) (r : Fin 2000) (f : Fin 128) (n : Fin 50000)
    (hn : n.val = t.val * 2000 + r.val) :
    blockOut0 (F := Ideal) (iblk0 V c 0 t) (iblk0 V c 1 t) (iblk0 V c 2 t) (ix2 r f)
      = out0 (V c main_v88) (V c main_arg3) (V c main_v89) n f := by
  refine (blockOut0_apply (iblk0 V c 0 t) (iblk0 V c 1 t) (iblk0 V c 2 t) r f).trans ?_
  have e0 : (fun (k : Fin 5) (j : Fin 6) => (iblk0 V c 0 t : Vec Ideal S5x2000x6 .f32) (ix3 k r j))
      = fun k j => (V c main_v88 : S5x50000x6.Idx → EReal) (ix3 k n j) :=
    funext fun k => funext fun j => iblk0_0_apply V c t k r j n hn
  have e1 : (fun (k : Fin 5) (j : Fin 6) => (iblk0 V c 1 t : Vec Ideal S5x6x128 .f32) (ix3 k j f))
      = fun k j => (V c main_arg3 : S5x6x128.Idx → EReal) (ix3 k j f) :=
    funext fun k => funext fun j => iblk0_1_apply V c t k j f
  have e2 := iblk0_2_apply V c t (0 : Fin 1) f
  unfold out0
  exact congrArg (max · 0) (congr (congr (congrArg Cert.Spec.comb e0) e1) e2)

/-- What point `t` writes back is block `t` of the whole-array function. -/
theorem flushed0_eq (c : Dev nD) (t : Fin cfg0.N) :
    (dat0 V c).flushed 3 t
      = ((cfg0.win 3).blk t).view.read (Elt Ideal) (G0 (V c main_v88) (V c main_arg3) (V c main_v89)) := by
  show (cfg0.win 3).cut (grid0.coords t) ((dat0 V c).after 3 t) = _
  rw [after0_3]
  obtain ⟨-, -, -, -, -, -, -, -, e0, e1⟩ := idx_facts0 t
  have ht : t.val < 25 := lt_of_lt_of_eq t.isLt N_0
  refine funext fun (j : S2000x128.Idx) => ?_
  obtain ⟨r, f, rfl⟩ : ∃ (r : Fin 2000) (f : Fin 128), j = ix2 r f := ⟨j 0, j 1, eq_ix2 j⟩
  rw [View.read_apply]
  show blockOut0 (F := Ideal) (iblk0 V c 0 t) (iblk0 V c 1 t) (iblk0 V c 2 t) (ix2 r f) = _
  refine (point0_apply V c t r f ⟨t.val * 2000 + r.val, by have := r.isLt; omega⟩ rfl).trans ?_
  show out0 _ _ _ _ _ = out0 _ _ _ _ _
  have hr : (⟨t.val * 2000 + r.val, by have := r.isLt; omega⟩ : Fin 50000)
      = (((cfg0.win 3).blk t).view.emb (ix2 r f) : S50000x128.Idx) 0 :=
    Fin.ext (by show t.val * 2000 + r.val = win0_3.index t (0 : Fin 2) * 2000 + 1 * r.val; rw [e0]; omega)
  have hf : f = (((cfg0.win 3).blk t).view.emb (ix2 r f) : S50000x128.Idx) 1 :=
    Fin.ext (by show f.val = win0_3.index t (1 : Fin 2) * 128 + 1 * f.val; rw [e1]; omega)
  rw [← hr, ← hf]

/-- An index of the output is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v90).slice (win0_3.rect t)).set ↔ _
  rw [View.set_slice_whole, Rect.mem_set_unit]
  exact Iff.rfl

/-- Row `n` lies in the block of point `n / 2000`: the 25 blocks cover the output. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, e0, e1⟩ := idx_facts0 t
  have q0 : win0_3.index t (0 : Fin 2) = (i 0).val / 2000 := e0
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after layer 1's launch. -/
theorem final0_eq (c : Dev nD) :
    (dat0 V c).arrAt 3 cfg0.N = G0 (V c main_v88) (V c main_arg3) (V c main_v89) :=
  (dat0 V c).arrAt_eq_of_cover 3 (G0 (V c main_v88) (V c main_arg3) (V c main_v89))
    (fun t _ => flushed0_eq V c t) (cover0)

/-- … read at row `n`, feature `f`. -/
theorem final0 (c : Dev nD) (n : Fin 50000) (f : Fin 128) :
    ((dat0 V c).arrAt 3 cfg0.N : S50000x128.Idx → EReal) (ix2 n f)
      = max (Cert.Spec.comb (fun k j => (V c main_v88 : S5x50000x6.Idx → EReal) (ix3 k n j))
          (fun k j => (V c main_arg3 : S5x6x128.Idx → EReal) (ix3 k j f))
          ((V c main_v89 : S1x128.Idx → EReal) (ix2 (0 : Fin 1) f))) 0 :=
  congrFun (final0_eq V c) (ix2 n f)

/-! ## Layer 2 -/

/-- The accumulated block of layer 2 at row `n`, column `c`, as a function of the whole arrays. -/
def acc1 (h : S5x50000x128.Idx → EReal) (w : S5x128x6.Idx → EReal) (b : S1x6.Idx → EReal) (n : Fin 50000) (c : Fin 6) : EReal :=
  Cert.Spec.comb (fun k j => h (ix3 k n j)) (fun k j => w (ix3 k j c)) (b (ix2 (0 : Fin 1) c))

/-- The first output at row `n`, column `a`: tanh of column `a`. -/
def outMu (h : S5x50000x128.Idx → EReal) (w : S5x128x6.Idx → EReal) (b : S1x6.Idx → EReal) (n : Fin 50000) (a : Fin 3) : EReal :=
  Ideal.tanh (acc1 h w b n ⟨a.val, by omega⟩)

/-- The second output at row `n`, column `a`: exp of the literal two times tanh of column `a + 3`. -/
def outSig (h : S5x50000x128.Idx → EReal) (w : S5x128x6.Idx → EReal) (b : S1x6.Idx → EReal) (n : Fin 50000) (a : Fin 3) : EReal :=
  Ideal.exp (Ideal.ofBits .f32 0x40000000#32 * Ideal.tanh (acc1 h w b n ⟨a.val + 3, by omega⟩))

def GMu (h : S5x50000x128.Idx → EReal) (w : S5x128x6.Idx → EReal) (b : S1x6.Idx → EReal) : S50000x3.Idx → EReal :=
  fun i => outMu h w b (i 0) (i 1)

def GSig (h : S5x50000x128.Idx → EReal) (w : S5x128x6.Idx → EReal) (b : S1x6.Idx → EReal) : S50000x3.Idx → EReal :=
  fun i => outSig h w b (i 0) (i 1)

theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem iblk1_0_apply (c : Dev nD) (t : Fin cfg1.N) (k : Fin 5) (r : Fin 2000) (j : Fin 128) (n : Fin 50000)
    (hn : n.val = t.val * 2000 + r.val) :
    (iblk1 V c 0 t : Vec Ideal S5x2000x128 .f32) (ix3 k r j) = (V c main_v152 : S5x50000x128.Idx → EReal) (ix3 k n j) := by
  obtain ⟨e0, e1, e2, -⟩ := idx_facts1 t
  unfold iblk1
  rw [View.read_apply]
  show V c main_v152 _ = V c main_v152 _
  refine congrArg (V c main_v152) (funext fun a => Fin.ext ?_)
  match a with
  | ⟨0, _⟩ => show win1_0.index t (0 : Fin 3) * 5 + 1 * k.val = k.val; rw [e0]; omega
  | ⟨1, _⟩ => show win1_0.index t (1 : Fin 3) * 2000 + 1 * r.val = n.val; rw [e1, hn]; omega
  | ⟨2, _⟩ => show win1_0.index t (2 : Fin 3) * 128 + 1 * j.val = j.val; rw [e2]; omega

theorem iblk1_1_apply (c : Dev nD) (t : Fin cfg1.N) (k : Fin 5) (j : Fin 128) (f : Fin 6) :
    (iblk1 V c 1 t : Vec Ideal S5x128x6 .f32) (ix3 k j f) = (V c main_arg5 : S5x128x6.Idx → EReal) (ix3 k j f) := by
  obtain ⟨-, -, -, e0, e1, e2, -⟩ := idx_facts1 t
  unfold iblk1
  rw [View.read_apply]
  show V c main_arg5 _ = V c main_arg5 _
  refine congrArg (V c main_arg5) (funext fun a => Fin.ext ?_)
  match a with
  | ⟨0, _⟩ => show win1_1.index t (0 : Fin 3) * 5 + 1 * k.val = k.val; rw [e0]; omega
  | ⟨1, _⟩ => show win1_1.index t (1 : Fin 3) * 128 + 1 * j.val = j.val; rw [e1]; omega
  | ⟨2, _⟩ => show win1_1.index t (2 : Fin 3) * 6 + 1 * f.val = f.val; rw [e2]; omega

theorem iblk1_2_apply (c : Dev nD) (t : Fin cfg1.N) (u : Fin 1) (f : Fin 6) :
    (iblk1 V c 2 t : Vec Ideal S1x6 .f32) (ix2 u f) = (V c main_v153 : S1x6.Idx → EReal) (ix2 u f) := by
  obtain ⟨-, -, -, -, -, -, e0, e1, -⟩ := idx_facts1 t
  unfold iblk1
  rw [View.read_apply]
  show V c main_v153 _ = V c main_v153 _
  refine congrArg (V c main_v153) (funext fun a => Fin.ext ?_)
  match a with
  | ⟨0, _⟩ => show win1_2.index t (0 : Fin 2) * 1 + 1 * u.val = u.val; rw [e0]; omega
  | ⟨1, _⟩ => show win1_2.index t (1 : Fin 2) * 6 + 1 * f.val = f.val; rw [e1]; omega

/-- The accumulated entry over point `t`'s blocks is the whole-array one at row `2000·t + r`. -/
theorem acc1_point (c : Dev nD) (t : Fin cfg1.N) (r : Fin 2000) (q : Fin 6) (n : Fin 50000)
    (hn : n.val = t.val * 2000 + r.val) :
    Cert.Spec.comb (fun k j => (iblk1 V c 0 t : Vec Ideal S5x2000x128 .f32) (ix3 k r j))
        (fun k j => (iblk1 V c 1 t : Vec Ideal S5x128x6 .f32) (ix3 k j q))
        ((iblk1 V c 2 t : Vec Ideal S1x6 .f32) (ix2 (0 : Fin 1) q))
      = acc1 (V c main_v152) (V c main_arg5) (V c main_v153) n q := by
  have e0 : (fun (k : Fin 5) (j : Fin 128) => (iblk1 V c 0 t : Vec Ideal S5x2000x128 .f32) (ix3 k r j))
      = fun k j => (V c main_v152 : S5x50000x128.Idx → EReal) (ix3 k n j) :=
    funext fun k => funext fun j => iblk1_0_apply V c t k r j n hn
  have e1 : (fun (k : Fin 5) (j : Fin 128) => (iblk1 V c 1 t : Vec Ideal S5x128x6 .f32) (ix3 k j q))
      = fun k j => (V c main_arg5 : S5x128x6.Idx → EReal) (ix3 k j q) :=
    funext fun k => funext fun j => iblk1_1_apply V c t k j q
  have e2 := iblk1_2_apply V c t (0 : Fin 1) q
  unfold acc1
  exact congr (congr (congrArg Cert.Spec.comb e0) e1) e2

theorem pointMu_apply (c : Dev nD) (t : Fin cfg1.N) (r : Fin 2000) (a : Fin 3) (n : Fin 50000)
    (hn : n.val = t.val * 2000 + r.val) :
    blockMu (F := Ideal) (iblk1 V c 0 t) (iblk1 V c 1 t) (iblk1 V c 2 t) (ix2 r a)
      = outMu (V c main_v152) (V c main_arg5) (V c main_v153) n a := by
  refine (blockMu_apply (iblk1 V c 0 t) (iblk1 V c 1 t) (iblk1 V c 2 t) r a).trans ?_
  unfold outMu
  exact congrArg Ideal.tanh (acc1_point V c t r ⟨a.val, by omega⟩ n hn)

theorem pointSig_apply (c : Dev nD) (t : Fin cfg1.N) (r : Fin 2000) (a : Fin 3) (n : Fin 50000)
    (hn : n.val = t.val * 2000 + r.val) :
    blockSig (F := Ideal) (iblk1 V c 0 t) (iblk1 V c 1 t) (iblk1 V c 2 t) (ix2 r a)
      = outSig (V c main_v152) (V c main_arg5) (V c main_v153) n a := by
  refine (blockSig_apply (iblk1 V c 0 t) (iblk1 V c 1 t) (iblk1 V c 2 t) r a).trans ?_
  unfold outSig
  exact congrArg (fun x => Ideal.exp (Ideal.ofBits .f32 0x40000000#32 * Ideal.tanh x))
    (acc1_point V c t r ⟨a.val + 3, by omega⟩ n hn)

theorem flushedMu_eq (c : Dev nD) (t : Fin cfg1.N) :
    (dat1 V c).flushed 3 t
      = ((cfg1.win 3).blk t).view.read (Elt Ideal) (GMu (V c main_v152) (V c main_arg5) (V c main_v153)) := by
  show (cfg1.win 3).cut (grid1.coords t) ((dat1 V c).after 3 t) = _
  rw [after1_3]
  obtain ⟨-, -, -, -, -, -, -, -, e0, e1, -⟩ := idx_facts1 t
  have ht : t.val < 25 := lt_of_lt_of_eq t.isLt N_1
  refine funext fun (j : S2000x3.Idx) => ?_
  obtain ⟨r, a, rfl⟩ : ∃ (r : Fin 2000) (a : Fin 3), j = ix2 r a := ⟨j 0, j 1, eq_ix2 j⟩
  rw [View.read_apply]
  show blockMu (F := Ideal) (iblk1 V c 0 t) (iblk1 V c 1 t) (iblk1 V c 2 t) (ix2 r a) = _
  refine (pointMu_apply V c t r a ⟨t.val * 2000 + r.val, by have := r.isLt; omega⟩ rfl).trans ?_
  show outMu _ _ _ _ _ = outMu _ _ _ _ _
  have hr : (⟨t.val * 2000 + r.val, by have := r.isLt; omega⟩ : Fin 50000)
      = (((cfg1.win 3).blk t).view.emb (ix2 r a) : S50000x3.Idx) 0 :=
    Fin.ext (by show t.val * 2000 + r.val = win1_3.index t (0 : Fin 2) * 2000 + 1 * r.val; rw [e0]; omega)
  have ha : a = (((cfg1.win 3).blk t).view.emb (ix2 r a) : S50000x3.Idx) 1 :=
    Fin.ext (by show a.val = win1_3.index t (1 : Fin 2) * 3 + 1 * a.val; rw [e1]; omega)
  rw [← hr, ← ha]

theorem flushedSig_eq (c : Dev nD) (t : Fin cfg1.N) :
    (dat1 V c).flushed 4 t
      = ((cfg1.win 4).blk t).view.read (Elt Ideal) (GSig (V c main_v152) (V c main_arg5) (V c main_v153)) := by
  show (cfg1.win 4).cut (grid1.coords t) ((dat1 V c).after 4 t) = _
  rw [after1_4]
  obtain ⟨-, -, -, -, -, -, -, -, -, -, e0, e1⟩ := idx_facts1 t
  have ht : t.val < 25 := lt_of_lt_of_eq t.isLt N_1
  refine funext fun (j : S2000x3.Idx) => ?_
  obtain ⟨r, a, rfl⟩ : ∃ (r : Fin 2000) (a : Fin 3), j = ix2 r a := ⟨j 0, j 1, eq_ix2 j⟩
  rw [View.read_apply]
  show blockSig (F := Ideal) (iblk1 V c 0 t) (iblk1 V c 1 t) (iblk1 V c 2 t) (ix2 r a) = _
  refine (pointSig_apply V c t r a ⟨t.val * 2000 + r.val, by have := r.isLt; omega⟩ rfl).trans ?_
  show outSig _ _ _ _ _ = outSig _ _ _ _ _
  have hr : (⟨t.val * 2000 + r.val, by have := r.isLt; omega⟩ : Fin 50000)
      = (((cfg1.win 4).blk t).view.emb (ix2 r a) : S50000x3.Idx) 0 :=
    Fin.ext (by show t.val * 2000 + r.val = win1_4.index t (0 : Fin 2) * 2000 + 1 * r.val; rw [e0]; omega)
  have ha : a = (((cfg1.win 4).blk t).view.emb (ix2 r a) : S50000x3.Idx) 1 :=
    Fin.ext (by show a.val = win1_4.index t (1 : Fin 2) * 3 + 1 * a.val; rw [e1]; omega)
  rw [← hr, ← ha]

theorem mem_blkMu (t : Fin cfg1.N) (i : S50000x3.Idx) :
    i ∈ ((cfg1.win 3).blk t).view.set ↔ ∀ a : Fin 2, win1_3.index t a * S2000x3.size a ≤ (i a).val
      ∧ (i a).val < win1_3.index t a * S2000x3.size a + S2000x3.size a := by
  show i ∈ ((View.whole main_v154_0).slice (win1_3.rect t)).set ↔ _
  rw [View.set_slice_whole, Rect.mem_set_unit]
  exact Iff.rfl

theorem mem_blkSig (t : Fin cfg1.N) (i : S50000x3.Idx) :
    i ∈ ((cfg1.win 4).blk t).view.set ↔ ∀ a : Fin 2, win1_4.index t a * S2000x3.size a ≤ (i a).val
      ∧ (i a).val < win1_4.index t a * S2000x3.size a + S2000x3.size a := by
  show i ∈ ((View.whole main_v154_1).slice (win1_4.rect t)).set ↔ _
  rw [View.set_slice_whole, Rect.mem_set_unit]
  exact Iff.rfl

theorem coverMu (i : S50000x3.Idx) :
    ∃ t : Fin cfg1.N, (cfg1.win 3).flush t = true ∧ i ∈ ((cfg1.win 3).blk t).view.set := by
  have hi0 : (i 0).val < 50000 := (i 0).isLt
  have hi1 : (i 1).val < 3 := (i 1).isLt
  have hN : cfg1.N = 25 := N_1
  let t : Fin cfg1.N := ⟨(i 0).val / 2000, by rw [hN]; omega⟩
  obtain ⟨-, -, -, -, -, -, -, -, e0, e1, -⟩ := idx_facts1 t
  have q0 : win1_3.index t (0 : Fin 2) = (i 0).val / 2000 := e0
  refine ⟨t, flush1_3 t, ?_⟩
  rw [mem_blkMu]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 3 ≤ (i 1).val ∧ (i 1).val < win1_3.index t (1 : Fin 2) * 3 + 3; omega

theorem coverSig (i : S50000x3.Idx) :
    ∃ t : Fin cfg1.N, (cfg1.win 4).flush t = true ∧ i ∈ ((cfg1.win 4).blk t).view.set := by
  have hi0 : (i 0).val < 50000 := (i 0).isLt
  have hi1 : (i 1).val < 3 := (i 1).isLt
  have hN : cfg1.N = 25 := N_1
  let t : Fin cfg1.N := ⟨(i 0).val / 2000, by rw [hN]; omega⟩
  obtain ⟨-, -, -, -, -, -, -, -, -, -, e0, e1⟩ := idx_facts1 t
  have q0 : win1_4.index t (0 : Fin 2) = (i 0).val / 2000 := e0
  refine ⟨t, flush1_4 t, ?_⟩
  rw [mem_blkSig]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 3 ≤ (i 1).val ∧ (i 1).val < win1_4.index t (1 : Fin 2) * 3 + 3; omega

/-- The two output arrays after layer 2's launch. -/
theorem finalMu_eq (c : Dev nD) :
    (dat1 V c).arrAt 3 cfg1.N = GMu (V c main_v152) (V c main_arg5) (V c main_v153) :=
  (dat1 V c).arrAt_eq_of_cover 3 (GMu (V c main_v152) (V c main_arg5) (V c main_v153))
    (fun t _ => flushedMu_eq V c t) (coverMu)

theorem finalSig_eq (c : Dev nD) :
    (dat1 V c).arrAt 4 cfg1.N = GSig (V c main_v152) (V c main_arg5) (V c main_v153) :=
  (dat1 V c).arrAt_eq_of_cover 4 (GSig (V c main_v152) (V c main_arg5) (V c main_v153))
    (fun t _ => flushedSig_eq V c t) (coverSig)

/-- … read at row `n`, column `a`. -/
theorem finalMu (c : Dev nD) (n : Fin 50000) (a : Fin 3) :
    ((dat1 V c).arrAt 3 cfg1.N : S50000x3.Idx → EReal) (ix2 n a)
      = Ideal.tanh (Cert.Spec.comb (fun k j => (V c main_v152 : S5x50000x128.Idx → EReal) (ix3 k n j))
          (fun k j => (V c main_arg5 : S5x128x6.Idx → EReal) (ix3 k j (⟨a.val, by omega⟩ : Fin 6)))
          ((V c main_v153 : S1x6.Idx → EReal) (ix2 (0 : Fin 1) (⟨a.val, by omega⟩ : Fin 6)))) :=
  congrFun (finalMu_eq V c) (ix2 n a)

theorem finalSig (c : Dev nD) (n : Fin 50000) (a : Fin 3) :
    ((dat1 V c).arrAt 4 cfg1.N : S50000x3.Idx → EReal) (ix2 n a)
      = Ideal.exp (Ideal.ofBits .f32 0x40000000#32
          * Ideal.tanh (Cert.Spec.comb (fun k j => (V c main_v152 : S5x50000x128.Idx → EReal) (ix3 k n j))
              (fun k j => (V c main_arg5 : S5x128x6.Idx → EReal) (ix3 k j (⟨a.val + 3, by omega⟩ : Fin 6)))
              ((V c main_v153 : S1x6.Idx → EReal) (ix2 (0 : Fin 1) (⟨a.val + 3, by omega⟩ : Fin 6))))) :=
  congrFun (finalSig_eq V c) (ix2 n a)

end Cert.KernelIdeal.ArrayValue

end
-- ==== Proof.KernelIdeal.HostDefs.lean ====
/-
  The kernel program's graph propagation on the host, as functions of the argument arrays.

  With row = ei[0] and col = ei[1] (each made a flat vector of 800000 node numbers):
    deg  = the edge weights scatter-added at col into zeros,
    dis  = rsqrt(deg) where deg > 0, else 0,
    norm = (dis gathered at row) * ew * (dis gathered at col),
  and one propagation step of an array xk with c columns is
    P xk = (xk gathered at row) * (norm, broadcast along the columns), scatter-added at col into zeros.
  A gather takes its node numbers with a negative one counted from the end (+ 50000); a scatter-add
  takes col as it is. These definitions are the operations of the kernel program's host part, in its
  order and with its operand order; nothing about a gather or a scatter-add is used beyond its name.
  The primed steps take the array of normalised weights as an argument: the program computes it once
  and reads it from its buffer in every step.
-/
import proofs.«100254_j64845416235556_1_alg».proof.Proof.Gen.KernelIdeal
import Idealize.ShloMosaic.PureOps.Ideal

noncomputable section

namespace Cert.KernelIdeal.HostValue

open Cert.KernelIdeal Cert.KernelIdeal.Gen Idealize.ShloMosaic Idealize.ShloMosaic.TcCoe Idealize.SL.Sem Idealize.ShloMosaic.StableHlo

/-- Row 0 of the edge list (the source nodes), as a flat vector. -/
def rowK (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list (the target nodes), as a flat vector. -/
def colK (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Node numbers as a gather takes them: a negative number has 50000 added; one index vector per edge. -/
def wrapK (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Node numbers as a scatter-add takes them: one index vector per edge, unchanged. -/
def colIdxK (ei : (⟨S2x800000, .i32⟩ : BufTy).Contents (Elt Ideal)) : (⟨S800000x1, .i32⟩ : BufTy).Contents (Elt Ideal) :=
  broadcastInDim S800000x1 ![0] bcast_S800000_S800000x1_0 (colK ei)

/-- The weighted in-degree: the edge weights added up at their target nodes. -/
def degK (ei : (⟨S2x800000, .i32⟩ : BufTy).Contents (Elt Ideal)) (ew : (⟨S800000, .f32⟩ : BufTy).Contents (Elt Ideal)) : (⟨S50000, .f32⟩ : BufTy).Contents (Elt Ideal) :=
  Host.scatterAdd (F := Ideal) (φ := .f32) scatter_S50000_S800000x1_S800000_n_0_0_1
    (broadcastInDim S50000 ![] bcast_S_S50000 (constant (F := Ideal) S_ .f32 0x00000000#32)) (colIdxK ei) ew

/-- deg^(-1/2) where deg > 0, zero elsewhere. -/
def disK (ei : (⟨S2x800000, .i32⟩ : BufTy).Contents (Elt Ideal)) (ew : (⟨S800000, .f32⟩ : BufTy).Contents (Elt Ideal)) : (⟨S50000, .f32⟩ : BufTy).Contents (Elt Ideal) :=
  select (cmpf (F := Ideal) (φ := .f32) .ogt (degK ei ew) (broadcastInDim S50000 ![] bcast_S_S50000 (constant (F := Ideal) S_ .f32 0x00000000#32)))
    (Host.rsqrt (F := Ideal) (φ := .f32) (degK ei ew))
    (broadcastInDim S50000 ![] bcast_S_S50000 (id (constant (F := Ideal) S_ .f32 0x00000000#32)))

/-- The symmetric normalisation of the edge weights: dis[row] * ew * dis[col]. -/
def normK (ei : (⟨S2x800000, .i32⟩ : BufTy).Contents (Elt Ideal)) (ew : (⟨S800000, .f32⟩ : BufTy).Contents (Elt Ideal)) : (⟨S800000, .f32⟩ : BufTy).Contents (Elt Ideal) :=
  mulf (F := Ideal) (φ := .f32) (mulf (F := Ideal) (φ := .f32) (Host.gather gather_S50000_S800000x1_S800000_n_0_n_n_0_1_1 (disK ei ew) (wrapK (rowK ei))) ew)
    (Host.gather gather_S50000_S800000x1_S800000_n_0_n_n_0_1_1 (disK ei ew) (wrapK (colK ei)))

/-- The normalised weights as a column, one per edge. -/
def normColK (nw : (⟨S800000, .f32⟩ : BufTy).Contents (Elt Ideal)) : (⟨S800000x1, .f32⟩ : BufTy).Contents (Elt Ideal) :=
  broadcastInDim S800000x1 ![0] bcast_S800000_S800000x1_0 nw

/-- One propagation step on 6 columns with the normalised weights `nw` given: xk[row] * nw[:, None], added up at col. -/
def propK6' (ei : (⟨S2x800000, .i32⟩ : BufTy).Contents (Elt Ideal)) (nw : (⟨S800000, .f32⟩ : BufTy).Contents (Elt Ideal)) (xk : (⟨S50000x6, .f32⟩ : BufTy).Contents (Elt Ideal)) : (⟨S50000x6, .f32⟩ : BufTy).Contents (Elt Ideal) :=
  Host.scatterAdd (F := Ideal) (φ := .f32) scatter_S50000x6_S800000x1_S800000x6_1_0_0_1
    (broadcastInDim S50000x6 ![] bcast_S_S50000x6 (constant (F := Ideal) S_ .f32 0x00000000#32)) (colIdxK ei)
    (mulf (F := Ideal) (φ := .f32) (Host.gather gather_S50000x6_S800000x1_S800000x6_1_0_n_n_0_1_16 xk (wrapK (rowK ei)))
      (broadcastInDim S800000x6 ![0, 1] bcast_S800000x1_S800000x6_0_1 (normColK nw)))

/-- One propagation step on 128 columns with the normalised weights `nw` given. -/
def propK128' (ei : (⟨S2x800000, .i32⟩ : BufTy).Contents (Elt Ideal)) (nw : (⟨S800000, .f32⟩ : BufTy).Contents (Elt Ideal)) (xk : (⟨S50000x128, .f32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32)) (colIdxK ei)
    (mulf (F := Ideal) (φ := .f32) (Host.gather gather_S50000x128_S800000x1_S800000x128_1_0_n_n_0_1_1128 xk (wrapK (rowK ei)))
      (broadcastInDim S800000x128 ![0, 1] bcast_S800000x1_S800000x128_0_1 (normColK nw)))

/-- One propagation step on 6 columns: xk[row] * norm[:, None], added up at col. -/
def propK6 (ei : (⟨S2x800000, .i32⟩ : BufTy).Contents (Elt Ideal)) (ew : (⟨S800000, .f32⟩ : BufTy).Contents (Elt Ideal)) (xk : (⟨S50000x6, .f32⟩ : BufTy).Contents (Elt Ideal)) : (⟨S50000x6, .f32⟩ : BufTy).Contents (Elt Ideal) :=
  propK6' ei (normK ei ew) xk

/-- One propagation step on 128 columns: xk[row] * norm[:, None], added up at col. -/
def propK128 (ei : (⟨S2x800000, .i32⟩ : BufTy).Contents (Elt Ideal)) (ew : (⟨S800000, .f32⟩ : BufTy).Contents (Elt Ideal)) (xk : (⟨S50000x128, .f32⟩ : BufTy).Contents (Elt Ideal)) : (⟨S50000x128, .f32⟩ : BufTy).Contents (Elt Ideal) :=
  propK128' ei (normK ei ew) xk

/-- The normalised weights from the inverse square-root degrees `dis` and the two node-number vectors. -/
def normOf (dis : (⟨S50000, .f32⟩ : BufTy).Contents (Elt Ideal)) (row col : (⟨S800000, .i32⟩ : BufTy).Contents (Elt Ideal))
    (ew : (⟨S800000, .f32⟩ : BufTy).Contents (Elt Ideal)) : (⟨S800000, .f32⟩ : BufTy).Contents (Elt Ideal) :=
  mulf (F := Ideal) (φ := .f32) (mulf (F := Ideal) (φ := .f32) (Host.gather gather_S50000_S800000x1_S800000_n_0_n_n_0_1_1 dis (wrapK row)) ew)
    (Host.gather gather_S50000_S800000x1_S800000_n_0_n_n_0_1_1 dis (wrapK col))

theorem normOf_eq (ei : (⟨S2x800000, .i32⟩ : BufTy).Contents (Elt Ideal)) (ew : (⟨S800000, .f32⟩ : BufTy).Contents (Elt Ideal)) :
    normOf (disK ei ew) (rowK ei) (colK ei) ew = normK ei ew := rfl

theorem propK6_eq (ei : (⟨S2x800000, .i32⟩ : BufTy).Contents (Elt Ideal)) (ew : (⟨S800000, .f32⟩ : BufTy).Contents (Elt Ideal)) :
    propK6 ei ew = propK6' ei (normK ei ew) := rfl

theorem propK128_eq (ei : (⟨S2x800000, .i32⟩ : BufTy).Contents (Elt Ideal)) (ew : (⟨S800000, .f32⟩ : BufTy).Contents (Elt Ideal)) :
    propK128 ei ew = propK128' ei (normK ei ew) := rfl

end Cert.KernelIdeal.HostValue

end
-- ==== Proof.KernelIdeal.HostValue.lean ====
/-
  The host operations before the first launch. From the edge list, the edge weights and the input x (50000 × 6)
  they compute the normalised edge weights norm = dis[row] * ew * dis[col] (dis the inverse square root of the
  weighted in-degree where that is positive, zero elsewhere), propagate x four times — one step gathers the rows of
  its argument at the edges' source nodes, multiplies each by its edge's normalised weight and adds the products up
  at the edges' target nodes — and join x and its four propagations, each given a leading unit axis, into one
  5 × 50000 × 6 stack; the first layer's bias vector is given a leading unit axis. So entry (k, n, j) of the stack is
  entry (n, j) of the k-th propagation depth of x, and entry (0, f) of the bias row is the vector's entry f. Nothing
  about a gather or a scatter-add is used beyond its name.
-/
import proofs.«100254_j64845416235556_1_alg».proof.Proof.KernelIdeal.HostDefs
import proofs.«100254_j64845416235556_1_alg».proof.Proof.Gen.KernelIdeal.Launch
import proofs.«100254_j64845416235556_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384
set_option Elab.async false

noncomputable section

namespace Cert.KernelIdeal.HostValue

open Cert.KernelIdeal Cert.KernelIdeal.Gen Idealize.ShloMosaic Idealize.ShloMosaic.TcCoe Idealize.SL.Sem Idealize.ShloMosaic.StableHlo

/-- An array of 6 columns as one slab of a stack. -/
def up6 (a : (⟨S50000x6, .f32⟩ : BufTy).Contents (Elt Ideal)) : (⟨S1x50000x6, .f32⟩ : BufTy).Contents (Elt Ideal) :=
  broadcastInDim S1x50000x6 ![1, 2] bcast_S50000x6_S1x50000x6_1_2 a

/-- Five slabs of 6 columns joined along the leading axis. -/
def cat6 (a b c d e : (⟨S1x50000x6, .f32⟩ : BufTy).Contents (Elt Ideal)) : (⟨S5x50000x6, .f32⟩ : BufTy).Contents (Elt Ideal) :=
  concatenate S5x50000x6 0 [⟨S1x50000x6, a⟩, ⟨S1x50000x6, b⟩, ⟨S1x50000x6, c⟩, ⟨S1x50000x6, d⟩, ⟨S1x50000x6, e⟩]
    concatenates_S1x50000x6_S1x50000x6_S1x50000x6_S1x50000x6_S1x50000x6_S5x50000x6_d0

/-- Five arrays of 6 columns stacked along a new leading axis. -/
def stack6 (X : Fin 5 → (⟨S50000x6, .f32⟩ : BufTy).Contents (Elt Ideal)) : (⟨S5x50000x6, .f32⟩ : BufTy).Contents (Elt Ideal) :=
  cat6 (up6 (X 0)) (up6 (X 1)) (up6 (X 2)) (up6 (X 3)) (up6 (X 4))

/-- Entry (k, n, j) of the stack is entry (n, j) of its k-th array. -/
theorem stack6_apply (X : Fin 5 → (⟨S50000x6, .f32⟩ : BufTy).Contents (Elt Ideal)) (k : Fin 5) (n : Fin 50000) (j : Fin 6) :
    stack6 X (ValueIdx.ix3 k n j) = X k (ValueIdx.ix2 n j) := by
  unfold stack6 cat6
  refine (concatenate_ofFn_unit_apply (t := S5x50000x6) (s₁ := S1x50000x6) 0 (fun m : Fin 5 => up6 (X m))
    concatenates_S1x50000x6_S1x50000x6_S1x50000x6_S1x50000x6_S1x50000x6_S5x50000x6_d0 rfl rfl (ValueIdx.ix3 k n j) k rfl
    (ValueIdx.ix3 0 n j) ?_).trans ?_
  · intro b hb
    match b, hb with
    | ⟨0, _⟩, hb => exact absurd rfl hb
    | ⟨1, _⟩, _ => rfl
    | ⟨2, _⟩, _ => rfl
  · show up6 (X k) (ValueIdx.ix3 0 n j) = X k (ValueIdx.ix2 n j)
    unfold up6
    refine broadcastInDim_apply _ _ _ _ (ValueIdx.ix2 n j) ?_
    intro a
    match a with
    | ⟨0, _⟩ => exact (if_neg (show ¬ (50000 : Nat) = 1 by decide)).symm
    | ⟨1, _⟩ => exact (if_neg (show ¬ (6 : Nat) = 1 by decide)).symm

/-- The join of the five slabs, as the host operation leaves it: its function at the five operands' contents. -/
theorem cat6_result' (hxs hy) (F : Valuation τ sig (Elt Ideal)) :
    (StableHlo.nary (τ := τ) ![main_v83, main_v84, main_v85, main_v86, main_v87] main_v88
        (fun u => concatenate S5x50000x6 0 [⟨S1x50000x6, u 0⟩, ⟨S1x50000x6, u 1⟩, ⟨S1x50000x6, u 2⟩, ⟨S1x50000x6, u 3⟩, ⟨S1x50000x6, u 4⟩] concatenates_S1x50000x6_S1x50000x6_S1x50000x6_S1x50000x6_S1x50000x6_S5x50000x6_d0)
        hxs hy).result F (no_index (Proc.devRef .tc main_v88))
      = cat6 (F (Proc.devRef .tc main_v83)) (F (Proc.devRef .tc main_v84)) (F (Proc.devRef .tc main_v85))
          (F (Proc.devRef .tc main_v86)) (F (Proc.devRef .tc main_v87)) := by
  rw [StableHlo.nary_result]; rfl

/-- Reads a buffer after a list of host operations: each operation's result at its own buffer is its function of
    its operands' contents, and at any other buffer what was there. -/
macro "host_results" : tactic =>
  `(tactic| (simp (disch := decide) only [StableHlo.after_cons, StableHlo.after_nil,
      StableHlo.nullary_result', StableHlo.unary_result', StableHlo.binary_result', StableHlo.ternary_result',
      StableHlo.reshape_result', cat6_result',
      StableHlo.nullary_result_ne', StableHlo.unary_result_ne', StableHlo.binary_result_ne', StableHlo.ternary_result_ne',
      StableHlo.reshape_result_ne', StableHlo.nary_result_ne']))

/-! ## Before the first launch: the degrees and their inverse square roots -/

section Pre
variable (W : Valuation τ sig (Elt Ideal))

theorem pre0_v8 :
    StableHlo.after (hostOps0 (F := Ideal)) W (Proc.devRef .tc main_v8)
      = cmpf (F := Ideal) (φ := .f32) .ogt (degK (W (Proc.devRef .tc main_arg1)) (W (Proc.devRef .tc main_arg2)))
          (broadcastInDim S50000 ![] bcast_S_S50000 (constant (F := Ideal) S_ .f32 0x00000000#32)) := by
  host_results
  rfl

theorem pre0_v9 :
    StableHlo.after (hostOps0 (F := Ideal)) W (Proc.devRef .tc main_v9) = Host.rsqrt (F := Ideal) (φ := .f32) (degK (W (Proc.devRef .tc main_arg1)) (W (Proc.devRef .tc main_arg2))) := by
  host_results
  rfl

theorem pre0_cst1 :
    StableHlo.after (hostOps0 (F := Ideal)) W (Proc.devRef .tc main_cst_1) = constant (F := Ideal) S_ .f32 0x00000000#32 := by
  host_results

theorem pre0_v1 : StableHlo.after (hostOps0 (F := Ideal)) W (Proc.devRef .tc main_v1) = rowK (W (Proc.devRef .tc main_arg1)) := by
  host_results
  rfl

theorem pre0_v3 : StableHlo.after (hostOps0 (F := Ideal)) W (Proc.devRef .tc main_v3) = colK (W (Proc.devRef .tc main_arg1)) := by
  host_results
  rfl

theorem pre0_arg0 : StableHlo.after (hostOps0 (F := Ideal)) W (Proc.devRef .tc main_arg0) = (W (Proc.devRef .tc main_arg0)) := by host_results
theorem pre0_arg1 : StableHlo.after (hostOps0 (F := Ideal)) W (Proc.devRef .tc main_arg1) = (W (Proc.devRef .tc main_arg1)) := by host_results
theorem pre0_arg2 : StableHlo.after (hostOps0 (F := Ideal)) W (Proc.devRef .tc main_arg2) = (W (Proc.devRef .tc main_arg2)) := by host_results
theorem pre0_arg4 : StableHlo.after (hostOps0 (F := Ideal)) W (Proc.devRef .tc main_arg4) = (W (Proc.devRef .tc main_arg4)) := by host_results

variable (V : Valuation τ sig (Elt Ideal))

/-- The three operations of the outlined `where`: the choice between the inverse square root and zero. -/
theorem pre1_v10 :
    StableHlo.after (hostOps0_1 (F := Ideal)) V (Proc.devRef .tc main_v10)
      = select (V (Proc.devRef .tc main_v8)) (V (Proc.devRef .tc main_v9)) (broadcastInDim S50000 ![] bcast_S_S50000 (id (V (Proc.devRef .tc main_cst_1)))) := by
  host_results
  rfl

theorem pre1_v1 : StableHlo.after (hostOps0_1 (F := Ideal)) V (Proc.devRef .tc main_v1) = (V (Proc.devRef .tc main_v1)) := by host_results
theorem pre1_v3 : StableHlo.after (hostOps0_1 (F := Ideal)) V (Proc.devRef .tc main_v3) = (V (Proc.devRef .tc main_v3)) := by host_results
theorem pre1_arg0 : StableHlo.after (hostOps0_1 (F := Ideal)) V (Proc.devRef .tc main_arg0) = (V (Proc.devRef .tc main_arg0)) := by host_results
theorem pre1_arg1 : StableHlo.after (hostOps0_1 (F := Ideal)) V (Proc.devRef .tc main_arg1) = (V (Proc.devRef .tc main_arg1)) := by host_results
theorem pre1_arg2 : StableHlo.after (hostOps0_1 (F := Ideal)) V (Proc.devRef .tc main_arg2) = (V (Proc.devRef .tc main_arg2)) := by host_results
theorem pre1_arg4 : StableHlo.after (hostOps0_1 (F := Ideal)) V (Proc.devRef .tc main_arg4) = (V (Proc.devRef .tc main_arg4)) := by host_results

theorem pre_dis : StableHlo.after (hostOps0_1 (F := Ideal)) (StableHlo.after (hostOps0 (F := Ideal)) W) (Proc.devRef .tc main_v10) = disK (W (Proc.devRef .tc main_arg1)) (W (Proc.devRef .tc main_arg2)) := by
  rw [pre1_v10, pre0_v8, pre0_v9, pre0_cst1]
  rfl

theorem pre_row : StableHlo.after (hostOps0_1 (F := Ideal)) (StableHlo.after (hostOps0 (F := Ideal)) W) (Proc.devRef .tc main_v1) = rowK (W (Proc.devRef .tc main_arg1)) := by rw [pre1_v1, pre0_v1]
theorem pre_col : StableHlo.after (hostOps0_1 (F := Ideal)) (StableHlo.after (hostOps0 (F := Ideal)) W) (Proc.devRef .tc main_v3) = colK (W (Proc.devRef .tc main_arg1)) := by rw [pre1_v3, pre0_v3]
theorem pre_arg0 : StableHlo.after (hostOps0_1 (F := Ideal)) (StableHlo.after (hostOps0 (F := Ideal)) W) (Proc.devRef .tc main_arg0) = (W (Proc.devRef .tc main_arg0)) := by rw [pre1_arg0, pre0_arg0]
theorem pre_arg1 : StableHlo.after (hostOps0_1 (F := Ideal)) (StableHlo.after (hostOps0 (F := Ideal)) W) (Proc.devRef .tc main_arg1) = (W (Proc.devRef .tc main_arg1)) := by rw [pre1_arg1, pre0_arg1]
theorem pre_arg2 : StableHlo.after (hostOps0_1 (F := Ideal)) (StableHlo.after (hostOps0 (F := Ideal)) W) (Proc.devRef .tc main_arg2) = (W (Proc.devRef .tc main_arg2)) := by rw [pre1_arg2, pre0_arg2]
theorem pre_arg4 : StableHlo.after (hostOps0_1 (F := Ideal)) (StableHlo.after (hostOps0 (F := Ideal)) W) (Proc.devRef .tc main_arg4) = (W (Proc.devRef .tc main_arg4)) := by rw [pre1_arg4, pre0_arg4]

end Pre

/-! ## The 95 operations before the first launch -/

section Main0
variable (V : Valuation τ sig (Elt Ideal))

set_option maxHeartbeats 40000000 in
/-- The normalised weights, from the contents the 95 operations start at. -/
theorem full_v26 :
    StableHlo.after (hostOps0_2 (F := Ideal)) V (Proc.devRef .tc main_v26)
      = normOf (V (Proc.devRef .tc main_v10)) (V (Proc.devRef .tc main_v1)) (V (Proc.devRef .tc main_v3)) (V (Proc.devRef .tc main_arg2)) := by
  host_results
  rfl

set_option maxHeartbeats 40000000 in
/-- The stack handed to the first launch: the input and its four propagations. -/
theorem full_v88 :
    StableHlo.after (hostOps0_2 (F := Ideal)) V (Proc.devRef .tc main_v88)
      = stack6 (Cert.Spec.hops (propK6' (V (Proc.devRef .tc main_arg1)) (normOf (V (Proc.devRef .tc main_v10)) (V (Proc.devRef .tc main_v1)) (V (Proc.devRef .tc main_v3)) (V (Proc.devRef .tc main_arg2)))) (V (Proc.devRef .tc main_arg0))) := by
  host_results
  rfl

set_option maxHeartbeats 40000000 in
/-- The first bias as a row. -/
theorem full_v89 :
    StableHlo.after (hostOps0_2 (F := Ideal)) V (Proc.devRef .tc main_v89)
      = shapeCast S1x128 (V (Proc.devRef .tc main_arg4)) shapeCasts_S128_S1x128 := by
  host_results
  rfl

end Main0

/-- A vector made a one-row matrix reads, in column `f`, the vector's entry `f`. -/
theorem row128_apply (b : (⟨S128, .f32⟩ : BufTy).Contents (Elt Ideal)) (f : Fin 128) :
    shapeCast S1x128 b shapeCasts_S128_S1x128 (ValueIdx.ix2 0 f) = b (ValueIdx.ix1 f) :=
  (shapeCast_addUnit_apply ![128] b shapeCasts_S128_S1x128 (ValueIdx.ix2 0 f)).trans
    (congrArg b (funext fun a => by match a with | ⟨0, _⟩ => rfl))

/-! ## The stretch before the first launch -/

section Stretch0
variable (W : Valuation τ sig (Elt Ideal))

/-- The buffer of normalised weights at the first launch's entry. -/
theorem stretch0_norm :
    StableHlo.after (hostOps0_2 (F := Ideal)) (StableHlo.after (hostOps0_1 (F := Ideal)) (StableHlo.after (hostOps0 (F := Ideal)) W))
        (Proc.devRef .tc main_v26)
      = normK (W (Proc.devRef .tc main_arg1)) (W (Proc.devRef .tc main_arg2)) := by
  rw [full_v26, pre_dis, pre_row, pre_col, pre_arg2, normOf_eq]

/-- The stack at the first launch's entry, entry by entry: slab k is the k-fold propagation of the input. -/
theorem stretch0_hops (k : Fin 5) (n : Fin 50000) (j : Fin 6) :
    StableHlo.after (hostOps0_2 (F := Ideal)) (StableHlo.after (hostOps0_1 (F := Ideal)) (StableHlo.after (hostOps0 (F := Ideal)) W))
        (Proc.devRef .tc main_v88) (ValueIdx.ix3 k n j)
      = Cert.Spec.hops (propK6 (W (Proc.devRef .tc main_arg1)) (W (Proc.devRef .tc main_arg2))) (W (Proc.devRef .tc main_arg0)) k (ValueIdx.ix2 n j) := by
  rw [full_v88, stack6_apply, pre_dis, pre_row, pre_col, pre_arg0, pre_arg1, pre_arg2, normOf_eq, propK6_eq]

/-- The first bias at the first launch's entry, as a row. -/
theorem stretch0_bias :
    StableHlo.after (hostOps0_2 (F := Ideal)) (StableHlo.after (hostOps0_1 (F := Ideal)) (StableHlo.after (hostOps0 (F := Ideal)) W))
        (Proc.devRef .tc main_v89)
      = shapeCast S1x128 (W (Proc.devRef .tc main_arg4)) shapeCasts_S128_S1x128 := by
  rw [full_v89, pre_arg4]

theorem stretch0_bias_apply (f : Fin 128) :
    StableHlo.after (hostOps0_2 (F := Ideal)) (StableHlo.after (hostOps0_1 (F := Ideal)) (StableHlo.after (hostOps0 (F := Ideal)) W))
        (Proc.devRef .tc main_v89) (ValueIdx.ix2 0 f)
      = (W (Proc.devRef .tc main_arg4)) (ValueIdx.ix1 f) := by
  rw [stretch0_bias, row128_apply]

end Stretch0

end Cert.KernelIdeal.HostValue

end
-- ==== Proof.KernelIdeal.HostValue1.lean ====
/-
  The host operations between the two launches. They take the first layer's output `h` (50000 × 128), the edge list
  and the normalised edge weights, propagate `h` four times — one step gathers the rows of its argument at the
  edges' source nodes, multiplies each by its edge's normalised weight and adds the products up at the edges' target
  nodes — and join `h` and its four propagations, each given a leading unit axis, into one 5 × 50000 × 128 stack; the
  second layer's bias vector is given a leading unit axis. So entry (k, n, j) of the stack is entry (n, j) of the
  k-th propagation depth of `h`, and entry (0, a) of the bias row is the vector's entry a. Nothing about a gather
  or a scatter-add is used beyond its name: the propagation step is the same term on both sides.
-/
import proofs.«100254_j64845416235556_1_alg».proof.Proof.KernelIdeal.HostDefs
import proofs.«100254_j64845416235556_1_alg».proof.Proof.Gen.KernelIdeal.Launch
import proofs.«100254_j64845416235556_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostValue1

open Cert.KernelIdeal Cert.KernelIdeal.Gen Idealize.ShloMosaic Idealize.ShloMosaic.TcCoe Idealize.SL.Sem Idealize.ShloMosaic.StableHlo
open Cert.KernelIdeal.HostValue Idealize.ShloMosaic.ValueIdx

/-- An array of 128 columns as one slab of a stack. -/
def up128 (a : (⟨S50000x128, .f32⟩ : BufTy).Contents (Elt Ideal)) : (⟨S1x50000x128, .f32⟩ : BufTy).Contents (Elt Ideal) :=
  broadcastInDim S1x50000x128 ![1, 2] bcast_S50000x128_S1x50000x128_1_2 a

/-- Five slabs joined along the leading axis. -/
def cat5 (a b c d e : (⟨S1x50000x128, .f32⟩ : BufTy).Contents (Elt Ideal)) : (⟨S5x50000x128, .f32⟩ : BufTy).Contents (Elt Ideal) :=
  concatenate S5x50000x128 0 [⟨S1x50000x128, a⟩, ⟨S1x50000x128, b⟩, ⟨S1x50000x128, c⟩, ⟨S1x50000x128, d⟩, ⟨S1x50000x128, e⟩]
    concatenates_S1x50000x128_S1x50000x128_S1x50000x128_S1x50000x128_S1x50000x128_S5x50000x128_d0

/-- Five arrays of 128 columns stacked along a new leading axis. -/
def stack128 (X : Fin 5 → (⟨S50000x128, .f32⟩ : BufTy).Contents (Elt Ideal)) : (⟨S5x50000x128, .f32⟩ : BufTy).Contents (Elt Ideal) :=
  cat5 (up128 (X 0)) (up128 (X 1)) (up128 (X 2)) (up128 (X 3)) (up128 (X 4))

/-- Entry (k, n, j) of the stack is entry (n, j) of its k-th array. -/
theorem stack128_apply (X : Fin 5 → (⟨S50000x128, .f32⟩ : BufTy).Contents (Elt Ideal)) (k : Fin 5) (n : Fin 50000) (j : Fin 128) :
    stack128 X (ix3 k n j) = X k (ix2 n j) := by
  unfold stack128 cat5
  refine (concatenate_ofFn_unit_apply (t := S5x50000x128) (s₁ := S1x50000x128) 0 (fun m : Fin 5 => up128 (X m))
    concatenates_S1x50000x128_S1x50000x128_S1x50000x128_S1x50000x128_S1x50000x128_S5x50000x128_d0 rfl rfl (ix3 k n j) k rfl
    (ix3 0 n j) ?_).trans ?_
  · intro b hb
    match b, hb with
    | ⟨0, _⟩, hb => exact absurd rfl hb
    | ⟨1, _⟩, _ => rfl
    | ⟨2, _⟩, _ => rfl
  · show up128 (X k) (ix3 0 n j) = X k (ix2 n j)
    unfold up128
    refine broadcastInDim_apply _ _ _ _ (ix2 n j) ?_
    intro a
    match a with
    | ⟨0, _⟩ => exact (if_neg (show ¬ (50000 : Nat) = 1 by decide)).symm
    | ⟨1, _⟩ => exact (if_neg (show ¬ (128 : Nat) = 1 by decide)).symm

/-- The join of the five slabs, as the host operation leaves it: its function at the five operands' contents. -/
theorem cat_result' (hxs hy) (F : Valuation τ sig (Elt Ideal)) :
    (StableHlo.nary (τ := τ) ![main_v147, main_v148, main_v149, main_v150, main_v151] main_v152
        (fun u => concatenate S5x50000x128 0 [⟨S1x50000x128, u 0⟩, ⟨S1x50000x128, u 1⟩, ⟨S1x50000x128, u 2⟩, ⟨S1x50000x128, u 3⟩, ⟨S1x50000x128, u 4⟩] concatenates_S1x50000x128_S1x50000x128_S1x50000x128_S1x50000x128_S1x50000x128_S5x50000x128_d0)
        hxs hy).result F (no_index (Proc.devRef .tc main_v152))
      = cat5 (F (Proc.devRef .tc main_v147)) (F (Proc.devRef .tc main_v148)) (F (Proc.devRef .tc main_v149))
          (F (Proc.devRef .tc main_v150)) (F (Proc.devRef .tc main_v151)) := by
  rw [StableHlo.nary_result]; rfl

/-- Reads a buffer after a list of host operations: each operation's result at its own buffer is its function of
    its operands' contents, and at any other buffer what was there. -/
macro "mid_results" : tactic =>
  `(tactic| (simp (disch := decide) only [StableHlo.after_cons, StableHlo.after_nil,
      StableHlo.nullary_result', StableHlo.unary_result', StableHlo.binary_result', StableHlo.ternary_result',
      StableHlo.reshape_result', cat_result',
      StableHlo.nullary_result_ne', StableHlo.unary_result_ne', StableHlo.binary_result_ne', StableHlo.ternary_result_ne',
      StableHlo.reshape_result_ne', StableHlo.nary_result_ne']))

variable (W' : Valuation τ sig (Elt Ideal))

set_option maxHeartbeats 40000000 in
/-- Between the two launches the host program propagates the first layer's output four times (each step gathers the
    rows at the source nodes, scales them by the normalised edge weights and adds them up at the target nodes) and
    stacks the five depths along a new leading axis. -/
theorem mid_stack :
    StableHlo.after (hostOps1 (F := Ideal)) W' (Proc.devRef .tc main_v152)
      = stack128 (Cert.Spec.hops (propK128' (W' (Proc.devRef .tc main_arg1)) (W' (Proc.devRef .tc main_v26)))
          (W' (Proc.devRef .tc main_v90))) := by
  mid_results
  rfl

set_option maxHeartbeats 40000000 in
/-- … and gives the second layer's bias vector a leading unit axis. -/
theorem mid_bias :
    StableHlo.after (hostOps1 (F := Ideal)) W' (Proc.devRef .tc main_v153)
      = shapeCast S1x6 (W' (Proc.devRef .tc main_arg6)) shapeCasts_S6_S1x6 := by
  mid_results
  rfl

/-- Entry `(k, n, j)` of the stack is entry `(n, j)` of the `k`-th propagation depth. -/
theorem mid_stack_apply (k : Fin 5) (n : Fin 50000) (j : Fin 128) :
    (StableHlo.after (hostOps1 (F := Ideal)) W' (Proc.devRef .tc main_v152) : S5x50000x128.Idx → EReal) (ix3 k n j)
      = Cert.Spec.hops (propK128' (W' (Proc.devRef .tc main_arg1)) (W' (Proc.devRef .tc main_v26)))
          (W' (Proc.devRef .tc main_v90)) k (ix2 n j) := by
  rw [mid_stack]
  exact stack128_apply _ k n j

/-- The bias row's entry `a` is the bias vector's. -/
theorem mid_bias_apply (a : Fin 6) :
    (StableHlo.after (hostOps1 (F := Ideal)) W' (Proc.devRef .tc main_v153) : S1x6.Idx → EReal) (ix2 (0 : Fin 1) a)
      = (W' (Proc.devRef .tc main_arg6) : S6.Idx → EReal) (ix1 a) := by
  rw [mid_bias]
  exact shapeCast_a_1a_apply _ shapeCasts_S6_S1x6 (0 : Fin 1) a

end Cert.KernelIdeal.HostValue1
end
-- ==== Proof.KernelIdeal.Results.lean ====
/-
  The kernel program's two results, entry by entry, as functions of the arguments of @main.
  The first launch's output array (the hidden layer) has at (n, f) the rectified combination of the five propagation
  depths of the input; the second launch's two outputs have at (n, a) tanh, and exp(2 · tanh), of the combination of the
  five propagation depths of the hidden layer, at columns a and a + 3. Each is the launch's whole-array value read
  at the contents the run has at the launch's entry: the stacked propagation depths, the weights, and the bias as a row.
-/
import proofs.«100254_j64845416235556_1_alg».proof.Proof.KernelIdeal.Lookups
import proofs.«100254_j64845416235556_1_alg».proof.Proof.KernelIdeal.ArrayValue
import proofs.«100254_j64845416235556_1_alg».proof.Proof.KernelIdeal.HostValue
import proofs.«100254_j64845416235556_1_alg».proof.Proof.KernelIdeal.HostValue1

noncomputable section

namespace Cert.KernelIdeal.Results

open Idealize.ShloMosaic Idealize.ShloMosaic.TcCoe Idealize.SL.Sem Idealize.ShloMosaic.ValueIdx
open Cert.KernelIdeal Cert.KernelIdeal.Gen Cert.KernelIdeal.Hand Cert.KernelIdeal.HostValue

variable (m : (ℓ : Loc nD τ sig) → Buf (Elt Ideal) ℓ) (ρ : Dev nD → PrngReg) (c : Dev nD)

/-- The hidden layer: what the first launch leaves in its output array. -/
def hid : (⟨S50000x128, .f32⟩ : BufTy).Contents (Elt Ideal) := W4 m ρ c (Proc.devRef .tc main_v90)

/-- The hidden layer at node `n`, feature `f`. -/
theorem hid_apply (n : Fin 50000) (f : Fin 128) :
    hid m ρ c (ix2 n f)
      = max (Cert.Spec.comb
          (fun k j => (Cert.Spec.hops (propK6 (m ((c : Thread nD τ).loc main_arg1)) (m ((c : Thread nD τ).loc main_arg2))) (m ((c : Thread nD τ).loc main_arg0)) k (ix2 n j) : EReal))
          (fun k j => ((m ((c : Thread nD τ).loc main_arg3)) (ix3 k j f) : EReal))
          ((m ((c : Thread nD τ).loc main_arg4)) (ix1 f))) 0 := by
  unfold hid
  rw [W4_hidden m ρ c]
  refine (Cert.KernelIdeal.ArrayValue.final0 (V3 m ρ) c n f).trans ?_
  have e88 : ∀ (k : Fin 5) (j : Fin 6), (V3 m ρ c main_v88 : S5x50000x6.Idx → EReal) (ix3 k n j)
      = Cert.Spec.hops (propK6 (m ((c : Thread nD τ).loc main_arg1)) (m ((c : Thread nD τ).loc main_arg2))) (m ((c : Thread nD τ).loc main_arg0)) k (ix2 n j) :=
    fun k j => Cert.KernelIdeal.HostValue.stretch0_hops (W0 m ρ c) k n j
  have e3 : V3 m ρ c main_arg3 = (m ((c : Thread nD τ).loc main_arg3)) := W3_arg m ρ c main_arg3 (Or.inr (Or.inr (Or.inr (Or.inl rfl))))
  have e89 : (V3 m ρ c main_v89 : S1x128.Idx → EReal) (ix2 (0 : Fin 1) f) = (m ((c : Thread nD τ).loc main_arg4)) (ix1 f) :=
    Cert.KernelIdeal.HostValue.stretch0_bias_apply (W0 m ρ c) f
  rw [e89, e3]
  simp only [e88]

/-- The contents the second launch finds: the stack of the hidden layer's propagation depths, -/
theorem entry_stack (k : Fin 5) (n : Fin 50000) (j : Fin 128) :
    (V5 m ρ c main_v152 : S5x50000x128.Idx → EReal) (ix3 k n j)
      = Cert.Spec.hops (propK128' (m ((c : Thread nD τ).loc main_arg1)) (normK (m ((c : Thread nD τ).loc main_arg1)) (m ((c : Thread nD τ).loc main_arg2)))) (hid m ρ c) k (ix2 n j) := by
  refine (Cert.KernelIdeal.HostValue1.mid_stack_apply (W4 m ρ c) k n j).trans ?_
  rw [W4_arg m ρ c main_arg1 (Or.inr (Or.inl rfl)) (by decide), W4_norm m ρ c,
    show W3 m ρ c (Proc.devRef .tc main_v26) = normK (m ((c : Thread nD τ).loc main_arg1)) (m ((c : Thread nD τ).loc main_arg2)) from Cert.KernelIdeal.HostValue.stretch0_norm (W0 m ρ c)]
  rfl

/-- the weights as launched, -/
theorem entry_weights : V5 m ρ c main_arg5 = (m ((c : Thread nD τ).loc main_arg5)) :=
  W5_arg m ρ c main_arg5 (Or.inr (Or.inr (Or.inr (Or.inr (Or.inr (Or.inl rfl)))))) (by decide)

/-- and the bias as a row. -/
theorem entry_bias (a : Fin 6) :
    (V5 m ρ c main_v153 : S1x6.Idx → EReal) (ix2 (0 : Fin 1) a) = (m ((c : Thread nD τ).loc main_arg6)) (ix1 a) := by
  refine (Cert.KernelIdeal.HostValue1.mid_bias_apply (W4 m ρ c) a).trans ?_
  rw [W4_arg m ρ c main_arg6 (Or.inr (Or.inr (Or.inr (Or.inr (Or.inr (Or.inr (rfl))))))) (by decide)]

/-- The first result at node `n`, column `a`. -/
theorem mu_apply (n : Fin 50000) (a : Fin 3) :
    (W6 m ρ c (Proc.devRef .tc main_v154_0) : S50000x3.Idx → EReal) (ix2 n a)
      = Ideal.tanh (Cert.Spec.comb
          (fun k j => (Cert.Spec.hops (propK128' (m ((c : Thread nD τ).loc main_arg1)) (normK (m ((c : Thread nD τ).loc main_arg1)) (m ((c : Thread nD τ).loc main_arg2)))) (hid m ρ c) k (ix2 n j) : EReal))
          (fun k j => ((m ((c : Thread nD τ).loc main_arg5)) (ix3 k j (⟨a.val, by have := a.isLt; omega⟩ : Fin 6)) : EReal))
          ((m ((c : Thread nD τ).loc main_arg6)) (ix1 (⟨a.val, by have := a.isLt; omega⟩ : Fin 6)))) := by
  rw [W6_mu m ρ c]
  refine (Cert.KernelIdeal.ArrayValue.finalMu (V5 m ρ) c n a).trans ?_
  rw [entry_bias m ρ c, entry_weights m ρ c]
  simp only [entry_stack m ρ c]

/-- The second result at node `n`, column `a`. -/
theorem sigma_apply (n : Fin 50000) (a : Fin 3) :
    (W6 m ρ c (Proc.devRef .tc main_v154_1) : S50000x3.Idx → EReal) (ix2 n a)
      = Ideal.exp (Ideal.ofBits .f32 0x40000000#32 * Ideal.tanh (Cert.Spec.comb
          (fun k j => (Cert.Spec.hops (propK128' (m ((c : Thread nD τ).loc main_arg1)) (normK (m ((c : Thread nD τ).loc main_arg1)) (m ((c : Thread nD τ).loc main_arg2)))) (hid m ρ c) k (ix2 n j) : EReal))
          (fun k j => ((m ((c : Thread nD τ).loc main_arg5)) (ix3 k j (⟨a.val + 3, by have := a.isLt; omega⟩ : Fin 6)) : EReal))
          ((m ((c : Thread nD τ).loc main_arg6)) (ix1 (⟨a.val + 3, by have := a.isLt; omega⟩ : Fin 6))))) := by
  rw [W6_sigma m ρ c]
  refine (Cert.KernelIdeal.ArrayValue.finalSig (V5 m ρ) c n a).trans ?_
  rw [entry_bias m ρ c, entry_weights m ρ c]
  simp only [entry_stack m ρ c]

end Cert.KernelIdeal.Results

end
-- ==== Proof.RefSideDefs.lean ====
/-
  The reference's graph propagation, as functions of the argument arrays.

  With row = ei[0] and col = ei[1] (each made a flat vector of 800000 node numbers):
    deg  = the edge weights scatter-added at col into zeros,
    dis  = rsqrt(deg) where deg > 0, else 0,
    norm = (dis gathered at row) * ew * (dis gathered at col),
  and one propagation step of an array xk with c columns is
    P xk = (norm, broadcast along the columns) * (xk gathered at row), scatter-added at col into zeros.
  A gather takes its node numbers with a negative one counted from the end (+ 50000); a scatter-add
  takes col as it is. These definitions are the operations of the reference program, in its order and
  with its operand order; nothing about a gather or a scatter-add is used beyond its name.
-/
import proofs.«100254_j64845416235556_1_alg».proof.Proof.Gen.ReferenceIdeal
import Idealize.ShloMosaic.PureOps.Ideal

noncomputable section

namespace Cert.ReferenceIdeal.RefSide

open Cert.ReferenceIdeal Cert.ReferenceIdeal.Gen Idealize.ShloMosaic Idealize.ShloMosaic.TcCoe Idealize.SL.Sem Idealize.ShloMosaic.StableHlo

/-- Row 0 of the edge list (the source nodes), as a flat vector. -/
def rowR (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list (the target nodes), as a flat vector. -/
def colR (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Node numbers as a gather takes them: a negative number has 50000 added; one index vector per edge. -/
def wrapR (v : (⟨S800000, .i32⟩ : BufTy).Contents (Elt Ideal)) : (⟨S800000x1, .i32⟩ : BufTy).Contents (Elt Ideal) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Node numbers as a scatter-add takes them: one index vector per edge, unchanged. -/
def colIdxR (ei : (⟨S2x800000, .i32⟩ : BufTy).Contents (Elt Ideal)) : (⟨S800000x1, .i32⟩ : BufTy).Contents (Elt Ideal) :=
  broadcastInDim S800000x1 ![0] bcast_S800000_S800000x1_0 (colR ei)

/-- The weighted in-degree: the edge weights added up at their target nodes. -/
def degR (ei : (⟨S2x800000, .i32⟩ : BufTy).Contents (Elt Ideal)) (ew : (⟨S800000, .f32⟩ : BufTy).Contents (Elt Ideal)) : (⟨S50000, .f32⟩ : BufTy).Contents (Elt Ideal) :=
  Host.scatterAdd (F := Ideal) (φ := .f32) scatter_S50000_S800000x1_S800000_n_0_0_1
    (broadcastInDim S50000 ![] bcast_S_S50000 (constant (F := Ideal) S_ .f32 0x00000000#32)) (colIdxR ei) ew

/-- deg^(-1/2) where deg > 0, zero elsewhere. -/
def disR (ei : (⟨S2x800000, .i32⟩ : BufTy).Contents (Elt Ideal)) (ew : (⟨S800000, .f32⟩ : BufTy).Contents (Elt Ideal)) : (⟨S50000, .f32⟩ : BufTy).Contents (Elt Ideal) :=
  select (cmpf (F := Ideal) (φ := .f32) .ogt (degR ei ew) (broadcastInDim S50000 ![] bcast_S_S50000 (constant (F := Ideal) S_ .f32 0x00000000#32)))
    (Host.rsqrt (F := Ideal) (φ := .f32) (degR ei ew))
    (broadcastInDim S50000 ![] bcast_S_S50000 (id (constant (F := Ideal) S_ .f32 0x00000000#32)))

/-- The symmetric normalisation of the edge weights: dis[row] * ew * dis[col]. -/
def normR (ei : (⟨S2x800000, .i32⟩ : BufTy).Contents (Elt Ideal)) (ew : (⟨S800000, .f32⟩ : BufTy).Contents (Elt Ideal)) : (⟨S800000, .f32⟩ : BufTy).Contents (Elt Ideal) :=
  mulf (F := Ideal) (φ := .f32) (mulf (F := Ideal) (φ := .f32) (Host.gather gather_S50000_S800000x1_S800000_n_0_n_n_0_1_1 (disR ei ew) (wrapR (rowR ei))) ew)
    (Host.gather gather_S50000_S800000x1_S800000_n_0_n_n_0_1_1 (disR ei ew) (wrapR (colR ei)))

/-- The normalised weights as a column, one per edge. -/
def normColR (ei : (⟨S2x800000, .i32⟩ : BufTy).Contents (Elt Ideal)) (ew : (⟨S800000, .f32⟩ : BufTy).Contents (Elt Ideal)) : (⟨S800000x1, .f32⟩ : BufTy).Contents (Elt Ideal) :=
  broadcastInDim S800000x1 ![0] bcast_S800000_S800000x1_0 (normR ei ew)

/-- One propagation step on 6 columns: norm[:, None] * xk[row], added up at col. -/
def propR6 (ei : (⟨S2x800000, .i32⟩ : BufTy).Contents (Elt Ideal)) (ew : (⟨S800000, .f32⟩ : BufTy).Contents (Elt Ideal)) (xk : (⟨S50000x6, .f32⟩ : BufTy).Contents (Elt Ideal)) : (⟨S50000x6, .f32⟩ : BufTy).Contents (Elt Ideal) :=
  Host.scatterAdd (F := Ideal) (φ := .f32) scatter_S50000x6_S800000x1_S800000x6_1_0_0_1
    (broadcastInDim S50000x6 ![] bcast_S_S50000x6 (constant (F := Ideal) S_ .f32 0x00000000#32)) (colIdxR ei)
    (mulf (F := Ideal) (φ := .f32) (broadcastInDim S800000x6 ![0, 1] bcast_S800000x1_S800000x6_0_1 (normColR ei ew))
      (Host.gather gather_S50000x6_S800000x1_S800000x6_1_0_n_n_0_1_16 xk (wrapR (rowR ei))))

/-- One propagation step on 128 columns: norm[:, None] * xk[row], added up at col. -/
def propR128 (ei : (⟨S2x800000, .i32⟩ : BufTy).Contents (Elt Ideal)) (ew : (⟨S800000, .f32⟩ : BufTy).Contents (Elt Ideal)) (xk : (⟨S50000x128, .f32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32)) (colIdxR ei)
    (mulf (F := Ideal) (φ := .f32) (broadcastInDim S800000x128 ![0, 1] bcast_S800000x1_S800000x128_0_1 (normColR ei ew))
      (Host.gather gather_S50000x128_S800000x1_S800000x128_1_0_n_n_0_1_1128 xk (wrapR (rowR ei))))

end Cert.ReferenceIdeal.RefSide

end
-- ==== Proof.RefSide.lean ====
/-
  The reference program read at an index.

  The generated stage lemmas read every operation of the reference except its gathers and scatter-adds.
  Those occur only inside the edge normalisation and the propagation step, which the definitions module
  states once as functions of the argument arrays (normR, propR6, propR128); here each propagated array
  of the reference is identified with an iterate of that step (by unfolding names only), and the two
  layers are then read entry by entry:

    h (n, f)   = max (Σ_{k<5} Σ_{j<6}   (P^k x)(n, j) * W1 (k, j, f) + b1 f) 0
    out (n, c) =      Σ_{k<5} Σ_{j<128} (P'^k h)(n, j) * W2 (k, j, c) + b2 c
    mu (n, a)    = tanh (out (n, a)),   sigma (n, a) = exp (2 * tanh (out (n, 3 + a)))

  with the sums over k accumulated in the order k = 0, …, 4 (Spec.comb; the reference starts from the
  k = 0 product, comb from zero, and 0 + a = a).
-/
import proofs.«100254_j64845416235556_1_alg».proof.Proof.Gen.ReferenceIdeal.Read
import proofs.«100254_j64845416235556_1_alg».proof.Proof.Spec
import proofs.«100254_j64845416235556_1_alg».proof.Proof.RefSideDefs

noncomputable section

namespace Cert.ReferenceIdeal.RefSide

open Cert.ReferenceIdeal Cert.ReferenceIdeal.Gen Idealize.ShloMosaic Idealize.ShloMosaic.TcCoe Idealize.SL.Sem Idealize.ShloMosaic.StableHlo
open BigOperators

variable (x0 : (⟨S50000x6, .f32⟩ : BufTy).Contents (Elt Ideal)) (x1 : (⟨S2x800000, .i32⟩ : BufTy).Contents (Elt Ideal)) (x2 : (⟨S800000, .f32⟩ : BufTy).Contents (Elt Ideal))
  (x3 : (⟨S5x6x128, .f32⟩ : BufTy).Contents (Elt Ideal)) (x4 : (⟨S128, .f32⟩ : BufTy).Contents (Elt Ideal)) (x5 : (⟨S5x128x6, .f32⟩ : BufTy).Contents (Elt Ideal)) (x6 : (⟨S6, .f32⟩ : BufTy).Contents (Elt Ideal))

/-! ## The propagated arrays are iterates of the propagation step -/

theorem norm_eq : Read.val_main_v26 (F := Ideal) x1 x2 = normR x1 x2 := rfl

theorem p6_1 : Read.val_main_v46 (F := Ideal) x0 x1 x2 = propR6 x1 x2 x0 := rfl
theorem p6_2 : Read.val_main_v63 (F := Ideal) x0 x1 x2 = propR6 x1 x2 (Read.val_main_v46 (F := Ideal) x0 x1 x2) := rfl
theorem p6_3 : Read.val_main_v80 (F := Ideal) x0 x1 x2 = propR6 x1 x2 (Read.val_main_v63 (F := Ideal) x0 x1 x2) := rfl
theorem p6_4 : Read.val_main_v97 (F := Ideal) x0 x1 x2 = propR6 x1 x2 (Read.val_main_v80 (F := Ideal) x0 x1 x2) := rfl

theorem p128_1 : Read.val_main_v125 (F := Ideal) x0 x1 x2 x3 x4 = propR128 x1 x2 (Read.val_main_v105 (F := Ideal) x0 x1 x2 x3 x4) := rfl
theorem p128_2 : Read.val_main_v142 (F := Ideal) x0 x1 x2 x3 x4 = propR128 x1 x2 (Read.val_main_v125 (F := Ideal) x0 x1 x2 x3 x4) := rfl
theorem p128_3 : Read.val_main_v159 (F := Ideal) x0 x1 x2 x3 x4 = propR128 x1 x2 (Read.val_main_v142 (F := Ideal) x0 x1 x2 x3 x4) := rfl
theorem p128_4 : Read.val_main_v176 (F := Ideal) x0 x1 x2 x3 x4 = propR128 x1 x2 (Read.val_main_v159 (F := Ideal) x0 x1 x2 x3 x4) := rfl

/-! ## Index equations: the stages' composed index maps at (n, f) are the plain coordinates -/

theorem lidx1_0 (n : Fin 50000) (f : Fin 128) (j : Fin 6) :
    Read.lidx_main_v33 (ValueIdx.ix2 n f) j = ValueIdx.ix2 n j :=
  funext fun a => by match a with | ⟨0, _⟩ => rfl | ⟨1, _⟩ => rfl
theorem widx1_0 (n : Fin 50000) (f : Fin 128) (j : Fin 6) :
    Read.idx_main_v31 (Read.idx_main_v32 (Read.ridx_main_v33 (ValueIdx.ix2 n f) j)) = ValueIdx.ix3 (0 : Fin 5) j f :=
  funext fun a => Fin.ext (by
    have hj := j.isLt; have hf := f.isLt
    match a with
    | ⟨0, _⟩ => rfl
    | ⟨1, _⟩ => show (j.val * 128 + f.val) / 128 % 6 = j.val; omega
    | ⟨2, _⟩ => show (j.val * 128 + f.val) % 128 = f.val; omega)
theorem lidx1_1 (n : Fin 50000) (f : Fin 128) (j : Fin 6) :
    Read.lidx_main_v49 (ValueIdx.ix2 n f) j = ValueIdx.ix2 n j :=
  funext fun a => by match a with | ⟨0, _⟩ => rfl | ⟨1, _⟩ => rfl
theorem widx1_1 (n : Fin 50000) (f : Fin 128) (j : Fin 6) :
    Read.idx_main_v47 (Read.idx_main_v48 (Read.ridx_main_v49 (ValueIdx.ix2 n f) j)) = ValueIdx.ix3 (1 : Fin 5) j f :=
  funext fun a => Fin.ext (by
    have hj := j.isLt; have hf := f.isLt
    match a with
    | ⟨0, _⟩ => rfl
    | ⟨1, _⟩ => show (j.val * 128 + f.val) / 128 % 6 = j.val; omega
    | ⟨2, _⟩ => show (j.val * 128 + f.val) % 128 = f.val; omega)
theorem lidx1_2 (n : Fin 50000) (f : Fin 128) (j : Fin 6) :
    Read.lidx_main_v66 (ValueIdx.ix2 n f) j = ValueIdx.ix2 n j :=
  funext fun a => by match a with | ⟨0, _⟩ => rfl | ⟨1, _⟩ => rfl
theorem widx1_2 (n : Fin 50000) (f : Fin 128) (j : Fin 6) :
    Read.idx_main_v64 (Read.idx_main_v65 (Read.ridx_main_v66 (ValueIdx.ix2 n f) j)) = ValueIdx.ix3 (2 : Fin 5) j f :=
  funext fun a => Fin.ext (by
    have hj := j.isLt; have hf := f.isLt
    match a with
    | ⟨0, _⟩ => rfl
    | ⟨1, _⟩ => show (j.val * 128 + f.val) / 128 % 6 = j.val; omega
    | ⟨2, _⟩ => show (j.val * 128 + f.val) % 128 = f.val; omega)
theorem lidx1_3 (n : Fin 50000) (f : Fin 128) (j : Fin 6) :
    Read.lidx_main_v83 (ValueIdx.ix2 n f) j = ValueIdx.ix2 n j :=
  funext fun a => by match a with | ⟨0, _⟩ => rfl | ⟨1, _⟩ => rfl
theorem widx1_3 (n : Fin 50000) (f : Fin 128) (j : Fin 6) :
    Read.idx_main_v81 (Read.idx_main_v82 (Read.ridx_main_v83 (ValueIdx.ix2 n f) j)) = ValueIdx.ix3 (3 : Fin 5) j f :=
  funext fun a => Fin.ext (by
    have hj := j.isLt; have hf := f.isLt
    match a with
    | ⟨0, _⟩ => rfl
    | ⟨1, _⟩ => show (j.val * 128 + f.val) / 128 % 6 = j.val; omega
    | ⟨2, _⟩ => show (j.val * 128 + f.val) % 128 = f.val; omega)
theorem lidx1_4 (n : Fin 50000) (f : Fin 128) (j : Fin 6) :
    Read.lidx_main_v100 (ValueIdx.ix2 n f) j = ValueIdx.ix2 n j :=
  funext fun a => by match a with | ⟨0, _⟩ => rfl | ⟨1, _⟩ => rfl
theorem widx1_4 (n : Fin 50000) (f : Fin 128) (j : Fin 6) :
    Read.idx_main_v98 (Read.idx_main_v99 (Read.ridx_main_v100 (ValueIdx.ix2 n f) j)) = ValueIdx.ix3 (4 : Fin 5) j f :=
  funext fun a => Fin.ext (by
    have hj := j.isLt; have hf := f.isLt
    match a with
    | ⟨0, _⟩ => rfl
    | ⟨1, _⟩ => show (j.val * 128 + f.val) / 128 % 6 = j.val; omega
    | ⟨2, _⟩ => show (j.val * 128 + f.val) % 128 = f.val; omega)
theorem lidx2_0 (n : Fin 50000) (c : Fin 6) (j : Fin 128) :
    Read.lidx_main_v112 (ValueIdx.ix2 n c) j = ValueIdx.ix2 n j :=
  funext fun a => by match a with | ⟨0, _⟩ => rfl | ⟨1, _⟩ => rfl
theorem widx2_0 (n : Fin 50000) (c : Fin 6) (j : Fin 128) :
    Read.idx_main_v110 (Read.idx_main_v111 (Read.ridx_main_v112 (ValueIdx.ix2 n c) j)) = ValueIdx.ix3 (0 : Fin 5) j c :=
  funext fun a => Fin.ext (by
    have hj := j.isLt; have hc := c.isLt
    match a with
    | ⟨0, _⟩ => rfl
    | ⟨1, _⟩ => show (j.val * 6 + c.val) / 6 % 128 = j.val; omega
    | ⟨2, _⟩ => show (j.val * 6 + c.val) % 6 = c.val; omega)
theorem lidx2_1 (n : Fin 50000) (c : Fin 6) (j : Fin 128) :
    Read.lidx_main_v128 (ValueIdx.ix2 n c) j = ValueIdx.ix2 n j :=
  funext fun a => by match a with | ⟨0, _⟩ => rfl | ⟨1, _⟩ => rfl
theorem widx2_1 (n : Fin 50000) (c : Fin 6) (j : Fin 128) :
    Read.idx_main_v126 (Read.idx_main_v127 (Read.ridx_main_v128 (ValueIdx.ix2 n c) j)) = ValueIdx.ix3 (1 : Fin 5) j c :=
  funext fun a => Fin.ext (by
    have hj := j.isLt; have hc := c.isLt
    match a with
    | ⟨0, _⟩ => rfl
    | ⟨1, _⟩ => show (j.val * 6 + c.val) / 6 % 128 = j.val; omega
    | ⟨2, _⟩ => show (j.val * 6 + c.val) % 6 = c.val; omega)
theorem lidx2_2 (n : Fin 50000) (c : Fin 6) (j : Fin 128) :
    Read.lidx_main_v145 (ValueIdx.ix2 n c) j = ValueIdx.ix2 n j :=
  funext fun a => by match a with | ⟨0, _⟩ => rfl | ⟨1, _⟩ => rfl
theorem widx2_2 (n : Fin 50000) (c : Fin 6) (j : Fin 128) :
    Read.idx_main_v143 (Read.idx_main_v144 (Read.ridx_main_v145 (ValueIdx.ix2 n c) j)) = ValueIdx.ix3 (2 : Fin 5) j c :=
  funext fun a => Fin.ext (by
    have hj := j.isLt; have hc := c.isLt
    match a with
    | ⟨0, _⟩ => rfl
    | ⟨1, _⟩ => show (j.val * 6 + c.val) / 6 % 128 = j.val; omega
    | ⟨2, _⟩ => show (j.val * 6 + c.val) % 6 = c.val; omega)
theorem lidx2_3 (n : Fin 50000) (c : Fin 6) (j : Fin 128) :
    Read.lidx_main_v162 (ValueIdx.ix2 n c) j = ValueIdx.ix2 n j :=
  funext fun a => by match a with | ⟨0, _⟩ => rfl | ⟨1, _⟩ => rfl
theorem widx2_3 (n : Fin 50000) (c : Fin 6) (j : Fin 128) :
    Read.idx_main_v160 (Read.idx_main_v161 (Read.ridx_main_v162 (ValueIdx.ix2 n c) j)) = ValueIdx.ix3 (3 : Fin 5) j c :=
  funext fun a => Fin.ext (by
    have hj := j.isLt; have hc := c.isLt
    match a with
    | ⟨0, _⟩ => rfl
    | ⟨1, _⟩ => show (j.val * 6 + c.val) / 6 % 128 = j.val; omega
    | ⟨2, _⟩ => show (j.val * 6 + c.val) % 6 = c.val; omega)
theorem lidx2_4 (n : Fin 50000) (c : Fin 6) (j : Fin 128) :
    Read.lidx_main_v179 (ValueIdx.ix2 n c) j = ValueIdx.ix2 n j :=
  funext fun a => by match a with | ⟨0, _⟩ => rfl | ⟨1, _⟩ => rfl
theorem widx2_4 (n : Fin 50000) (c : Fin 6) (j : Fin 128) :
    Read.idx_main_v177 (Read.idx_main_v178 (Read.ridx_main_v179 (ValueIdx.ix2 n c) j)) = ValueIdx.ix3 (4 : Fin 5) j c :=
  funext fun a => Fin.ext (by
    have hj := j.isLt; have hc := c.isLt
    match a with
    | ⟨0, _⟩ => rfl
    | ⟨1, _⟩ => show (j.val * 6 + c.val) / 6 % 128 = j.val; omega
    | ⟨2, _⟩ => show (j.val * 6 + c.val) % 6 = c.val; omega)
theorem bidx1 (n : Fin 50000) (f : Fin 128) :
    Read.idx_main_v102 (Read.idx_main_v103 (ValueIdx.ix2 n f)) = ValueIdx.ix1 f :=
  funext fun a => by match a with | ⟨0, _⟩ => rfl
theorem bidx2 (n : Fin 50000) (c : Fin 6) :
    Read.idx_main_v181 (Read.idx_main_v182 (ValueIdx.ix2 n c)) = ValueIdx.ix1 c :=
  funext fun a => by match a with | ⟨0, _⟩ => rfl

/-- Column a of the first half of the six output columns. -/
def colLo (a : Fin 3) : Fin 6 := ⟨a.val, by have := a.isLt; omega⟩
/-- Column 3 + a: the second half of the six output columns. -/
def colHi (a : Fin 3) : Fin 6 := ⟨3 + a.val, by have := a.isLt; omega⟩

theorem sidx_lo (n : Fin 50000) (a : Fin 3) :
    Read.idx_main_v184 (ValueIdx.ix2 n a) = ValueIdx.ix2 n (colLo a) :=
  funext fun d => by match d with | ⟨0, _⟩ => rfl | ⟨1, _⟩ => rfl
theorem sidx_hi (n : Fin 50000) (a : Fin 3) :
    Read.idx_main_v186 (ValueIdx.ix2 n a) = ValueIdx.ix2 n (colHi a) :=
  funext fun d => by match d with | ⟨0, _⟩ => rfl | ⟨1, _⟩ => rfl

/-! ## The matrix products at an entry -/

theorem dot1_0 (n : Fin 50000) (f : Fin 128) :
    Read.val_main_v33 (F := Ideal) x0 x3 (ValueIdx.ix2 n f) = ∑ j : Fin 6, x0 (ValueIdx.ix2 n j) * x3 (ValueIdx.ix3 (0 : Fin 5) j f) := by
  rw [Read.val_main_v33_apply]
  refine Finset.sum_congr rfl fun j _ => ?_
  rw [Read.val_main_v32_apply, Read.val_main_v31_apply, lidx1_0, widx1_0]
theorem dot1_1 (n : Fin 50000) (f : Fin 128) :
    Read.val_main_v49 (F := Ideal) x0 x1 x2 x3 (ValueIdx.ix2 n f) = ∑ j : Fin 6, Read.val_main_v46 (F := Ideal) x0 x1 x2 (ValueIdx.ix2 n j) * x3 (ValueIdx.ix3 (1 : Fin 5) j f) := by
  rw [Read.val_main_v49_apply]
  refine Finset.sum_congr rfl fun j _ => ?_
  rw [Read.val_main_v48_apply, Read.val_main_v47_apply, lidx1_1, widx1_1]
theorem dot1_2 (n : Fin 50000) (f : Fin 128) :
    Read.val_main_v66 (F := Ideal) x0 x1 x2 x3 (ValueIdx.ix2 n f) = ∑ j : Fin 6, Read.val_main_v63 (F := Ideal) x0 x1 x2 (ValueIdx.ix2 n j) * x3 (ValueIdx.ix3 (2 : Fin 5) j f) := by
  rw [Read.val_main_v66_apply]
  refine Finset.sum_congr rfl fun j _ => ?_
  rw [Read.val_main_v65_apply, Read.val_main_v64_apply, lidx1_2, widx1_2]
theorem dot1_3 (n : Fin 50000) (f : Fin 128) :
    Read.val_main_v83 (F := Ideal) x0 x1 x2 x3 (ValueIdx.ix2 n f) = ∑ j : Fin 6, Read.val_main_v80 (F := Ideal) x0 x1 x2 (ValueIdx.ix2 n j) * x3 (ValueIdx.ix3 (3 : Fin 5) j f) := by
  rw [Read.val_main_v83_apply]
  refine Finset.sum_congr rfl fun j _ => ?_
  rw [Read.val_main_v82_apply, Read.val_main_v81_apply, lidx1_3, widx1_3]
theorem dot1_4 (n : Fin 50000) (f : Fin 128) :
    Read.val_main_v100 (F := Ideal) x0 x1 x2 x3 (ValueIdx.ix2 n f) = ∑ j : Fin 6, Read.val_main_v97 (F := Ideal) x0 x1 x2 (ValueIdx.ix2 n j) * x3 (ValueIdx.ix3 (4 : Fin 5) j f) := by
  rw [Read.val_main_v100_apply]
  refine Finset.sum_congr rfl fun j _ => ?_
  rw [Read.val_main_v99_apply, Read.val_main_v98_apply, lidx1_4, widx1_4]
theorem dot2_0 (n : Fin 50000) (c : Fin 6) :
    Read.val_main_v112 (F := Ideal) x0 x1 x2 x3 x4 x5 (ValueIdx.ix2 n c) = ∑ j : Fin 128, Read.val_main_v105 (F := Ideal) x0 x1 x2 x3 x4 (ValueIdx.ix2 n j) * x5 (ValueIdx.ix3 (0 : Fin 5) j c) := by
  rw [Read.val_main_v112_apply]
  refine Finset.sum_congr rfl fun j _ => ?_
  rw [Read.val_main_v111_apply, Read.val_main_v110_apply, lidx2_0, widx2_0]
theorem dot2_1 (n : Fin 50000) (c : Fin 6) :
    Read.val_main_v128 (F := Ideal) x0 x1 x2 x3 x4 x5 (ValueIdx.ix2 n c) = ∑ j : Fin 128, Read.val_main_v125 (F := Ideal) x0 x1 x2 x3 x4 (ValueIdx.ix2 n j) * x5 (ValueIdx.ix3 (1 : Fin 5) j c) := by
  rw [Read.val_main_v128_apply]
  refine Finset.sum_congr rfl fun j _ => ?_
  rw [Read.val_main_v127_apply, Read.val_main_v126_apply, lidx2_1, widx2_1]
theorem dot2_2 (n : Fin 50000) (c : Fin 6) :
    Read.val_main_v145 (F := Ideal) x0 x1 x2 x3 x4 x5 (ValueIdx.ix2 n c) = ∑ j : Fin 128, Read.val_main_v142 (F := Ideal) x0 x1 x2 x3 x4 (ValueIdx.ix2 n j) * x5 (ValueIdx.ix3 (2 : Fin 5) j c) := by
  rw [Read.val_main_v145_apply]
  refine Finset.sum_congr rfl fun j _ => ?_
  rw [Read.val_main_v144_apply, Read.val_main_v143_apply, lidx2_2, widx2_2]
theorem dot2_3 (n : Fin 50000) (c : Fin 6) :
    Read.val_main_v162 (F := Ideal) x0 x1 x2 x3 x4 x5 (ValueIdx.ix2 n c) = ∑ j : Fin 128, Read.val_main_v159 (F := Ideal) x0 x1 x2 x3 x4 (ValueIdx.ix2 n j) * x5 (ValueIdx.ix3 (3 : Fin 5) j c) := by
  rw [Read.val_main_v162_apply]
  refine Finset.sum_congr rfl fun j _ => ?_
  rw [Read.val_main_v161_apply, Read.val_main_v160_apply, lidx2_3, widx2_3]
theorem dot2_4 (n : Fin 50000) (c : Fin 6) :
    Read.val_main_v179 (F := Ideal) x0 x1 x2 x3 x4 x5 (ValueIdx.ix2 n c) = ∑ j : Fin 128, Read.val_main_v176 (F := Ideal) x0 x1 x2 x3 x4 (ValueIdx.ix2 n j) * x5 (ValueIdx.ix3 (4 : Fin 5) j c) := by
  rw [Read.val_main_v179_apply]
  refine Finset.sum_congr rfl fun j _ => ?_
  rw [Read.val_main_v178_apply, Read.val_main_v177_apply, lidx2_4, widx2_4]

/-! ## The stack of propagated arrays, by depth -/

theorem hops_0 {X : Type} (P : X → X) (x : X) : Cert.Spec.hops P x 0 = x := rfl
theorem hops_1 {X : Type} (P : X → X) (x : X) : Cert.Spec.hops P x 1 = P x := rfl
theorem hops_2 {X : Type} (P : X → X) (x : X) : Cert.Spec.hops P x 2 = P (P x) := rfl
theorem hops_3 {X : Type} (P : X → X) (x : X) : Cert.Spec.hops P x 3 = P (P (P x)) := rfl
theorem hops_4 {X : Type} (P : X → X) (x : X) : Cert.Spec.hops P x 4 = P (P (P (P x))) := rfl

/-! ## Layer 1 -/

/-- The first layer at node n, feature f: the rectified combination of the five propagated inputs. -/
def hAt (ei : (⟨S2x800000, .i32⟩ : BufTy).Contents (Elt Ideal)) (ew : (⟨S800000, .f32⟩ : BufTy).Contents (Elt Ideal)) (x : (⟨S50000x6, .f32⟩ : BufTy).Contents (Elt Ideal))
    (W1 : (⟨S5x6x128, .f32⟩ : BufTy).Contents (Elt Ideal)) (b1 : (⟨S128, .f32⟩ : BufTy).Contents (Elt Ideal)) (n : Fin 50000) (f : Fin 128) : EReal :=
  max (Cert.Spec.comb (fun k j => (Cert.Spec.hops (propR6 ei ew) x k (ValueIdx.ix2 n j) : EReal))
    (fun k j => (W1 (ValueIdx.ix3 k j f) : EReal)) (b1 (ValueIdx.ix1 f))) 0

/-- The first layer as an array. -/
def hR (ei : (⟨S2x800000, .i32⟩ : BufTy).Contents (Elt Ideal)) (ew : (⟨S800000, .f32⟩ : BufTy).Contents (Elt Ideal)) (x : (⟨S50000x6, .f32⟩ : BufTy).Contents (Elt Ideal))
    (W1 : (⟨S5x6x128, .f32⟩ : BufTy).Contents (Elt Ideal)) (b1 : (⟨S128, .f32⟩ : BufTy).Contents (Elt Ideal)) : (⟨S50000x128, .f32⟩ : BufTy).Contents (Elt Ideal) :=
  fun i => hAt ei ew x W1 b1 ⟨(i 0).val, ValueIdx.idx2_lt0 i⟩ ⟨(i 1).val, ValueIdx.idx2_lt1 i⟩

theorem hR_apply (n : Fin 50000) (f : Fin 128) :
    hR x1 x2 x0 x3 x4 (ValueIdx.ix2 n f) = hAt x1 x2 x0 x3 x4 n f := rfl

/-- The reference's rectified first layer, read at an entry. -/
theorem h_apply (n : Fin 50000) (f : Fin 128) :
    Read.val_main_v105 (F := Ideal) x0 x1 x2 x3 x4 (ValueIdx.ix2 n f) = hAt x1 x2 x0 x3 x4 n f := by
  rw [Read.val_main_v105_apply, Read.val_main_v104_apply, Read.val_main_v101_apply, Read.val_main_v84_apply,
    Read.val_main_v67_apply, Read.val_main_v50_apply, dot1_0, dot1_1, dot1_2, dot1_3, dot1_4,
    Read.val_main_v103_apply, Read.val_main_v102_apply, bidx1, Read.val_main_call1_v0_apply, Read.val_main_call1_cst_apply,
    p6_4, p6_3, p6_2, p6_1]
  unfold hAt Cert.Spec.comb
  simp only [Ideal.maximumf_def, Ideal.addf_def, Ideal.ofBits_def, Ideal.ofBits_zero_f32]
  rw [hops_0, hops_1, hops_2, hops_3, hops_4, zero_add]

/-- The reference's rectified first layer is the array hR. -/
theorem h_eq : Read.val_main_v105 (F := Ideal) x0 x1 x2 x3 x4 = hR x1 x2 x0 x3 x4 := by
  funext i
  obtain ⟨p, q, rfl⟩ : ∃ (p : Fin 50000) (q : Fin 128), i = ValueIdx.ix2 p q := ⟨i 0, i 1, ValueIdx.eq_ix2 i⟩
  exact (h_apply x0 x1 x2 x3 x4 p q).trans (hR_apply x0 x1 x2 x3 x4 p q).symm

/-! ## Layer 2 -/

/-- The second layer at node n, column c: the combination of the five propagated first-layer arrays. -/
def outAt (ei : (⟨S2x800000, .i32⟩ : BufTy).Contents (Elt Ideal)) (ew : (⟨S800000, .f32⟩ : BufTy).Contents (Elt Ideal)) (x : (⟨S50000x6, .f32⟩ : BufTy).Contents (Elt Ideal))
    (W1 : (⟨S5x6x128, .f32⟩ : BufTy).Contents (Elt Ideal)) (b1 : (⟨S128, .f32⟩ : BufTy).Contents (Elt Ideal)) (W2 : (⟨S5x128x6, .f32⟩ : BufTy).Contents (Elt Ideal)) (b2 : (⟨S6, .f32⟩ : BufTy).Contents (Elt Ideal))
    (n : Fin 50000) (c : Fin 6) : EReal :=
  Cert.Spec.comb (fun k j => (Cert.Spec.hops (propR128 ei ew) (hR ei ew x W1 b1) k (ValueIdx.ix2 n j) : EReal))
    (fun k j => (W2 (ValueIdx.ix3 k j c) : EReal)) (b2 (ValueIdx.ix1 c))

/-- The reference's second layer (before the output nonlinearities), read at an entry. -/
theorem out_apply (n : Fin 50000) (c : Fin 6) :
    Read.val_main_v183 (F := Ideal) x0 x1 x2 x3 x4 x5 x6 (ValueIdx.ix2 n c) = outAt x1 x2 x0 x3 x4 x5 x6 n c := by
  rw [Read.val_main_v183_apply, Read.val_main_v180_apply, Read.val_main_v163_apply, Read.val_main_v146_apply,
    Read.val_main_v129_apply, dot2_0, dot2_1, dot2_2, dot2_3, dot2_4,
    Read.val_main_v182_apply, Read.val_main_v181_apply, bidx2, p128_4, p128_3, p128_2, p128_1, h_eq]
  unfold outAt Cert.Spec.comb
  simp only [Ideal.addf_def]
  rw [hops_0, hops_1, hops_2, hops_3, hops_4, zero_add]

/-! ## The two results -/

/-- mu = tanh of the first three output columns. -/
theorem mu_apply (n : Fin 50000) (a : Fin 3) :
    Read.val_main_v185 (F := Ideal) x0 x1 x2 x3 x4 x5 x6 (ValueIdx.ix2 n a)
      = Ideal.tanh (outAt x1 x2 x0 x3 x4 x5 x6 n (colLo a)) := by
  rw [Read.val_main_v185_apply, Read.val_main_v184_apply, sidx_lo, out_apply]
  first | done | simp only [Ideal.hostUnary_tanh_def]

/-- sigma = exp (2 * tanh) of the last three output columns; the 2 is the reference's own literal. -/
theorem sigma_apply (n : Fin 50000) (a : Fin 3) :
    Read.val_main_v190 (F := Ideal) x0 x1 x2 x3 x4 x5 x6 (ValueIdx.ix2 n a)
      = Ideal.exp (Ideal.ofBits .f32 0x40000000#32 * Ideal.tanh (outAt x1 x2 x0 x3 x4 x5 x6 n (colHi a))) := by
  rw [Read.val_main_v190_apply, Read.val_main_v189_apply, Read.val_main_v188_apply, Read.val_main_cst_29_apply,
    Read.val_main_v187_apply, Read.val_main_v186_apply, sidx_hi, out_apply]
  first | done | simp only [Ideal.hostUnary_tanh_def, Ideal.hostUnary_exp_def, Ideal.mulf_def, Ideal.ofBits_def]

end Cert.ReferenceIdeal.RefSide

end
-- ==== Proof.HostBridge.lean ====
/-
  The kernel program's host propagation and the reference's are the same functions.

  Both programs compute the edge normalisation norm = dis[row] * ew * dis[col] by the same operations in
  the same order, and one propagation step as a scatter-add at col, into zeros, of the edge-wise product of
  the broadcast norm and the array gathered at row. They differ in one place: the reference multiplies
  norm * gathered, the kernel gathered * norm. Multiplication of extended reals is commutative, so the
  two products are the same array; everything else is the same term once the two programs' names for
  their shapes and operation records are unfolded. No gather or scatter-add is opened.
-/
import proofs.«100254_j64845416235556_1_alg».proof.Proof.RefSideDefs
import proofs.«100254_j64845416235556_1_alg».proof.Proof.KernelIdeal.HostDefs

noncomputable section

namespace Cert.HostBridge

open Idealize.ShloMosaic
open Cert.KernelIdeal.HostValue Cert.ReferenceIdeal.RefSide

/-- The entry-wise product of two arrays of extended reals does not depend on the order of the factors. -/
theorem mulf_comm {s : Shape} {φ : FTy} (a b : FVec Ideal s φ) :
    mulf (F := Ideal) (φ := φ) a b = mulf (F := Ideal) (φ := φ) b a :=
  funext fun i => by
    show FloatOps.mulf (a i) (b i) = FloatOps.mulf (b i) (a i)
    rw [Ideal.mulf_def, Ideal.mulf_def, mul_comm]

/-- The two programs normalise the edge weights by the same operations. -/
theorem norm_eq (ei : (⟨Cert.ReferenceIdeal.S2x800000, .i32⟩ : BufTy).Contents (Elt Ideal)) (ew : (⟨Cert.ReferenceIdeal.S800000, .f32⟩ : BufTy).Contents (Elt Ideal)) :
    normK ei ew = normR ei ew := rfl

/-- One propagation step on 6 columns: the kernel's (given the kernel's normalised weights) is the reference's. -/
theorem prop6_eq (ei : (⟨Cert.ReferenceIdeal.S2x800000, .i32⟩ : BufTy).Contents (Elt Ideal)) (ew : (⟨Cert.ReferenceIdeal.S800000, .f32⟩ : BufTy).Contents (Elt Ideal)) :
    propK6' ei (normK ei ew) = propR6 ei ew := by
  funext xk
  unfold propK6'
  rw [mulf_comm]
  rfl

/-- One propagation step on 128 columns: the kernel's (given the kernel's normalised weights) is the reference's. -/
theorem prop128_eq (ei : (⟨Cert.ReferenceIdeal.S2x800000, .i32⟩ : BufTy).Contents (Elt Ideal)) (ew : (⟨Cert.ReferenceIdeal.S800000, .f32⟩ : BufTy).Contents (Elt Ideal)) :
    propK128' ei (normK ei ew) = propR128 ei ew := by
  funext xk
  unfold propK128'
  rw [mulf_comm]
  rfl

theorem propK6_eq_propR6 (ei : (⟨Cert.ReferenceIdeal.S2x800000, .i32⟩ : BufTy).Contents (Elt Ideal)) (ew : (⟨Cert.ReferenceIdeal.S800000, .f32⟩ : BufTy).Contents (Elt Ideal)) :
    propK6 ei ew = propR6 ei ew := prop6_eq ei ew

theorem propK128_eq_propR128 (ei : (⟨Cert.ReferenceIdeal.S2x800000, .i32⟩ : BufTy).Contents (Elt Ideal)) (ew : (⟨Cert.ReferenceIdeal.S800000, .f32⟩ : BufTy).Contents (Elt Ideal)) :
    propK128 ei ew = propR128 ei ew := prop128_eq ei ew

end Cert.HostBridge

end
-- ==== Proof.Equal.lean ====
/-
  The two programs end with the same two arrays. Entry by entry both results are tanh, and exp(2 · tanh), of
  Σ_k (P'^k h)(n, ·) · W2_k(·, col) + b2(col), with h(n, f) = max(Σ_k (P^k x)(n, ·) · W1_k(·, f) + b1(f), 0), the sums over k taken in
  the order k = 0, …, 4: the kernel's accumulator starts at zero, which adds nothing. The propagation steps P (6 columns) and
  P' (128 columns) are the same host operations in both programs but for the order of one product, gathered row times
  weight against weight times gathered row; multiplication of extended reals is commutative.
-/
import proofs.«100254_j64845416235556_1_alg».proof.Defs
import proofs.«100254_j64845416235556_1_alg».proof.Proof.KernelIdeal.Results
import proofs.«100254_j64845416235556_1_alg».proof.Proof.RefSide
import proofs.«100254_j64845416235556_1_alg».proof.Proof.HostBridge
import proofs.«100254_j64845416235556_1_alg».proof.Proof.Gen.ReferenceIdeal.Run

noncomputable section

namespace Cert.Proof.Equal

open Idealize.ShloMosaic Idealize.ShloMosaic.TcCoe Idealize.SL.Sem Idealize.ShloMosaic.ValueIdx
open Cert.KernelIdeal Cert.KernelIdeal.Gen Cert.KernelIdeal.Hand
open Cert.ReferenceIdeal.RefSide (hR hAt outAt colLo colHi propR6 propR128)

variable (m : (ℓ : Loc nD τ sig) → Buf (Elt Ideal) ℓ) (ρ : Dev nD → PrngReg) (c : Dev nD)

/-- The kernel's hidden layer is the reference's, as arrays. -/
theorem hid_eq :
    Cert.KernelIdeal.Results.hid m ρ c
      = hR (m ((c : Thread nD τ).loc main_arg1)) (m ((c : Thread nD τ).loc main_arg2)) (m ((c : Thread nD τ).loc main_arg0))
          (m ((c : Thread nD τ).loc main_arg3)) (m ((c : Thread nD τ).loc main_arg4)) := by
  funext i
  obtain ⟨n, f, rfl⟩ : ∃ (n : Fin 50000) (f : Fin 128), i = ix2 n f := ⟨i 0, i 1, eq_ix2 i⟩
  refine (Cert.KernelIdeal.Results.hid_apply m ρ c n f).trans ?_
  refine Eq.trans ?_ (Cert.ReferenceIdeal.RefSide.hR_apply (m ((c : Thread nD τ).loc main_arg0)) (m ((c : Thread nD τ).loc main_arg1))
    (m ((c : Thread nD τ).loc main_arg2)) (m ((c : Thread nD τ).loc main_arg3)) (m ((c : Thread nD τ).loc main_arg4)) n f).symm
  unfold Cert.ReferenceIdeal.RefSide.hAt
  rw [Cert.HostBridge.propK6_eq_propR6]

/-- The first result, entry by entry. -/
theorem mu_eq (n : Fin 50000) (a : Fin 3) :
    Cert.ReferenceIdeal.Read.val_main_v185 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 n a)
      = (W6 m ρ c (Proc.devRef .tc main_v154_0) : S50000x3.Idx → EReal) (ix2 n a) := by
  rw [Cert.ReferenceIdeal.RefSide.mu_apply, Cert.KernelIdeal.Results.mu_apply m ρ c n a]
  unfold Cert.ReferenceIdeal.RefSide.outAt
  rw [← hid_eq m ρ c, ← Cert.HostBridge.prop128_eq]
  rfl

/-- The second result, entry by entry. -/
theorem sigma_eq (n : Fin 50000) (a : Fin 3) :
    Cert.ReferenceIdeal.Read.val_main_v190 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (ix2 n a)
      = (W6 m ρ c (Proc.devRef .tc main_v154_1) : S50000x3.Idx → EReal) (ix2 n a) := by
  rw [Cert.ReferenceIdeal.RefSide.sigma_apply, Cert.KernelIdeal.Results.sigma_apply m ρ c n a]
  unfold Cert.ReferenceIdeal.RefSide.outAt
  rw [← hid_eq m ρ c, ← Cert.HostBridge.prop128_eq]
  have e : colHi a = (⟨a.val + 3, by have := a.isLt; omega⟩ : Fin 6) := Fin.ext (by show 3 + a.val = a.val + 3; omega)
  rw [e]

/-- Run from memories that agree on the arguments, both programs terminate, with equal results and unchanged arguments. -/
theorem algebraic [Cert.Pre_finite_inputs.Facts] : Cert.algebraic_KernelIdeal_ReferenceIdeal := by
  intro m ρ m' ρ' _ hagree
  refine ⟨fun c => W6 m ρ c (Proc.devRef .tc main_v154_0), fun c => W6 m ρ c (Proc.devRef .tc main_v154_1),
    Cert.KernelIdeal.Hand.run_all (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v185_eq, (hagree c).1, (hagree c).2.1, (hagree c).2.2.1, (hagree c).2.2.2.1,
      (hagree c).2.2.2.2.1, (hagree c).2.2.2.2.2.1, (hagree c).2.2.2.2.2.2]
    funext i
    obtain ⟨n, a, rfl⟩ : ∃ (n : Fin 50000) (a : Fin 3), i = ix2 n a := ⟨i 0, i 1, eq_ix2 i⟩
    exact mu_eq m ρ c n a
  · rw [Cert.ReferenceIdeal.Read.val_main_v190_eq, (hagree c).1, (hagree c).2.1, (hagree c).2.2.1, (hagree c).2.2.2.1,
      (hagree c).2.2.2.2.1, (hagree c).2.2.2.2.2.1, (hagree c).2.2.2.2.2.2]
    funext i
    obtain ⟨n, a, rfl⟩ : ∃ (n : Fin 50000) (a : Fin 3), i = ix2 n a := ⟨i 0, i 1, eq_ix2 i⟩
    exact sigma_eq m ρ c n a

end Cert.Proof.Equal

end
-- ==== Proof.lean ====
/-
  The kernel computes two rounds of graph propagation: the edge weights are normalised by the inverse square roots of the
  weighted in-degrees of their end points, the node features are propagated four times along the edges (gather at the
  source, scale, add up at the target), and each round combines the five propagation depths by
  Σ_k H_k · W_k + b — a relu after the first round; after the second, tanh of the first three columns and
  exp(2 · tanh) of the last three. The propagation is done by host operations in both programs; the kernel does the
  combination in two launches over blocks of 2000 nodes, starting its accumulator at zero, multiplying the gathered
  rows by the weights in the other order and rounding the matrix operands to bf16, which changes nothing on the extended
  reals. The three frames, and that the two programs end with the same two arrays.
-/
import proofs.«100254_j64845416235556_1_alg».proof.Defs
import proofs.«100254_j64845416235556_1_alg».proof.Proof.Gen.Kernel
import proofs.«100254_j64845416235556_1_alg».proof.Proof.Gen.KernelIdeal
import proofs.«100254_j64845416235556_1_alg».proof.Proof.Gen.ReferenceIdeal
import proofs.«100254_j64845416235556_1_alg».proof.Proof.Gen.Pre_finite_inputs
import proofs.«100254_j64845416235556_1_alg».proof.Proof.Gen.ReferenceIdeal.Run
import proofs.«100254_j64845416235556_1_alg».proof.Proof.Kernel.Run
import proofs.«100254_j64845416235556_1_alg».proof.Proof.KernelIdeal.Run
import proofs.«100254_j64845416235556_1_alg».proof.Proof.Equal

noncomputable section

namespace Cert.Proof

open Idealize.ShloMosaic Idealize.SL.Sem

/-- The reference's frame: its run, the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    frame_ri,
    trivial,
    Cert.Proof.Equal.algebraic⟩

end Cert.Proof

end
